-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x197x768 : Shape := ⟨3, ![64, 197, 768]⟩
abbrev S64x2x10x12x64 : Shape := ⟨5, ![64, 2, 10, 12, 64]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S64x197x768 : S_.BroadcastsInDim S64x197x768 (![] : Fin 0 → Fin S64x197x768.rank)
  reducesTo_S64x197x768_S_d0_1_2 : S64x197x768.ReducesTo [0, 1, 2] S_
  h_S_ : 0 < S_.numel
  bcast_S_S64x2x10x12x64 : S_.BroadcastsInDim S64x2x10x12x64 (![] : Fin 0 → Fin S64x2x10x12x64.rank)
  reducesTo_S64x2x10x12x64_S_d0_1_2_3_4 : S64x2x10x12x64.ReducesTo [0, 1, 2, 3, 4] S_
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S64x197x768 .f32) (main_arg1 : FVec F S64x2x10x12x64 .f32) (main_arg2 : FVec F S2304x768 .f32) (main_arg3 : FVec F S768x768 .f32) (main_arg4 : FVec F S768 .f32) : IVec S_ 1 :=
  let main_v0 : FVec F S64x197x768 .f32 := Host.absf main_arg0
  let main_cst : FVec F S_ .f32 := constant S_ .f32 0x7F800000#32
  let main_v1 : FVec F S64x197x768 .f32 := broadcastInDim S64x197x768 ![] bcast_S_S64x197x768 main_cst
  let main_v2 : IVec S64x197x768 1 := cmpf .olt main_v0 main_v1
  let main_c : IVec S_ 1 := constantI S_ 1 1#1
  let main_v3 : IVec S_ 1 := (fun x v => Host.reduce IntOp.andi x v reducesTo_S64x197x768_S_d0_1_2 h_S_) main_v2 main_c
  let main_v4 : FVec F S64x2x10x12x64 .f32 := Host.absf main_arg1
  let main_cst_0 : FVec F S_ .f32 := constant S_ .f32 0x7F800000#32
  let main_v5 : FVec F S64x2x10x12x64 .f32 := broadcastInDim S64x2x10x12x64 ![] bcast_S_S64x2x10x12x64 main_cst_0
  let main_v6 : IVec S64x2x10x12x64 1 := cmpf .olt main_v4 main_v5
  let main_c_1 : IVec S_ 1 := constantI S_ 1 1#1
  let main_v7 : IVec S_ 1 := (fun x v => Host.reduce IntOp.andi x v reducesTo_S64x2x10x12x64_S_d0_1_2_3_4 h_S_) main_v6 main_c_1
  let main_v8 : IVec S_ 1 := andi main_v3 main_v7
  let main_v9 : FVec F S2304x768 .f32 := Host.absf main_arg2
  let main_cst_2 : FVec F S_ .f32 := constant S_ .f32 0x7F800000#32
  let main_v10 : FVec F S2304x768 .f32 := broadcastInDim S2304x768 ![] bcast_S_S2304x768 main_cst_2
  let main_v11 : IVec S2304x768 1 := cmpf .olt main_v9 main_v10
  let main_c_3 : IVec S_ 1 := constantI S_ 1 1#1
  let main_v12 : IVec S_ 1 := (fun x v => Host.reduce IntOp.andi x v reducesTo_S2304x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S64x197x768 : Shape := ⟨3, ![64, 197, 768]⟩
abbrev S64x2x10x12x64 : Shape := ⟨5, ![64, 2, 10, 12, 64]⟩
abbrev S2304x768 : Shape := ⟨2, ![2304, 768]⟩
abbrev S768x768 : Shape := ⟨2, ![768, 768]⟩
abbrev S768 : Shape := ⟨1, ![768]⟩
abbrev S64x2x12x10x64 : Shape := ⟨5, ![64, 2, 12, 10, 64]⟩
abbrev S2x197x768 : Shape := ⟨3, ![2, 197, 768]⟩
abbrev S2x2x12x10x64 : Shape := ⟨5, ![2, 2, 12, 10, 64]⟩
abbrev S197x768 : Shape := ⟨2, ![197, 768]⟩
abbrev S1x197x768 : Shape := ⟨3, ![1, 197, 768]⟩
abbrev S197x2304 : Shape := ⟨2, ![197, 2304]⟩
abbrev S197x64 : Shape := ⟨2, ![197, 64]⟩
abbrev S1x1x1x10x64 : Shape := ⟨5, ![1, 1, 1, 10, 64]⟩
abbrev S10x64 : Shape := ⟨2, ![10, 64]⟩
abbrev S207x64 : Shape := ⟨2, ![207, 64]⟩
abbrev S197x207 : Shape := ⟨2, ![197, 207]⟩
abbrev S197 : Shape := ⟨1, ![197]⟩
abbrev S197x1 : Shape := ⟨2, ![197, 1]⟩
abbrev S197x128 : Shape := ⟨2, ![197, 128]⟩
abbrev S1x768 : Shape := ⟨2, ![1, 768]⟩

abbrev nBuf : Space → Nat
  | .hbm => 9
  | .vmem => 10
  | .smem => 0
  | _ => 0

abbrev bufTy : (tb : Table) → Fin (tcTables nBuf tb) → BufTy
  | .hbm, ⟨0, _⟩ => ⟨S64x197x768, .f32⟩
  | .hbm, ⟨1, _⟩ => ⟨S64x2x10x12x64, .f32⟩
  | .hbm, ⟨2, _⟩ => ⟨S2304x768, .f32⟩
  | .hbm, ⟨3, _⟩ => ⟨S768x768, .f32⟩
  | .hbm, ⟨4, _⟩ => ⟨S768, .f32⟩
  | .hbm, ⟨5, _⟩ => ⟨S2304x768, .bf16⟩
  | .hbm, ⟨6, _⟩ => ⟨S768x768, .bf16⟩
  | .hbm, ⟨7, _⟩ => ⟨S64x2x12x10x64, .f32⟩
  | .hbm, ⟨8, _⟩ => ⟨S64x197x768, .f32⟩
  | .local _ .vmem, ⟨0, _⟩ => ⟨S2x197x768, .f32⟩
  | .local _ .vmem, ⟨1, _⟩ => ⟨S2x197x768, .f32⟩
  | .local _ .vmem, ⟨2, _⟩ => ⟨S2x2x12x10x64, .f32⟩
  | .local _ .vmem, ⟨3, _⟩ => ⟨S2x2x12x10x64, .f32⟩
  | .local _ .vmem, ⟨4, _⟩ => ⟨S2304x768, .bf16⟩
  | .local _ .vmem, ⟨5, _⟩ => ⟨S768x768, .bf16⟩
  | .local _ .vmem, ⟨6, _⟩ => ⟨S768, .f32⟩
  | .local _ .vmem, ⟨7, _⟩ => ⟨S2x197x768, .f32⟩
  | .local _ .vmem, ⟨8, _⟩ => ⟨S2x197x768, .f32⟩
  | .local _ .vmem, ⟨9, _⟩ => ⟨S197x768, .f32⟩
  | _, _ => ⟨S64x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x197x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x12x10x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x197x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S64x2x10x12x64_S64x2x12x10x64_0_1_3_2_4 : S64x2x10x12x64.Transposes [0, 1, 3, 2, 4] S64x2x12x10x64
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S2x197x768_S1x197x768_0_0_0 : ∀ a, (![0, 0, 0] : Fin 3 → Nat) a + S1x197x768.size a ≤ S2x197x768.size a
  h_S1x197x768 : 0 < S1x197x768.numel
  shapeCasts_S1x197x768_S197x768 : S1x197x768.ShapeCasts S197x768
  slices_S197x2304_o0_0_S197x768 : S197x2304.Slices ![0, 0] S197x768
  slices_S197x2304_o0_768_S197x768 : S197x2304.Slices ![0, 768] S197x768
  slices_S197x2304_o0_1536_S197x768 : S197x2304.Slices ![0, 1536] S197x768
  slices_S197x768_o0_0_S197x64 : S197x768.Slices ![0, 0] S197x64
  inb_S2x2x12x10x64_S1x1x1x10x64_0_0_0_0_0 : ∀ a, (![0, 0, 0, 0, 0] : Fin 5 → Nat) a + S1x1x1x10x64.size a ≤ S2x2x12x10x64.size a
  h_S1x1x1x10x64 : 0 < S1x1x1x10x64.numel
  shapeCasts_S1x1x1x10x64_S10x64 : S1x1x1x10x64.ShapeCasts S10x64
  inb_S2x2x12x10x64_S1x1x1x10x64_0_1_0_0_0 : ∀ a, (![0, 1, 0, 0, 0] : Fin 5 → Nat) a + S1x1x1x10x64.size a ≤ S2x2x12x10x64.size a
  concatenates_S10x64_S197x64_S207x64_d0 : Shape.Concatenates [S10x64, S197x64] S207x64 0
  reduces_S197x207_S197 : S197x207.Reduces [1] S197
  shapeCasts_S197_S197x1 : S197.ShapeCasts S197x1
  broadcasts_S197x1_S197x207 : S197x1.Broadcasts S197x207
  broadcasts_S197x1_S197x64 : S197x1.Broadcasts S197x64
  slices_S197x768_o0_64_S197x64 : S197x768.Slices ![0, 64] S197x64
  inb_S2x2x12x10x64_S1x1x1x10x64_0_0_1_0_0 : ∀ a, (![0, 0, 1, 0, 0] : Fin 5 → Nat) a + S1x1x1x10x64.size a ≤ S2x2x12x10x64.size a
  inb_S2x2x12x10x64_S1x1x1x10x64_0_1_1_0_0 : ∀ a, (![0, 1, 1, 0, 0] : Fin 5 → Nat) a + S1x1x1x10x64.size a ≤ S2x2x12x10x64.size a
  concatenates_S197x64_S197x64_S197x128_d1 : Shape.Concatenates [S197x64, S197x64] S197x128 1
  inb_S197x768_S197x128_0_0 : ∀ a, (![0, 0] : Fin 2 → Nat) a + S197x128.size a ≤ S197x768.size a
  h_S197x128 : 0 < S197x128.numel
  shapeCasts_S197x128_S197x128 : S197x128.ShapeCasts S197x128
  slices_S197x768_o0_128_S197x64 : S197x768.Slices ![0, 128] S197x64
  inb_S2x2x12x10x64_S1x1x1x10x64_0_0_2_0_0 : ∀ a, (![0, 0, 2, 0, 0] : Fin 5 → Nat) a + S1x1x1x10x64.size a ≤ S2x2x12x10x64.size a
  inb_S2x2x12x10x64_S1x1x1x10x64_0_1_2_0_0 : ∀ a, (![0, 1, 2, 0, 0] : Fin 5 → Nat) a + S1x1x1x10x64.size a ≤ S2x2x12x10x64.size a
  slices_S197x768_o0_192_S197x64 : S197x768.Slices ![0, 192] S197x64
  inb_S2x2x12x10x64_S1x1x1x10x64_0_0_3_0_0 : ∀ a, (![0, 0, 3, 0, 0] : Fin 5 → Nat) a + S1x1x1x10x64.size a ≤ S2x2x12x10x64.size a
  inb_S2x2x12x10x64_S1x1x1x10x64_0_1_3_0_0 : ∀ a, (![0, 1, 3, 0, 0] : Fin 5 → Nat) a + S1x1x1x10x64.size a ≤ S2x2x12x10x64.size a
  inb_S197x768_S197x128_0_128 : ∀ a, (![0, 128] : Fin 2 → Nat) a + S197x128.size a ≤ S197x768.size a
  slices_S197x768_o0_256_S197x64 : S197x768.Slices ![0, 256] S197x64
  inb_S2x2x12x10x64_S1x1x1x10x64_0_0_4_0_0 : ∀ a, (![0, 0, 4, 0, 0] : Fin 5 → Nat) a + S1x1x1x10x64.size a ≤ S2x2x12x10x64.size a
  inb_S2x2x12x10x64_S1x1x1x10x64_0_1_4_0_0 : ∀ a, (![0, 1, 4, 0, 0] : Fin 5 → Nat) a + S1x1x1x10x64.size a ≤ S2x2x12x10x64.size a
  slices_S197x768_o0_320_S197x64 : S197x768.Slices ![0, 320] S197x64
  inb_S2x2x12x10x64_S1x1x1x10x64_0_0_5_0_0 : ∀ a, (![0, 0, 5, 0, 0] : Fin 5 → Nat) a + S1x1x1x10x64.size a ≤ S2x2x12x10x64.size a
  inb_S2x2x12x10x64_S1x1x1x10x64_0_1_5_0_0 : ∀ a, (![0, 1, 5, 0, 0] : Fin 5 → Nat) a + S1x1x1x10x64.size a ≤ S2x2x12x10x64.size a
  inb_S197x768_S197x128_0_256 : ∀ a, (![0, 256] : Fin 2 → Nat) a + S197x128.size a ≤ S197x768.size a
  slices_S197x768_o0_384_S197x64 : S197x768.Slices ![0, 384] S197x64
  inb_S2x2x12x10x64_S1x1x1x10x64_0_0_6_0_0 : ∀ a, (![0, 0, 6, 0, 0] : Fin 5 → Nat) a + S1x1x1x10x64.size a ≤ S2x2x12x10x64.size a
  inb_S2x2x12x10x64_S1x1x1x10x64_0_1_6_0_0 : ∀ a, (![0, 1, 6, 0, 0] : Fin 5 → Nat) a + S1x1x1x10x64.size a ≤ S2x2x12x10x64.size a
  slices_S197x768_o0_448_S197x64 : S197x768.Slices ![0, 448] S197x64
  inb_S2x2x12x10x64_S1x1x1x10x64_0_0_7_0_0 : ∀ a, (![0, 0, 7, 0, 0] : Fin 5 → Nat) a + S1x1x1x10x64.size a ≤ S2x2x12x10x64.size a
  inb_S2x2x12x10x64_S1x1x1x10x64_0_1_7_0_0 : ∀ a, (![0, 1, 7, 0, 0] : Fin 5 → Nat) a + S1x1x1x10x64.size a ≤ S2x2x12x10x64.size a
  inb_S197x768_S197x128_0_384 : ∀ a, (![0, 384] : Fin 2 → Nat) a + S197x128.size a ≤ S197x768.size a
  slices_S197x768_o0_512_S197x64 : S197x768.Slices ![0, 512] S197x64
  inb_S2x2x12x10x64_S1x1x1x10x64_0_0_8_0_0 : ∀ a, (![0, 0, 8, 0, 0] : Fin 5 → Nat) a + S1x1x1x10x64.size a ≤ S2x2x12x10x64.size a
  inb_S2x2x12x10x64_S1x1x1x10x64_0_1_8_0_0 : ∀ a, (![0, 1, 8, 0, 0] : Fin 5 → Nat) a + S1x1x1x10x64.size a ≤ S2x2x12x10x64.size a
  slices_S197x768_o0_576_S197x64 : S197x768.Slices ![0, 576] S197x64
  inb_S2x2x12x10x64_S1x1x1x10x64_0_0_9_0_0 : ∀ a, (![0, 0, 9, 0, 0] : Fin 5 → Nat) a + S1x1x1x10x64.size a ≤ S2x2x12x10x64.size a
  inb_S2x2x12x10x64_S1x1x1x10x64_0_1_9_0_0 : ∀ a, (![0, 1, 9, 0, 0] : Fin 5 → Nat) a + S1x1x1x10x64.size a ≤ S2x2x12x10x64.size a
  inb_S197x768_S197x128_0_512 : ∀ a, (![0, 512] : Fin 2 → Nat) a + S197x128.size a ≤ S197x768.size a
  slices_S197x768_o0_640_S197x64 : S197x768.Slices ![0, 640] S197x64
  inb_S2x2x12x10x64_S1x1x1x10x64_0_0_10_0_0 : ∀ a, (![0, 0, 10, 0, 0] : Fin 5 → Nat) a + S1x1x1x10x64.size a ≤ S2x2x12x10x64.size a
  inb_S2x2x12x10x64_S1x1x1x10x64_0_1_10_0_0 : ∀ a, (![0, 1, 10, 0, 0] : Fin 5 → Nat) a + S1x1x1x10x64.size a ≤ S2x2x12x10x64.size a
  slices_S197x768_o0_704_S197x64 : S197x768.Slices ![0, 704] S197x64
  inb_S2x2x12x10x64_S1x1x1x10x64_0_0_11_0_0 : ∀ a, (![0, 0, 11, 0, 0] : Fin 5 → Nat) a + S1x1x1x10x64.size a ≤ S2x2x12x10x64.size a
  inb_S2x2x12x10x64_S1x1x1x10x64_0_1_11_0_0 : ∀ a, (![0, 1, 11, 0, 0] : Fin 5 → Nat) a + S1x1x1x10x64.size a ≤ S2x2x12x10x64.size a
  inb_S197x768_S197x128_0_640 : ∀ a, (![0, 640] : Fin 2 → Nat) a + S197x128.size a ≤ S197x768.size a
  inb_S197x768_S197x768_0_0 : ∀ a, (![0, 0] : Fin 2 → Nat) a + S197x768.size a ≤ S197x768.size a
  h_S197x768 : 0 < S197x768.numel
  inb_S768_S768_0 : ∀ a, (![0] : Fin 1 → Nat) a + S768.size a ≤ S768.size a
  h_S768 : 0 < S768.numel
  shapeCasts_S768_S1x768 : S768.ShapeCasts S1x768
  broadcasts_S1x768_S197x768 : S1x768.Broadcasts S197x768
  shapeCasts_S197x768_S1x197x768 : S197x768.ShapeCasts S1x197x768
  inb_S2x197x768_S1x197x768_1_0_0 : ∀ a, (![1, 0, 0] : Fin 3 → Nat) a + S1x197x768.size a ≤ S2x197x768.size a
  inb_S2x2x12x10x64_S1x1x1x10x64_1_0_0_0_0 : ∀ a, (![1, 0, 0, 0, 0] : Fin 5 → Nat) a + S1x1x1x10x64.size a ≤ S2x2x12x10x64.size a
  inb_S2x2x12x10x64_S1x1x1x10x64_1_1_0_0_0 : ∀ a, (![1, 1, 0, 0, 0] : Fin 5 → Nat) a + S1x1x1x10x64.size a ≤ S2x2x12x10x64.size a
  inb_S2x2x12x10x64_S1x1x1x10x64_1_0_1_0_0 : ∀ a, (![1, 0, 1, 0, 0] : Fin 5 → Nat) a + S1x1x1x10x64.size a ≤ S2x2x12x10x64.size a
  inb_S2x2x12x10x64_S1x1x1x10x64_1_1_1_0_0 : ∀ a, (![1, 1, 1, 0, 0] : Fin 5 → Nat) a + S1x1x1x10x64.size a ≤ S2x2x12x10x64.size a
  inb_S2x2x12x10x64_S1x1x1x10x64_1_0_2_0_0 : ∀ a, (![1, 0, 2, 0, 0] : Fin 5 → Nat) a + S1x1x1x10x64.size a ≤ S2x2x12x10x64.size a
  inb_S2x2x12x10x64_S1x1x1x10x64_1_1_2_0_0 : ∀ a, (![1, 1, 2, 0, 0] : Fin 5 → Nat) a + S1x1x1x10x64.size a ≤ S2x2x12x10x64.size a
  inb_S2x2x12x10x64_S1x1x1x10x64_1_0_3_0_0 : ∀ a, (![1, 0, 3, 0, 0] : Fin 5 → Nat) a + S1x1x1x10x64.size a ≤ S2x2x12x10x64.size a
  inb_S2x2x12x10x64_S1x1x1x10x64_1_1_3_0_0 : ∀ a, (![1, 1, 3, 0, 0] : Fin 5 → Nat) a + S1x1x1x10x64.size a ≤ S2x2x12x10x64.size a
  inb_S2x2x12x10x64_S1x1x1x10x64_1_0_4_0_0 : ∀ a, (![1, 0, 4, 0, 0] : Fin 5 → Nat) a + S1x1x1x10x64.size a ≤ S2x2x12x10x64.size a
  inb_S2x2x12x10x64_S1x1x1x10x64_1_1_4_0_0 : ∀ a, (![1, 1, 4, 0, 0] : Fin 5 → Nat) a + S1x1x1x10x64.size a ≤ S2x2x12x10x64.size a
  inb_S2x2x12x10x64_S1x1x1x10x64_1_0_5_0_0 : ∀ a, (![1, 0, 5, 0, 0] : Fin 5 → Nat) a + S1x1x1x10x64.size a ≤ S2x2x12x10x64.size a
  inb_S2x2x12x10x64_S1x1x1x10x64_1_1_5_0_0 : ∀ a, (![1, 1, 5, 0, 0] : Fin 5 → Nat) a + S1x1x1x10x64.size a ≤ S2x2x12x10x64.size a
  inb_S2x2x12x10x64_S1x1x1x10x64_1_0_6_0_0 : ∀ a, (![1, 0, 6, 0, 0] : Fin 5 → Nat) a + S1x1x1x10x64.size a ≤ S2x2x12x10x64.size a
  inb_S2x2x12x10x64_S1x1x1x10x64_1_1_6_0_0 : ∀ a, (![1, 1, 6, 0, 0] : Fin 5 → Nat) a + S1x1x1x10x64.size a ≤ S2x2x12x10x64.size a
  inb_S2x2x12x10x64_S1x1x1x10x64_1_0_7_0_0 : ∀ a, (![1, 0, 7, 0, 0] : Fin 5 → Nat) a + S1x1x1x10x64.size a ≤ S2x2x12x10x64.size a
  inb_S2x2x12x10x64_S1x1x1x10x64_1_1_7_0_0 : ∀ a, (![1, 1, 7, 0, 0] : Fin 5 → Nat) a + S1x1x1x10x64.size a ≤ S2x2x12x10x64.size a
  inb_S2x2x12x10x64_S1x1x1x10x64_1_0_8_0_0 : ∀ a, (![1, 0, 8, 0, 0] : Fin 5 → Nat) a + S1x1x1x10x64.size a ≤ S2x2x12x10x64.size a
  inb_S2x2x12x10x64_S1x1x1x10x64_1_1_8_0_0 : ∀ a, (![1, 1, 8, 0, 0] : Fin 5 → Nat) a + S1x1x1x10x64.size a ≤ S2x2x12x10x64.size a
  inb_S2x2x12x10x64_S1x1x1x10x64_1_0_9_0_0 : ∀ a, (![1, 0, 9, 0, 0] : Fin 5 → Nat) a + S1x1x1x10x64.size a ≤ S2x2x12x10x64.size a
  inb_S2x2x12x10x64_S1x1x1x10x64_1_1_9_0_0 : ∀ a, (![1, 1, 9, 0, 0] : Fin 5 → Nat) a + S1x1x1x10x64.size a ≤ S2x2x12x10x64.size a
  inb_S2x2x12x10x64_S1x1x1x10x64_1_0_10_0_0 : ∀ a, (![1, 0, 10, 0, 0] : Fin 5 → Nat) a + S1x1x1x10x64.size a ≤ S2x2x12x10x64.size a
  inb_S2x2x12x10x64_S1x1x1x10x64_1_1_10_0_0 : ∀ a, (![1, 1, 10, 0, 0] : Fin 5 → Nat) a + S1x1x1x10x64.size a ≤ S2x2x12x10x64.size a
  inb_S2x2x12x10x64_S1x1x1x10x64_1_0_11_0_0 : ∀ a, (![1, 0, 11, 0, 0] : Fin 5 → Nat) a + S1x1x1x10x64.size a ≤ S2x2x12x10x64.size a
  inb_S2x2x12x10x64_S1x1x1x10x64_1_1_11_0_0 : ∀ a, (![1, 1, 11, 0, 0] : Fin 5 → Nat) a + S1x1x1x10x64.size a ≤ S2x2x12x10x64.size a
  dot_S197x768_S2304x768_S197x2304_1_1_0_0_n_n_wf : DotDims.WF S197x768 S2304x768 S197x2304 [1] [1] [0] [0] [] []
  dot_S197x64_S207x64_S197x207_1_1_0_0_n_n_wf : DotDims.WF S197x64 S207x64 S197x207 [1] [1] [0] [0] [] []
  dot_S197x207_S207x64_S197x64_1_0_0_1_n_n_wf : DotDims.WF S197x207 S207x64 S197x64 [1] [0] [0] [1] [] []
  dot_S197x768_S768x768_S197x768_1_1_0_0_n_n_wf : DotDims.WF S197x768 S768x768 S197x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x197x768.size a ≤ S64x197x768.size a
  hwx0_0 : ∀ i : grid0.Coords, EltTy.bits .f32 = 32 ∨ (Rect.block (s := S64x197x768) S2x197x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2x12x10x64.size a ≤ S64x2x12x10x64.size a
  hwx0_1 : ∀ i : grid0.Coords, EltTy.bits .f32 = 32 ∨ (Rect.block (s := S64x2x12x10x64) S2x2x12x10x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304x768.size a ≤ S2304x768.size a
  hwx0_2 : ∀ i : grid0.Coords, EltTy.bits .bf16 = 32 ∨ (Rect.block (s := S2304x768) S2304x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x197x768.size a ≤ S64x197x768.size a
  hwx0_5 : ∀ i : grid0.Coords, EltTy.bits .f32 = 32 ∨ (Rect.block (s := S64x197x768) S2x197x768.size (cc0_transform_5 i) (hinb0_5 i)).WholeWords (EltTy.packing .f32)

variable [Facts₀]

def dot_S197x768_S2304x768_S197x2304_1_1_0_0_n_n : DotDims S197x768 S2304x768 S197x2304 where
  lhsContracting := [1]
  rhsContracting := [1]
  lhsNonContracting := [0]
  rhsNonContracting := [0]
  lhsBatch := []
  rhsBatch := []
  wf := dot_S197x768_S2304x768_S197x2304_1_1_0_0_n_n_wf
def dot_S197x64_S207x64_S197x207_1_1_0_0_n_n : DotDims S197x64 S207x64 S197x207 where
  lhsContracting := [1]
  rhsContracting := [1]
  lhsNonContracting := [0]
  rhsNonContracting := [0]
  lhsBatch := []
  rhsBatch := []
  wf := dot_S197x64_S207x64_S197x207_1_1_0_0_n_n_wf
def dot_S197x207_S207x64_S197x64_1_0_0_1_n_n : DotDims S197x207 S207x64 S197x64 where
  lhsContracting := [1]
  rhsContracting := [0]
  lhsNonContracting := [0]
  rhsNonContracting := [1]
  lhsBatch := []
  rhsBatch := []
  wf := dot_S197x207_S207x64_S197x64_1_0_0_1_n_n_wf
def dot_S197x768_S768x768_S197x768_1_1_0_0_n_n : DotDims S197x768 S768x768 S197x768 where
  lhsContracting := [1]
  rhsContracting := [1]
  lhsNonContracting := [0]
  rhsNonContracting := [0]
  lhsBatch := []
  rhsBatch := []
  wf := dot_S197x768_S768x768_S197x768_1_1_0_0_n_n_wf

abbrev win0_0 : Pipeline.Window sig grid0 :=
  Pipeline.Window.ofSpec (Memref.whole main_arg0) S2x197x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x2x12x10x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2304x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x197x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x197x768 : Shape := ⟨3, ![64, 197, 768]⟩
abbrev S64x2x10x12x64 : Shape := ⟨5, ![64, 2, 10, 12, 64]⟩
abbrev S2304x768 : Shape := ⟨2, ![2304, 768]⟩
abbrev S768x768 : Shape := ⟨2, ![768, 768]⟩
abbrev S768 : Shape := ⟨1, ![768]⟩
abbrev S64x197x2304 : Shape := ⟨3, ![64, 197, 2304]⟩
abbrev S64x197x3x12x64 : Shape := ⟨5, ![64, 197, 3, 12, 64]⟩
abbrev S3x64x12x197x64 : Shape := ⟨5, ![3, 64, 12, 197, 64]⟩
abbrev S1x64x12x197x64 : Shape := ⟨5, ![1, 64, 12, 197, 64]⟩
abbrev S64x12x197x64 : Shape := ⟨4, ![64, 12, 197, 64]⟩
abbrev S2x64x12x10x64 : Shape := ⟨5, ![2, 64, 12, 10, 64]⟩
abbrev S1x64x12x10x64 : Shape := ⟨5, ![1, 64, 12, 10, 64]⟩
abbrev S64x12x10x64 : Shape := ⟨4, ![64, 12, 10, 64]⟩
abbrev S64x12x207x64 : Shape := ⟨4, ![64, 12, 207, 64]⟩
abbrev S64x12x197x207 : Shape := ⟨4, ![64, 12, 197, 207]⟩
abbrev S_ : Shape := ⟨0, ![]⟩
abbrev S64x12x197 : Shape := ⟨3, ![64, 12, 197]⟩
abbrev S64x12x197x1 : Shape := ⟨4, ![64, 12, 197, 1]⟩
abbrev S64x197x12x64 : Shape := ⟨4, ![64, 197, 12, 64]⟩
abbrev S1x1x768 : Shape := ⟨3, ![1, 1, 768]⟩

abbrev nBuf : Space → Nat
  | .hbm => 46
  | .vmem => 0
  | .smem => 0
  | _ => 0

abbrev bufTy : (tb : Table) → Fin (tcTables nBuf tb) → BufTy
  | .hbm, ⟨0, _⟩ => ⟨S64x197x768, .f32⟩
  | .hbm, ⟨1, _⟩ => ⟨S64x2x10x12x64, .f32⟩
  | .hbm, ⟨2, _⟩ => ⟨S2304x768, .f32⟩
  | .hbm, ⟨3, _⟩ => ⟨S768x768, .f32⟩
  | .hbm, ⟨4, _⟩ => ⟨S768, .f32⟩
  | .hbm, ⟨5, _⟩ => ⟨S64x197x2304, .f32⟩
  | .hbm, ⟨6, _⟩ => ⟨S64x197x3x12x64, .f32⟩
  | .hbm, ⟨7, _⟩ => ⟨S3x64x12x197x64, .f32⟩
  | .hbm, ⟨8, _⟩ => ⟨S1x64x12x197x64, .f32⟩
  | .hbm, ⟨9, _⟩ => ⟨S64x12x197x64, .f32⟩
  | .hbm, ⟨10, _⟩ => ⟨S1x64x12x197x64, .f32⟩
  | .hbm, ⟨11, _⟩ => ⟨S64x12x197x64, .f32⟩
  | .hbm, ⟨12, _⟩ => ⟨S1x64x12x197x64, .f32⟩
  | .hbm, ⟨13, _⟩ => ⟨S64x12x197x64, .f32⟩
  | .hbm, ⟨14, _⟩ => ⟨S2x64x12x10x64, .f32⟩
  | .hbm, ⟨15, _⟩ => ⟨S1x64x12x10x64, .f32⟩
  | .hbm, ⟨16, _⟩ => ⟨S64x12x10x64, .f32⟩
  | .hbm, ⟨17, _⟩ => ⟨S64x12x207x64, .f32⟩
  | .hbm, ⟨18, _⟩ => ⟨S1x64x12x10x64, .f32⟩
  | .hbm, ⟨19, _⟩ => ⟨S64x12x10x64, .f32⟩
  | .hbm, ⟨20, _⟩ => ⟨S64x12x207x64, .f32⟩
  | .hbm, ⟨21, _⟩ => ⟨S64x12x197x207, .f32⟩
  | .hbm, ⟨22, _⟩ => ⟨S_, .f32⟩
  | .hbm, ⟨23, _⟩ => ⟨S64x12x197x207, .f32⟩
  | .hbm, ⟨24, _⟩ => ⟨S64x12x197x207, .f32⟩
  | .hbm, ⟨25, _⟩ => ⟨S_, .f32⟩
  | .hbm, ⟨26, _⟩ => ⟨S64x12x197, .f32⟩
  | .hbm, ⟨27, _⟩ => ⟨S_, .f32⟩
  | .hbm, ⟨28, _⟩ => ⟨S64x12x197, .f32⟩
  | .hbm, ⟨29, _⟩ => ⟨S64x12x197, .f32⟩
  | .hbm, ⟨30, _⟩ => ⟨S64x12x197x1, .f32⟩
  | .hbm, ⟨31, _⟩ => ⟨S64x12x197x207, .f32⟩
  | .hbm, ⟨32, _⟩ => ⟨S64x12x197x207, .f32⟩
  | .hbm, ⟨33, _⟩ => ⟨S64x12x197x207, .f32⟩
  | .hbm, ⟨34, _⟩ => ⟨S_, .f32⟩
  | .hbm, ⟨35, _⟩ => ⟨S64x12x197, .f32⟩
  | .hbm, ⟨36, _⟩ => ⟨S64x12x197x1, .f32⟩
  | .hbm, ⟨37, _⟩ => ⟨S64x12x197x207, .f32⟩
  | .hbm, ⟨38, _⟩ => ⟨S64x12x197x207, .f32⟩
  | .hbm, ⟨39, _⟩ => ⟨S64x12x197x64, .f32⟩
  | .hbm, ⟨40, _⟩ => ⟨S64x197x12x64, .f32⟩
  | .hbm, ⟨41, _⟩ => ⟨S64x197x768, .f32⟩
  | .hbm, ⟨42, _⟩ => ⟨S64x197x768, .f32⟩
  | .hbm, ⟨43, _⟩ => ⟨S1x1x768, .f32⟩
  | .hbm, ⟨44, _⟩ => ⟨S64x197x768, .f32⟩
  | .hbm, ⟨45, _⟩ => ⟨S64x197x768, .f32⟩
  | _, _ => ⟨S64x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]

class Facts₀ : Prop where
  shapeCasts_S64x197x2304_S64x197x3x12x64 : S64x197x2304.ShapeCasts S64x197x3x12x64
  transposes_S64x197x3x12x64_S3x64x12x197x64_2_0_3_1_4 : S64x197x3x12x64.Transposes [2, 0, 3, 1, 4] S3x64x12x197x64
  slices_S3x64x12x197x64_S1x64x12x197x64_0_0_0_0_0 : S3x64x12x197x64.Slices ![0, 0, 0, 0, 0] S1x64x12x197x64
  shapeCasts_S1x64x12x197x64_S64x12x197x64 : S1x64x12x197x64.ShapeCasts S64x12x197x64
  slices_S3x64x12x197x64_S1x64x12x197x64_1_0_0_0_0 : S3x64x12x197x64.Slices ![1, 0, 0, 0, 0] S1x64x12x197x64
  slices_S3x64x12x197x64_S1x64x12x197x64_2_0_0_0_0 : S3x64x12x197x64.Slices ![2, 0, 0, 0, 0] S1x64x12x197x64
  transposes_S64x2x10x12x64_S2x64x12x10x64_1_0_3_2_4 : S64x2x10x12x64.Transposes [1, 0, 3, 2, 4] S2x64x12x10x64
  slices_S2x64x12x10x64_S1x64x12x10x64_0_0_0_0_0 : S2x64x12x10x64.Slices ![0, 0, 0, 0, 0] S1x64x12x10x64
  shapeCasts_S1x64x12x10x64_S64x12x10x64 : S1x64x12x10x64.ShapeCasts S64x12x10x64
  concatenates_S64x12x10x64_S64x12x197x64_S64x12x207x64_d2 : Shape.Concatenates [S64x12x10x64, S64x12x197x64] S64x12x207x64 2
  slices_S2x64x12x10x64_S1x64x12x10x64_1_0_0_0_0 : S2x64x12x10x64.Slices ![1, 0, 0, 0, 0] S1x64x12x10x64
  bcast_S_S64x12x197x207 : S_.BroadcastsInDim S64x12x197x207 (![] : Fin 0 → Fin S64x12x197x207.rank)
  reducesTo_S64x12x197x207_S64x12x197_d3 : S64x12x197x207.ReducesTo [3] S64x12x197
  h_S_ : 0 < S_.numel
  bcast_S_S64x12x197 : S_.BroadcastsInDim S64x12x197 (![] : Fin 0 → Fin S64x12x197.rank)
  bcast_S64x12x197_S64x12x197x1_0_1_2 : S64x12x197.BroadcastsInDim S64x12x197x1 (![0, 1, 2] : Fin 3 → Fin S64x12x197x1.rank)
  bcast_S64x12x197x1_S64x12x197x207_0_1_2_3 : S64x12x197x1.BroadcastsInDim S64x12x197x207 (![0, 1, 2, 3] : Fin 4 → Fin S64x12x197x207.rank)
  transposes_S64x12x197x64_S64x197x12x64_0_2_1_3 : S64x12x197x64.Transposes [0, 2, 1, 3] S64x197x12x64
  shapeCasts_S64x197x12x64_S64x197x768 : S64x197x12x64.ShapeCasts S64x197x768
  bcast_S768_S1x1x768_2 : S768.BroadcastsInDim S1x1x768 (![2] : Fin 1 → Fin S1x1x768.rank)
  bcast_S1x1x768_S64x197x768_0_1_2 : S1x1x768.BroadcastsInDim S64x197x768 (![0, 1, 2] : Fin 3 → Fin S64x197x768.rank)
  dot_S64x197x768_S2304x768_S64x197x2304_2_1_01_0_n_n_wf : DotDims.WF S64x197x768 S2304x768 S64x197x2304 [2] [1] [0, 1] [0] [] []
  dot_S64x12x197x64_S64x12x207x64_S64x12x197x207_3_3_2_2_01_01_wf : DotDims.WF S64x12x197x64 S64x12x207x64 S64x12x197x207 [3] [3] [2] [2] [0, 1] [0, 1]
  dot_S64x12x197x207_S64x12x207x64_S64x12x197x64_3_2_2_3_01_01_wf : DotDims.WF S64x12x197x207 S64x12x207x64 S64x12x197x64 [3] [2] [2] [3] [0, 1] [0, 1]
  dot_S64x197x768_S768x768_S64x197x768_2_1_01_0_n_n_wf : DotDims.WF S64x197x768 S768x768 S64x197x768 [2] [1] [0, 1] [0] [] []

variable [Facts₀]

def dot_S64x197x768_S2304x768_S64x197x2304_2_1_01_0_n_n : DotDims S64x197x768 S2304x768 S64x197x2304 where
  lhsContracting := [2]
  rhsContracting := [1]
  lhsNonContracting := [0, 1]
  rhsNonContracting := [0]
  lhsBatch := []
  rhsBatch := []
  wf := dot_S64x197x768_S2304x768_S64x197x2304_2_1_01_0_n_n_wf
def dot_S64x12x197x64_S64x12x207x64_S64x12x197x207_3_3_2_2_01_01 : DotDims S64x12x197x64 S64x12x207x64 S64x12x197x207 where
  lhsContracting := [3]
  rhsContracting := [3]
  lhsNonContracting := [2]
  rhsNonContracting := [2]
  lhsBatch := [0, 1]
  rhsBatch := [0, 1]
  wf := dot_S64x12x197x64_S64x12x207x64_S64x12x197x207_3_3_2_2_01_01_wf
def dot_S64x12x197x207_S64x12x207x64_S64x12x197x64_3_2_2_3_01_01 : DotDims S64x12x197x207 S64x12x207x64 S64x12x197x64 where
  lhsContracting := [3]
  rhsContracting := [2]
  lhsNonContracting := [2]
  rhsNonContracting := [3]
  lhsBatch := [0, 1]
  rhsBatch := [0, 1]
  wf := dot_S64x12x197x207_S64x12x207x64_S64x12x197x64_3_2_2_3_01_01_wf
def dot_S64x197x768_S768x768_S64x197x768_2_1_01_0_n_n : DotDims S64x197x768 S768x768 S64x197x768 where
  lhsContracting := [2]
  rhsContracting := [1]
  lhsNonContracting := [0, 1]
  rhsNonContracting := [0]
  lhsBatch := []
  rhsBatch := []
  wf := dot_S64x197x768_S768x768_S64x197x768_2_1_01_0_n_n_wf

class Facts : Prop extends Facts₀ where

variable [Facts]
-- ==== Proof.AttnSpec.lean ====
/-
  Multi-head attention with a learned prefix, written index by index on the extended reals.

  Arrays: `x` [64,197,768] (tokens), `pr` [64,2,10,12,64] (per batch: 10 prefix keys and 10 prefix values for
  each of 12 heads of width 64), `w` [2304,768] (the fused query/key/value projection, rows = output columns),
  `pw` [768,768] and `pb` [768] (the output projection and its bias).

  For batch `b`, head `h`: `proj b n s h d = ∑ e, x(b,n,e) · w(768 s + 64 h + d, e)` is the query (s = 0), key (s = 1)
  or value (s = 2) of token `n`; `ext 0` / `ext 1` are the 207 keys / values: the 10 prefix rows followed by the 197
  token rows. A score is `(∑ d, q(n,d) · key(j,d)) · sc`, the row maximum is the fold of `max` from `ninf`, the weight
  is `exp (score − max)` and the denominator their sum. The two programs differ in ONE place: one divides the weighted
  sum of values by the denominator (`headK`), the other divides each weight first (`headR`). Heads are laid side by
  side (column `c` of the 768 belongs to head `c / 64`, lane `c % 64`) and projected: `∑ c, head(n,c) · pw(o,c) + pb(o)`.
-/
import Idealize.ShloMosaic.PureOps.Ideal
import Idealize.ShloMosaic.Lib.ValueIdx

noncomputable section

open scoped BigOperators

namespace Cert.AttnSpec

open Idealize.ShloMosaic Idealize.ShloMosaic.ValueIdx

abbrev SX : Shape := ⟨3, ![64, 197, 768]⟩
abbrev SP : Shape := ⟨5, ![64, 2, 10, 12, 64]⟩
abbrev SW : Shape := ⟨2, ![2304, 768]⟩
abbrev SPW : Shape := ⟨2, ![768, 768]⟩
abbrev SB : Shape := ⟨1, ![768]⟩

/-- Row of the fused projection matrix for part `s` (0 query, 1 key, 2 value), head `h`, lane `d`. -/
def col (s : Fin 3) (h : Fin 12) (d : Fin 64) : Fin 2304 := ⟨s.val * 768 + h.val * 64 + d.val, by omega⟩

/-- The head a column of the concatenated heads belongs to, and its lane inside the head. -/
def hd (c : Fin 768) : Fin 12 := ⟨c.val / 64, by omega⟩
def ln (c : Fin 768) : Fin 64 := ⟨c.val % 64, Nat.mod_lt _ (by decide)⟩

variable (x : SX.Idx → EReal) (pr : SP.Idx → EReal) (w : SW.Idx → EReal) (pw : SPW.Idx → EReal) (pb : SB.Idx → EReal)
variable (sc ninf : EReal)

/-- Query (s = 0), key (s = 1) or value (s = 2) of token `n` of batch `b` at head `h`, lane `d`. -/
def proj (b : Fin 64) (n : Fin 197) (s : Fin 3) (h : Fin 12) (d : Fin 64) : EReal :=
  ∑ e : Fin 768, x (ix3 b n e) * w (ix2 (col s h d) e)

/-- The 207 keys (`s = 0`) or values (`s = 1`) of batch `b`, head `h`: 10 prefix rows, then the 197 token rows. -/
def ext (s : Fin 2) (b : Fin 64) (h : Fin 12) (j : Fin 207) (d : Fin 64) : EReal :=
  if hj : j.val < 10 then pr (ix5 b s ⟨j.val, hj⟩ h d) else proj x w b ⟨j.val - 10, by omega⟩ s.succ h d

def score (b : Fin 64) (h : Fin 12) (n : Fin 197) (j : Fin 207) : EReal :=
  (∑ d : Fin 64, proj x w b n 0 h d * ext x pr w 0 b h j d) * sc

def rowMax (b : Fin 64) (h : Fin 12) (n : Fin 197) : EReal :=
  (Finset.univ : Finset (Fin 207)).fold max ninf (fun j => score x pr w sc b h n j)

def wexp (b : Fin 64) (h : Fin 12) (n : Fin 197) (j : Fin 207) : EReal :=
  Ideal.exp (score x pr w sc b h n j - rowMax x pr w sc ninf b h n)

def denom (b : Fin 64) (h : Fin 12) (n : Fin 197) : EReal := ∑ j : Fin 207, wexp x pr w sc ninf b h n j

/-- One head's output, the weighted sum of values divided by the denominator. -/
def headK (b : Fin 64) (h : Fin 12) (n : Fin 197) (d : Fin 64) : EReal :=
  Ideal.div (∑ j : Fin 207, wexp x pr w sc ninf b h n j * ext x pr w 1 b h j d) (denom x pr w sc ninf b h n)

/-- One head's output, each weight divided by the denominator before the sum. -/
def headR (b : Fin 64) (h : Fin 12) (n : Fin 197) (d : Fin 64) : EReal :=
  ∑ j : Fin 207, Ideal.div (wexp x pr w sc ninf b h n j) (denom x pr w sc ninf b h n) * ext x pr w 1 b h j d

def outK (b : Fin 64) (n : Fin 197) (o : Fin 768) : EReal :=
  (∑ c : Fin 768, headK x pr w sc ninf b (hd c) n (ln c) * pw (ix2 o c)) + pb (ix1 o)

def outR (b : Fin 64) (n : Fin 197) (o : Fin 768) : EReal :=
  (∑ c : Fin 768, headR x pr w sc ninf b (hd c) n (ln c) * pw (ix2 o c)) + pb (ix1 o)

end Cert.AttnSpec

end
-- ==== Proof.AttnLaw.lean ====
/-
  The algebraic law behind the two attention programs: when every token, prefix and projection entry is a real
  number, the scale is a real number and the fold of the row maximum starts from −∞, dividing the weighted sum of
  values by the denominator equals dividing each weight by the denominator first.

  The chain of facts: a finite sum of products of reals is a real, so every query, key, value and score is a real;
  the row maximum, a fold of `max` from −∞ over a nonempty family of reals, is one of them, hence a real; each weight
  `exp (score − max)` is a positive real; the denominator, a nonempty sum of positive reals, is a positive real `L`.
  Division by `L` is then multiplication by the real `1 / L`, and both sides are the same real number:
  `(∑ j, p j · v j) · (1 / L) = ∑ j, (p j · (1 / L)) · v j`.
-/
import proofs.«177170_j52106543235483_2_alg».proof.Proof.AttnSpec

open scoped BigOperators

namespace Cert.AttnSpec

open Idealize.ShloMosaic Idealize.ShloMosaic.ValueIdx

/-! ### Reals inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- A finite sum of reals is a real. -/
theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- The fold of `max` from −∞ over a finite family of reals is −∞ when the family is empty, and otherwise one of
    the members, hence a real. -/
theorem fold_max_real {ι : Type*} [DecidableEq ι] (s : Finset ι) (f : ι → EReal)
    (hf : ∀ j, ∃ r : ℝ, f j = (r : EReal)) :
    (s.fold max ⊥ f = ⊥ ∧ s = ∅) ∨ ∃ r : ℝ, s.fold max ⊥ f = (r : EReal) := by
  induction s using Finset.induction_on with
  | empty => exact Or.inl ⟨Finset.fold_empty, rfl⟩
  | insert a s ha ih =>
    right
    rw [Finset.fold_insert ha]
    rcases ih with ⟨h0, _⟩ | ⟨r, hr⟩
    · rw [h0, max_bot_right]; exact hf a
    · rcases max_choice (f a) (s.fold max ⊥ f) with h | h
      · rw [h]; exact hf a
      · rw [h]; exact ⟨r, hr⟩

/-! ### Every intermediate of the attention head is a real -/

section
variable {x : SX.Idx → EReal} {pr : SP.Idx → EReal} {w : SW.Idx → EReal} {sc ninf : EReal}

theorem proj_real (hx : ∀ i, ∃ r : ℝ, x i = (r : EReal)) (hw : ∀ i, ∃ r : ℝ, w i = (r : EReal))
    (b : Fin 64) (n : Fin 197) (s : Fin 3) (h : Fin 12) (d : Fin 64) :
    ∃ r : ℝ, proj x w b n s h d = (r : EReal) := by
  unfold proj
  exact real_sum _ _ (fun e => real_mul (hx _) (hw _))

theorem ext_real (hx : ∀ i, ∃ r : ℝ, x i = (r : EReal)) (hpr : ∀ i, ∃ r : ℝ, pr i = (r : EReal))
    (hw : ∀ i, ∃ r : ℝ, w i = (r : EReal))
    (s : Fin 2) (b : Fin 64) (h : Fin 12) (j : Fin 207) (d : Fin 64) :
    ∃ r : ℝ, ext x pr w s b h j d = (r : EReal) := by
  unfold ext
  split
  · exact hpr _
  · exact proj_real hx hw _ _ _ _ _

theorem score_real (hx : ∀ i, ∃ r : ℝ, x i = (r : EReal)) (hpr : ∀ i, ∃ r : ℝ, pr i = (r : EReal))
    (hw : ∀ i, ∃ r : ℝ, w i = (r : EReal)) (hsc : ∃ r : ℝ, sc = (r : EReal))
    (b : Fin 64) (h : Fin 12) (n : Fin 197) (j : Fin 207) :
    ∃ r : ℝ, score x pr w sc b h n j = (r : EReal) := by
  unfold score
  exact real_mul (real_sum _ _ (fun d => real_mul (proj_real hx hw _ _ _ _ _) (ext_real hx hpr hw _ _ _ _ _))) hsc

/-- The row maximum is a real: the 207 scores are reals and there is at least one of them. -/
theorem rowMax_real (hx : ∀ i, ∃ r : ℝ, x i = (r : EReal)) (hpr : ∀ i, ∃ r : ℝ, pr i = (r : EReal))
    (hw : ∀ i, ∃ r : ℝ, w i = (r : EReal)) (hsc : ∃ r : ℝ, sc = (r : EReal)) (hninf : ninf = ⊥)
    (b : Fin 64) (h : Fin 12) (n : Fin 197) :
    ∃ r : ℝ, rowMax x pr w sc ninf b h n = (r : EReal) := by
  unfold rowMax
  rw [hninf]
  rcases fold_max_real Finset.univ (fun j => score x pr w sc b h n j)
      (fun j => score_real hx hpr hw hsc b h n j) with ⟨_, he⟩ | hr
  · exact absurd he (Finset.ne_empty_of_mem (Finset.mem_univ (0 : Fin 207)))
  · exact hr

/-- Each weight is a positive real, the exponential of a difference of reals. -/
theorem wexp_pos (hx : ∀ i, ∃ r : ℝ, x i = (r : EReal)) (hpr : ∀ i, ∃ r : ℝ, pr i = (r : EReal))
    (hw : ∀ i, ∃ r : ℝ, w i = (r : EReal)) (hsc : ∃ r : ℝ, sc = (r : EReal)) (hninf : ninf = ⊥)
    (b : Fin 64) (h : Fin 12) (n : Fin 197) (j : Fin 207) :
    ∃ r : ℝ, 0 < r ∧ wexp x pr w sc ninf b h n j = (r : EReal) := by
  obtain ⟨s, hs⟩ := score_real hx hpr hw hsc b h n j
  obtain ⟨m, hm⟩ := rowMax_real hx hpr hw hsc hninf b h n
  refine ⟨Real.exp (s - m), Real.exp_pos _, ?_⟩
  unfold wexp
  rw [hs, hm, ← EReal.coe_sub, Ideal.exp_coe]

/-- The denominator is a positive real, a sum of 207 positive reals. -/
theorem denom_pos (hx : ∀ i, ∃ r : ℝ, x i = (r : EReal)) (hpr : ∀ i, ∃ r : ℝ, pr i = (r : EReal))
    (hw : ∀ i, ∃ r : ℝ, w i = (r : EReal)) (hsc : ∃ r : ℝ, sc = (r : EReal)) (hninf : ninf = ⊥)
    (b : Fin 64) (h : Fin 12) (n : Fin 197) :
    ∃ L : ℝ, 0 < L ∧ denom x pr w sc ninf b h n = (L : EReal) := by
  choose p hp0 hp using fun j => wexp_pos hx hpr hw hsc hninf b h n j
  refine ⟨∑ j, p j, Finset.sum_pos (fun j _ => hp0 j) ⟨0, Finset.mem_univ _⟩, ?_⟩
  unfold denom
  rw [coe_sum]
  exact Finset.sum_congr rfl (fun j _ => hp j)

/-! ### The law -/

/-- One head: dividing the weighted sum by the denominator is dividing each weight first. With weights `p j`,
    values `v j` and denominator `L > 0`, all real, both sides are `(∑ j, p j · v j) · (1 / L)`. -/
theorem headK_eq_headR (hx : ∀ i, ∃ r : ℝ, x i = (r : EReal)) (hpr : ∀ i, ∃ r : ℝ, pr i = (r : EReal))
    (hw : ∀ i, ∃ r : ℝ, w i = (r : EReal)) (hsc : ∃ r : ℝ, sc = (r : EReal)) (hninf : ninf = ⊥)
    (b : Fin 64) (h : Fin 12) (n : Fin 197) (d : Fin 64) :
    headK x pr w sc ninf b h n d = headR x pr w sc ninf b h n d := by
  obtain ⟨L, hL, hden⟩ := denom_pos hx hpr hw hsc hninf b h n
  choose p _ hp using fun j => wexp_pos hx hpr hw hsc hninf b h n j
  choose v hv using fun j => ext_real hx hpr hw 1 b h j d
  unfold headK headR
  rw [hden]
  simp only [hp, hv, Ideal.div_coe (ne_of_gt hL), ← EReal.coe_mul, ← coe_sum]
  rw [EReal.coe_eq_coe_iff, Finset.sum_mul]
  exact Finset.sum_congr rfl (fun j _ => by ring)

end

/-- The two attention programs agree on real inputs: the heads agree pointwise, and the output projection and its
    bias are applied to equal heads. -/
theorem outK_eq_outR (x : SX.Idx → EReal) (pr : SP.Idx → EReal) (w : SW.Idx → EReal) (pw : SPW.Idx → EReal)
    (pb : SB.Idx → EReal) (sc ninf : EReal)
    (hx : ∀ i, ∃ r : ℝ, x i = (r : EReal)) (hpr : ∀ i, ∃ r : ℝ, pr i = (r : EReal))
    (hw : ∀ i, ∃ r : ℝ, w i = (r : EReal))
    (hsc : ∃ r : ℝ, sc = (r : EReal)) (hninf : ninf = ⊥) (b : Fin 64) (n : Fin 197) (o : Fin 768) :
    outK x pr w pw pb sc ninf b n o = outR x pr w pw pb sc ninf b n o := by
  unfold outK outR
  congr 1
  exact Finset.sum_congr rfl (fun c _ => by rw [headK_eq_headR hx hpr hw hsc hninf])

/-! ### The two literals -/

/-- The single-precision word `0x3E000000` (sign 0, exponent field 124, fraction 0) denotes `2⁻³ = 1/8`. -/
theorem scale_eq : Ideal.ofBits .f32 0x3E000000#32 = ((1 / 8 : ℝ) : EReal) := by
  simp [Ideal.ofBits, Ideal.ieee, -EReal.coe_mul]; norm_num

theorem scale_real : ∃ r : ℝ, Ideal.ofBits .f32 0x3E000000#32 = (r : EReal) := ⟨1 / 8, scale_eq⟩

/-- The single-precision word `0xFF800000` (sign 1, exponent field all ones, fraction 0) denotes −∞. -/
theorem ninf_bot : Ideal.ofBits .f32 0xFF800000#32 = (⊥ : EReal) := by
  simp [Ideal.ofBits, Ideal.ieee]

end Cert.AttnSpec
-- ==== Proof.Finite.lean ====
/-
  Finiteness of the five input arrays, read back from the precondition.

  The precondition is the conjunction, over the five arrays, of "every element x has |x| < +∞", evaluated to the
  one-bit word 1. On the extended reals |x| = max x (-x) and +∞ = ⊤, so each element is neither ⊥ nor ⊤: it is a real.
-/
import proofs.«177170_j52106543235483_2_alg».proof.Defs
import proofs.«177170_j52106543235483_2_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The rank-0 shape has one index. -/
instance : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value max x (-x) lies below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison |a| < +∞ being the word 1 says that element of a is a real. -/
theorem elem_real {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) := by
  have h' : Ideal.cmp .olt (max (a i) (-(a i))) (Ideal.ofBits .f32 0x7F800000#32) = 1#1 := h
  rw [inf_eq_top] at h'
  apply real_of_abs_lt_top
  by_contra hn
  simp [Ideal.cmp, hn] at h'

theorem finite_of_pre [Cert.Pre_finite_inputs.Facts]
    (a0 : FVec Ideal S64x197x768 .f32) (a1 : FVec Ideal S64x2x10x12x64 .f32) (a2 : FVec Ideal S2304x768 .f32)
    (a3 : FVec Ideal S768x768 .f32) (a4 : FVec Ideal S768 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [Cert.Pre_finite_inputs.fn, Cert.Pre_finite_inputs.fn_part1, andi] at e
  rw [IntOp.andi_eq_one, IntOp.andi_eq_one, IntOp.andi_eq_one, IntOp.andi_eq_one] at e
  obtain ⟨⟨⟨⟨e0, e1⟩, e2⟩, e3⟩, e4⟩ := e
  refine ⟨fun i => ?_, fun i => ?_, fun i => ?_, fun i => ?_, fun i => ?_⟩
  · exact elem_real _ a0 i (Host.reduce_andi_all _ _ _ _ _ e0 i)
  · exact elem_real _ a1 i (Host.reduce_andi_all _ _ _ _ _ e1 i)
  · exact elem_real _ a2 i (Host.reduce_andi_all _ _ _ _ _ e2 i)
  · exact elem_real _ a3 i (Host.reduce_andi_all _ _ _ _ _ e3 i)
  · exact elem_real _ a4 i (Host.reduce_andi_all _ _ _ _ _ e4 i)

open Idealize.SL.Sem in
/-- The same, at a launch memory of the idealized kernel: on every device the five argument arrays hold reals. -/
theorem finite_of_Pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal S64x197x768 .f32) i = (r : EReal))
    ∧ (∀ i, ∃ r : ℝ, (m ((c.tc : Thread Cert.KernelIdeal.nD Cert.KernelIdeal.τ).loc Cert.KernelIdeal.main_arg1) : FVec Ideal S64x2x10x12x64 .f32) i = (r : EReal))
    ∧ (∀ i, ∃ r : ℝ, (m ((c.tc : Thread Cert.KernelIdeal.nD Cert.KernelIdeal.τ).loc Cert.KernelIdeal.main_arg2) : FVec Ideal S2304x768 .f32) i = (r : EReal))
    ∧ (∀ i, ∃ r : ℝ, (m ((c.tc : Thread Cert.KernelIdeal.nD Cert.KernelIdeal.τ).loc Cert.KernelIdeal.main_arg3) : FVec Ideal S768x768 .f32) i = (r : EReal))
    ∧ (∀ i, ∃ r : ℝ, (m ((c.tc : Thread Cert.KernelIdeal.nD Cert.KernelIdeal.τ).loc Cert.KernelIdeal.main_arg4) : FVec Ideal S768 .f32) i = (r : EReal)) :=
  finite_of_pre _ _ _ _ _ (h c)

end Cert.Finite

end
-- ==== Proof.RefValue.lean ====
/-
  The reference program read stage by stage at explicit coordinates: each stage of the reference, at an index built
  from its coordinates, is the corresponding quantity of the index-by-index specification of multi-head attention
  with a learned prefix (projection, extended keys and values, scores, row maximum, weights, denominator, one head's
  output with each weight divided first, the concatenated heads, the output projection with its bias).
-/
import proofs.«177170_j52106543235483_2_alg».proof.Proof.AttnSpec
import proofs.«177170_j52106543235483_2_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read Cert.AttnSpec
open Idealize.ShloMosaic Idealize.ShloMosaic.ValueIdx Idealize.SL.Sem Idealize.ShloMosaic.StableHlo

variable (a0 : (⟨S64x197x768, .f32⟩ : BufTy).Contents (Elt Ideal))
variable (a1 : (⟨S64x2x10x12x64, .f32⟩ : BufTy).Contents (Elt Ideal))
variable (a2 : (⟨S2304x768, .f32⟩ : BufTy).Contents (Elt Ideal))
variable (a3 : (⟨S768x768, .f32⟩ : BufTy).Contents (Elt Ideal))
variable (a4 : (⟨S768, .f32⟩ : BufTy).Contents (Elt Ideal))

/-- The scale 1/8 and the initial value −∞ of the row maximum, as the words the program writes them with. -/
abbrev sc : EReal := Ideal.ofBits .f32 0x3E000000#32
abbrev ninf : EReal := Ideal.ofBits .f32 0xFF800000#32

/-! ## The fused projection, and its three parts -/

/-- Row-major position of (b, n, s, h, d) in [64,197,3,12,64] is that of (b, n, 768 s + 64 h + d) in [64,197,2304]. -/
theorem idx_v1_v2 (s : Fin 3) (b : Fin 64) (h : Fin 12) (n : Fin 197) (d : Fin 64) :
    idx_main_v1 (idx_main_v2 (ix5 s b h n d)) = ix3 b n (col s h d) := by
  have hs := s.isLt; have hb := b.isLt; have hh := h.isLt; have hn := n.isLt; have hd := d.isLt
  funext a
  match a with
  | ⟨0, _⟩ =>
    refine Fin.ext ?_
    show ((((b.val * 197 + n.val) * 3 + s.val) * 12 + h.val) * 64 + d.val) / 453888 = b.val
    omega
  | ⟨1, _⟩ =>
    refine Fin.ext ?_
    show ((((b.val * 197 + n.val) * 3 + s.val) * 12 + h.val) * 64 + d.val) / 2304 % 197 = n.val
    omega
  | ⟨2, _⟩ =>
    refine Fin.ext ?_
    show ((((b.val * 197 + n.val) * 3 + s.val) * 12 + h.val) * 64 + d.val) % 2304 = s.val * 768 + h.val * 64 + d.val
    omega

/-- The fused projection at (b, n, c): token n of batch b against row c of the projection matrix. -/
theorem v0_at (b : Fin 64) (n : Fin 197) (c : Fin 2304) :
    val_main_v0 (F := Ideal) a0 a2 (ix3 b n c) = ∑ e : Fin 768, a0 (ix3 b n e) * a2 (ix2 c e) := by
  rw [val_main_v0_apply]
  refine Finset.sum_congr rfl fun k _ => ?_
  have e1 : lidx_main_v0 (ix3 b n c) k = ix3 b n k := by
    funext a; match a with | ⟨0, _⟩ => rfl | ⟨1, _⟩ => rfl | ⟨2, _⟩ => rfl
  have e2 : ridx_main_v0 (ix3 b n c) k = ix2 c k := by
    funext a; match a with | ⟨0, _⟩ => rfl | ⟨1, _⟩ => rfl
  rw [e1, e2]

/-- The transposed projection at (s, b, h, n, d) is part s (query, key or value) of token n at head h, lane d. -/
theorem v2_at (s : Fin 3) (b : Fin 64) (h : Fin 12) (n : Fin 197) (d : Fin 64) :
    val_main_v2 (F := Ideal) a0 a2 (ix5 s b h n d) = proj a0 a2 b n s h d := by
  rw [val_main_v2_apply, val_main_v1_apply, idx_v1_v2, v0_at]
  rfl

/-- Row-major position of (b, h, n, d) in [64,12,197,64] is that of (0, b, h, n, d) in [1,64,12,197,64]; the slice
    starting at part s then reads part s. -/
theorem idx_v4 (b : Fin 64) (h : Fin 12) (n : Fin 197) (d : Fin 64) :
    idx_main_v4 (ix4 b h n d) = ix5 (0 : Fin 1) b h n d := by
  have hb := b.isLt; have hh := h.isLt; have hn := n.isLt; have hd := d.isLt
  funext a
  match a with
  | ⟨0, _⟩ => rfl
  | ⟨1, _⟩ =>
    refine Fin.ext ?_
    show (((b.val * 12 + h.val) * 197 + n.val) * 64 + d.val) / 151296 % 64 = b.val
    omega
  | ⟨2, _⟩ =>
    refine Fin.ext ?_
    show (((b.val * 12 + h.val) * 197 + n.val) * 64 + d.val) / 12608 % 12 = h.val
    omega
  | ⟨3, _⟩ =>
    refine Fin.ext ?_
    show (((b.val * 12 + h.val) * 197 + n.val) * 64 + d.val) / 64 % 197 = n.val
    omega
  | ⟨4, _⟩ =>
    refine Fin.ext ?_
    show (((b.val * 12 + h.val) * 197 + n.val) * 64 + d.val) % 64 = d.val
    omega

theorem idx_v3 (b : Fin 64) (h : Fin 12) (n : Fin 197) (d : Fin 64) :
    idx_main_v3 (ix5 (0 : Fin 1) b h n d) = ix5 (0 : Fin 3) b h n d := by
  funext a
  match a with
  | ⟨0, _⟩ => rfl
  | ⟨1, _⟩ => rfl
  | ⟨2, _⟩ => rfl
  | ⟨3, _⟩ => rfl
  | ⟨4, _⟩ => rfl

theorem idx_v5 (b : Fin 64) (h : Fin 12) (n : Fin 197) (d : Fin 64) :
    idx_main_v5 (ix5 (0 : Fin 1) b h n d) = ix5 (1 : Fin 3) b h n d := by
  funext a
  match a with
  | ⟨0, _⟩ => rfl
  | ⟨1, _⟩ => rfl
  | ⟨2, _⟩ => rfl
  | ⟨3, _⟩ => rfl
  | ⟨4, _⟩ => rfl

theorem idx_v7 (b : Fin 64) (h : Fin 12) (n : Fin 197) (d : Fin 64) :
    idx_main_v7 (ix5 (0 : Fin 1) b h n d) = ix5 (2 : Fin 3) b h n d := by
  funext a
  match a with
  | ⟨0, _⟩ => rfl
  | ⟨1, _⟩ => rfl
  | ⟨2, _⟩ => rfl
  | ⟨3, _⟩ => rfl
  | ⟨4, _⟩ => rfl

/-- The queries. -/
theorem v4_at (b : Fin 64) (h : Fin 12) (n : Fin 197) (d : Fin 64) :
    val_main_v4 (F := Ideal) a0 a2 (ix4 b h n d) = proj a0 a2 b n 0 h d := by
  rw [val_main_v4_apply, idx_v4, val_main_v3_apply, idx_v3, v2_at]

/-- The keys of the tokens. -/
theorem v6_at (b : Fin 64) (h : Fin 12) (n : Fin 197) (d : Fin 64) :
    val_main_v6 (F := Ideal) a0 a2 (ix4 b h n d) = proj a0 a2 b n 1 h d := by
  rw [val_main_v6_apply, show idx_main_v6 (ix4 b h n d) = ix5 (0 : Fin 1) b h n d from idx_v4 b h n d,
    val_main_v5_apply, idx_v5, v2_at]

/-- The values of the tokens. -/
theorem v8_at (b : Fin 64) (h : Fin 12) (n : Fin 197) (d : Fin 64) :
    val_main_v8 (F := Ideal) a0 a2 (ix4 b h n d) = proj a0 a2 b n 2 h d := by
  rw [val_main_v8_apply, show idx_main_v8 (ix4 b h n d) = ix5 (0 : Fin 1) b h n d from idx_v4 b h n d,
    val_main_v7_apply, idx_v7, v2_at]

/-! ## The prefix rows -/

theorem idx_v11 (b : Fin 64) (h : Fin 12) (j : Fin 10) (d : Fin 64) :
    idx_main_v11 (ix4 b h j d) = ix5 (0 : Fin 1) b h j d := by
  have hb := b.isLt; have hh := h.isLt; have hj := j.isLt; have hd := d.isLt
  funext a
  match a with
  | ⟨0, _⟩ => rfl
  | ⟨1, _⟩ =>
    refine Fin.ext ?_
    show (((b.val * 12 + h.val) * 10 + j.val) * 64 + d.val) / 7680 % 64 = b.val
    omega
  | ⟨2, _⟩ =>
    refine Fin.ext ?_
    show (((b.val * 12 + h.val) * 10 + j.val) * 64 + d.val) / 640 % 12 = h.val
    omega
  | ⟨3, _⟩ =>
    refine Fin.ext ?_
    show (((b.val * 12 + h.val) * 10 + j.val) * 64 + d.val) / 64 % 10 = j.val
    omega
  | ⟨4, _⟩ =>
    refine Fin.ext ?_
    show (((b.val * 12 + h.val) * 10 + j.val) * 64 + d.val) % 64 = d.val
    omega

/-- The prefix keys: row j of the prefix of batch b, part 0, head h. -/
theorem v11_at (b : Fin 64) (h : Fin 12) (j : Fin 10) (d : Fin 64) :
    val_main_v11 (F := Ideal) a1 (ix4 b h j d) = a1 (ix5 b (0 : Fin 2) j h d) := by
  rw [val_main_v11_apply, idx_v11, val_main_v10_apply, val_main_v9_apply]
  refine congrArg a1 ?_
  funext a
  match a with
  | ⟨0, _⟩ => rfl
  | ⟨1, _⟩ => rfl
  | ⟨2, _⟩ => rfl
  | ⟨3, _⟩ => rfl
  | ⟨4, _⟩ => rfl

/-- The prefix values: row j of the prefix of batch b, part 1, head h. -/
theorem v14_at (b : Fin 64) (h : Fin 12) (j : Fin 10) (d : Fin 64) :
    val_main_v14 (F := Ideal) a1 (ix4 b h j d) = a1 (ix5 b (1 : Fin 2) j h d) := by
  rw [val_main_v14_apply, show idx_main_v14 (ix4 b h j d) = ix5 (0 : Fin 1) b h j d from idx_v11 b h j d,
    val_main_v13_apply, val_main_v9_apply]
  refine congrArg a1 ?_
  funext a
  match a with
  | ⟨0, _⟩ => rfl
  | ⟨1, _⟩ => rfl
  | ⟨2, _⟩ => rfl
  | ⟨3, _⟩ => rfl
  | ⟨4, _⟩ => rfl

/-! ## Prefix rows followed by token rows -/

/-- The concatenation along the row axis of 10 rows and 197 rows, at row j: the first piece below 10, the second
    piece at j − 10 from 10 on. -/
theorem concat_at {α : Type} (x₁ : S64x12x10x64.Idx → α) (x₂ : S64x12x197x64.Idx → α)
    (hc : Shape.Concatenates [S64x12x10x64, S64x12x197x64] S64x12x207x64 2)
    (b : Fin 64) (h : Fin 12) (j : Fin 207) (d : Fin 64) :
    concatenate S64x12x207x64 2 [⟨S64x12x10x64, x₁⟩, ⟨S64x12x197x64, x₂⟩] hc (ix4 b h j d)
      = if hj : j.val < 10 then x₁ (ix4 b h ⟨j.val, hj⟩ d) else x₂ (ix4 b h ⟨j.val - 10, by omega⟩ d) := by
  by_cases hj : j.val < 10
  · rw [dif_pos hj]
    exact concatenate_pair_apply_left 2 x₁ x₂ hc _ rfl _ (fun c => by
      match c with
      | ⟨0, _⟩ => rfl
      | ⟨1, _⟩ => rfl
      | ⟨2, _⟩ => rfl
      | ⟨3, _⟩ => rfl)
  · rw [dif_neg hj]
    exact concatenate_pair_apply_right 2 x₁ x₂ hc _ rfl rfl _
      (fun c hcne => by
        match c with
        | ⟨0, _⟩ => rfl
        | ⟨1, _⟩ => rfl
        | ⟨2, _⟩ => exact absurd rfl hcne
        | ⟨3, _⟩ => rfl)
      (by show j.val - 10 + 10 = j.val; omega)

/-- The 207 keys. -/
theorem v12_at (b : Fin 64) (h : Fin 12) (j : Fin 207) (d : Fin 64) :
    val_main_v12 (F := Ideal) a0 a1 a2 (ix4 b h j d) = ext a0 a1 a2 0 b h j d := by
  unfold val_main_v12 ext
  rw [concat_at]
  by_cases hj : j.val < 10
  · rw [dif_pos hj, dif_pos hj, v11_at]
  · rw [dif_neg hj, dif_neg hj, v6_at]
    rfl

/-- The 207 values. -/
theorem v15_at (b : Fin 64) (h : Fin 12) (j : Fin 207) (d : Fin 64) :
    val_main_v15 (F := Ideal) a0 a1 a2 (ix4 b h j d) = ext a0 a1 a2 1 b h j d := by
  unfold val_main_v15 ext
  rw [concat_at]
  by_cases hj : j.val < 10
  · rw [dif_pos hj, dif_pos hj, v14_at]
  · rw [dif_neg hj, dif_neg hj, v8_at]
    rfl

/-! ## Scores, row maximum, weights, denominator -/

/-- The scaled scores. -/
theorem v18_at (b : Fin 64) (h : Fin 12) (n : Fin 197) (j : Fin 207) :
    val_main_v18 (F := Ideal) a0 a1 a2 (ix4 b h n j) = score a0 a1 a2 sc b h n j := by
  rw [val_main_v18_apply, val_main_v16_apply, val_main_v17_apply, val_main_cst_apply]
  unfold score
  rw [Ideal.mulf_def, Ideal.ofBits_def]
  refine congrArg (· * sc) (Finset.sum_congr rfl fun k _ => ?_)
  have e1 : lidx_main_v16 (ix4 b h n j) k = ix4 b h n k := by
    funext a; match a with | ⟨0, _⟩ => rfl | ⟨1, _⟩ => rfl | ⟨2, _⟩ => rfl | ⟨3, _⟩ => rfl
  have e2 : ridx_main_v16 (ix4 b h n j) k = ix4 b h j k := by
    funext a; match a with | ⟨0, _⟩ => rfl | ⟨1, _⟩ => rfl | ⟨2, _⟩ => rfl | ⟨3, _⟩ => rfl
  rw [e1, e2, v4_at, v12_at]

theorem reduces_scores : S64x12x197x207.Reduces [3] S64x12x197 := by decide

/-- The reduced index (b, h, n) with column k put back is (b, h, n, k). -/
theorem lift_ix3 (b : Fin 64) (h : Fin 12) (n : Fin 197) (k : Fin (S64x12x197x207.size 3)) :
    reduces_scores.lift (ix3 b h n) k = ix4 b h n (⟨k.val, k.isLt⟩ : Fin 207) := by
  funext c; apply Fin.ext
  fin_cases c <;> rfl

/-- The row maximum: the fold of max from −∞ over the 207 scores of the row; taking the maximum with −∞ once more
    changes nothing, the fold being at least its initial value. -/
theorem v21_at (b : Fin 64) (h : Fin 12) (n : Fin 197) :
    val_main_v21 (F := Ideal) a0 a1 a2 (ix3 b h n) = rowMax a0 a1 a2 sc ninf b h n := by
  rw [val_main_v21_apply, val_main_v20_apply, val_main_cst_1_apply, Ideal.maximumf_def, Ideal.ofBits_def]
  have e : val_main_v19 (F := Ideal) a0 a1 a2 (ix3 b h n) = rowMax a0 a1 a2 sc ninf b h n := by
    unfold val_main_v19
    rw [Host.reduce_eq_fold_single FloatOps.maximumf _ _ reducesTo_S64x12x197x207_S64x12x197_d3 reduces_scores h_S_]
    unfold rowMax
    have hf : (val_main_v18 (F := Ideal) a0 a1 a2 ∘ reduces_scores.lift (ix3 b h n))
        = fun j : Fin 207 => score a0 a1 a2 sc b h n j := funext fun k => by
      show val_main_v18 (F := Ideal) a0 a1 a2 (reduces_scores.lift (ix3 b h n) k) = _
      rw [lift_ix3, v18_at]
      rfl
    rw [hf]
    rfl
  rw [e]
  exact max_eq_right ((Finset.le_fold_max _).2 (Or.inl le_rfl))

/-- The weights: the exponential of the score less the row maximum. -/
theorem v25_at (b : Fin 64) (h : Fin 12) (n : Fin 197) (j : Fin 207) :
    val_main_v25 (F := Ideal) a0 a1 a2 (ix4 b h n j) = wexp a0 a1 a2 sc ninf b h n j := by
  rw [val_main_v25_apply, val_main_v24_apply, val_main_v23_apply, val_main_v22_apply,
    show idx_main_v22 (idx_main_v23 (ix4 b h n j)) = ix3 b h n from by
      funext a; match a with | ⟨0, _⟩ => rfl | ⟨1, _⟩ => rfl | ⟨2, _⟩ => rfl,
    v18_at, v21_at, Ideal.hostUnary_exp_def, Ideal.subf_def]
  rfl

/-- The denominator: the sum of the row's weights (the sum's initial value is zero). -/
theorem v26_at (b : Fin 64) (h : Fin 12) (n : Fin 197) :
    val_main_v26 (F := Ideal) a0 a1 a2 (ix3 b h n) = denom a0 a1 a2 sc ninf b h n := by
  rw [val_main_v26_apply, val_main_cst_2_apply, Ideal.ofBits_def, Ideal.ofBits_zero_f32, zero_add]
  unfold denom
  refine Finset.sum_congr rfl fun k _ => ?_
  rw [show idx_main_v26 (ix3 b h n) k = ix4 b h n k from by
    funext a; match a with | ⟨0, _⟩ => rfl | ⟨1, _⟩ => rfl | ⟨2, _⟩ => rfl | ⟨3, _⟩ => rfl, v25_at]

/-- The normalized weights: each weight divided by the denominator. -/
theorem v29_at (b : Fin 64) (h : Fin 12) (n : Fin 197) (j : Fin 207) :
    val_main_v29 (F := Ideal) a0 a1 a2 (ix4 b h n j)
      = Ideal.div (wexp a0 a1 a2 sc ninf b h n j) (denom a0 a1 a2 sc ninf b h n) := by
  rw [val_main_v29_apply, val_main_v28_apply, val_main_v27_apply,
    show idx_main_v27 (idx_main_v28 (ix4 b h n j)) = ix3 b h n from by
      funext a; match a with | ⟨0, _⟩ => rfl | ⟨1, _⟩ => rfl | ⟨2, _⟩ => rfl,
    v25_at, v26_at, Ideal.hostDivf_def]

/-! ## One head's output, the heads side by side, the output projection -/

/-- One head's output: the normalized weights against the 207 values. -/
theorem v30_at (b : Fin 64) (h : Fin 12) (n : Fin 197) (d : Fin 64) :
    val_main_v30 (F := Ideal) a0 a1 a2 (ix4 b h n d) = headR a0 a1 a2 sc ninf b h n d := by
  rw [val_main_v30_apply]
  unfold headR
  refine Finset.sum_congr rfl fun k _ => ?_
  have e1 : lidx_main_v30 (ix4 b h n d) k = ix4 b h n k := by
    funext a; match a with | ⟨0, _⟩ => rfl | ⟨1, _⟩ => rfl | ⟨2, _⟩ => rfl | ⟨3, _⟩ => rfl
  have e2 : ridx_main_v30 (ix4 b h n d) k = ix4 b h k d := by
    funext a; match a with | ⟨0, _⟩ => rfl | ⟨1, _⟩ => rfl | ⟨2, _⟩ => rfl | ⟨3, _⟩ => rfl
  rw [e1, e2, v29_at, v15_at]

/-- Row-major position of (b, n, c) in [64,197,768] is that of (b, n, c / 64, c % 64) in [64,197,12,64]; the
    transposition then exchanges the token and head axes. -/
theorem idx_v31_v32 (b : Fin 64) (n : Fin 197) (c : Fin 768) :
    idx_main_v31 (idx_main_v32 (ix3 b n c)) = ix4 b (hd c) n (ln c) := by
  have hb := b.isLt; have hn := n.isLt; have hc := c.isLt
  funext a
  match a with
  | ⟨0, _⟩ =>
    refine Fin.ext ?_
    show ((b.val * 197 + n.val) * 768 + c.val) / 151296 = b.val
    omega
  | ⟨1, _⟩ =>
    refine Fin.ext ?_
    show ((b.val * 197 + n.val) * 768 + c.val) / 64 % 12 = c.val / 64
    omega
  | ⟨2, _⟩ =>
    refine Fin.ext ?_
    show ((b.val * 197 + n.val) * 768 + c.val) / 768 % 197 = n.val
    omega
  | ⟨3, _⟩ =>
    refine Fin.ext ?_
    show ((b.val * 197 + n.val) * 768 + c.val) % 64 = c.val % 64
    omega

/-- The heads side by side: column c of token n is lane c % 64 of head c / 64. -/
theorem v32_at (b : Fin 64) (n : Fin 197) (c : Fin 768) :
    val_main_v32 (F := Ideal) a0 a1 a2 (ix3 b n c) = headR a0 a1 a2 sc ninf b (hd c) n (ln c) := by
  rw [val_main_v32_apply, val_main_v31_apply, idx_v31_v32, v30_at]

/-- The bias, broadcast over batches and tokens. -/
theorem v35_at (b : Fin 64) (n : Fin 197) (o : Fin 768) :
    val_main_v35 (F := Ideal) a4 (ix3 b n o) = a4 (ix1 o) := by
  rw [val_main_v35_apply, val_main_v34_apply]
  refine congrArg a4 ?_
  funext a; match a with | ⟨0, _⟩ => rfl

/-- The output: the concatenated heads against row o of the output projection, plus the bias. -/
theorem v36_at (b : Fin 64) (n : Fin 197) (o : Fin 768) :
    val_main_v36 (F := Ideal) a0 a1 a2 a3 a4 (ix3 b n o) = outR a0 a1 a2 a3 a4 sc ninf b n o := by
  rw [val_main_v36_apply, val_main_v33_apply, v35_at, Ideal.addf_def]
  unfold outR
  refine congrArg (· + a4 (ix1 o)) (Finset.sum_congr rfl fun k _ => ?_)
  have e1 : lidx_main_v33 (ix3 b n o) k = ix3 b n k := by
    funext a; match a with | ⟨0, _⟩ => rfl | ⟨1, _⟩ => rfl | ⟨2, _⟩ => rfl
  have e2 : ridx_main_v33 (ix3 b n o) k = ix2 o k := by
    funext a; match a with | ⟨0, _⟩ => rfl | ⟨1, _⟩ => rfl
  rw [e1, e2, v32_at]

/-- THE REFERENCE'S RESULT, index by index, is the specification's output with each weight divided first. -/
theorem ref_eq_outR (i : S64x197x768.Idx) :
    val_main_v36 (F := Ideal) a0 a1 a2 a3 a4 i
      = outR a0 a1 a2 a3 a4 (Ideal.ofBits .f32 0x3E000000#32) (Ideal.ofBits .f32 0xFF800000#32) (i 0) (i 1) (i 2) :=
  (congrArg (val_main_v36 (F := Ideal) a0 a1 a2 a3 a4) (eq_ix3 i)).trans (v36_at a0 a1 a2 a3 a4 (i 0) (i 1) (i 2))

end Cert.ReferenceIdeal.RefValue

end
-- ==== Proof.KernelRun.lean ====
/-
  The attention kernel's run, from blocks to the whole array, on the extended reals.

  The grid has 32 points; point `t` stages batch rows `2t`, `2t + 1` of the token array [64,197,768] and of the prefix
  array (which reaches the kernel with its position and head axes exchanged, [64,2,12,10,64]), the whole weight
  [2304,768], projection [768,768] and bias [768] arrays (the first two after a format change that is the identity on
  extended reals), and writes back batch rows `2t`, `2t + 1` of the output [64,197,768].

  Taken as a hypothesis (`BlockSpec`): one point's body, given blocks that hold rows `B 0`, `B 1` of the arrays, leaves rows
  `B 0`, `B 1` of the attention output `outK`. From it: each input block is read off its argument array index by index,
  what point `t` writes back is block `t` of the one whole-array function `outArr`, the 32 blocks cover the array (index `i`
  lies in the block of point `(i 0) / 2`), so the array after the run is `outArr`, and the arguments end unchanged.
-/
import proofs.«177170_j52106543235483_2_alg».proof.Proof.Gen.KernelIdeal.Value
import proofs.«177170_j52106543235483_2_alg».proof.Proof.AttnSpec
import Idealize.ShloMosaic.Lib.ValueIdx
import Idealize.ShloMosaic.Lib.Pipeline.Value
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What one grid point's body leaves in the output block, taken as a hypothesis: when the point's input blocks hold rows
    `B 0`, `B 1` of the token array and of the (transposed) prefix array and the whole weight, projection and bias arrays,
    the output block holds rows `B 0`, `B 1` of the attention output `outK`. -/
def BlockSpec : Prop := ∀ (c : Dev nD) (i : grid0.Coords) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (arg4 : Memref sig .tc .vmem S768x768 .bf16) (harg4 : arg4.IsWhole) (arg5 : Memref sig .tc .vmem S768 .f32) (harg5 : arg5.IsWhole) (arg6 : Memref sig .tc .vmem S2x197x768 .f32) (harg6 : arg6.IsWhole) (arg7 : Memref sig .tc .vmem S197x768 .f32) (harg7 : arg7.IsWhole)
    (x0 : Vec Ideal S2x197x768 .f32) (x1 : Vec Ideal S2x2x12x10x64 .f32) (x2 : Vec Ideal S2304x768 .bf16) (x3 : Vec Ideal S768x768 .bf16) (x4 : Vec Ideal S768 .f32)
    (X : AttnSpec.SX.Idx → EReal) (PR : AttnSpec.SP.Idx → EReal) (W : AttnSpec.SW.Idx → EReal) (PW : AttnSpec.SPW.Idx → EReal) (PB : AttnSpec.SB.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) (h3 : x3 = PW) (h4 : x4 = PB) (bi : Fin 2) (n : Fin 197) (o : Fin 768),
    out0_A_5 (F := Ideal) c i arg1 harg1 arg2 harg2 arg3 harg3 arg4 harg4 arg5 harg5 arg6 harg6 arg7 harg7 x0 x1 x2 x3 x4 (ix3 bi n o)
      = AttnSpec.outK X PR W PW PB (Ideal.ofBits .f32 0x3E000000#32) (Ideal.ofBits .f32 0xFF800000#32) (B bi) n o

/-! ## The index maps, decided over the 32 grid points -/

theorem N32 : cfg0.N = 32 := N_0

/-- Point `t` stages block `t` of the token array, of the transposed prefix array and of the output along the batch axis
    (two batch rows a block), and the one block of each whole-array window. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 5) = t.val ∧ win0_1.index t (1 : Fin 5) = 0 ∧ win0_1.index t (2 : Fin 5) = 0
        ∧ win0_1.index t (3 : Fin 5) = 0 ∧ win0_1.index t (4 : Fin 5) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 3) = t.val ∧ win0_5.index t (1 : Fin 3) = 0 ∧ win0_5.index t (2 : Fin 3) = 0) :=
  (by decide +kernel : ∀ t : Fin grid0.N, _)

/-! ## The input blocks, read off the argument arrays -/

/-- The token block at point `t` is batch rows `2t`, `2t + 1` of the token array. -/
theorem iblk0_apply (c : Dev nD) (t : Fin cfg0.N) (x : S2x197x768.Idx) (k : S64x197x768.Idx)
    (hk0 : (k 0).val = 2 * t.val + (x 0).val) (hk1 : (k 1).val = (x 1).val) (hk2 : (k 2).val = (x 2).val) :
    (iblk m c 0 t : Vec Ideal S2x197x768 .f32) x = (m ((c : Thread nD τ).loc main_arg0) : S64x197x768.Idx → EReal) k := by
  obtain ⟨⟨e0, e1, e2⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 2 + 1 * (x 0).val = (k 0).val; rw [e0, hk0]; omega
  | ⟨1, _⟩ => show win0_0.index t 1 * 197 + 1 * (x 1).val = (k 1).val; rw [e1, hk1]; omega
  | ⟨2, _⟩ => show win0_0.index t 2 * 768 + 1 * (x 2).val = (k 2).val; rw [e2, hk2]; omega

/-- The transposed prefix array the region finds is the transpose (axes 2 and 3 exchanged) of the prefix argument. -/
theorem V_main_v2_eq (c : Dev nD) :
    (V m c main_v2 : S64x2x12x10x64.Idx → EReal)
      = transpose S64x2x12x10x64 [0, 1, 3, 2, 4] (m ((c : Thread nD τ).loc main_arg1) : S64x2x10x12x64.Idx → EReal)
          Gen.transposes_S64x2x10x12x64_S64x2x12x10x64_0_1_3_2_4 := by
  dsimp only [Gen.V, Gen.hostOps0]; after_results

/-- The narrowed weight array the region finds is the weight argument (a format change is the identity on extended reals). -/
theorem V_main_v0_eq (c : Dev nD) :
    (V m c main_v0 : S2304x768.Idx → EReal) = (m ((c : Thread nD τ).loc main_arg2) : S2304x768.Idx → EReal) := by
  dsimp only [Gen.V, Gen.hostOps0]; after_results; rfl

/-- Likewise the narrowed projection array is the projection argument. -/
theorem V_main_v1_eq (c : Dev nD) :
    (V m c main_v1 : S768x768.Idx → EReal) = (m ((c : Thread nD τ).loc main_arg3) : S768x768.Idx → EReal) := by
  dsimp only [Gen.V, Gen.hostOps0]; after_results; rfl

/-- The prefix block at point `t` is batch rows `2t`, `2t + 1` of the prefix array, head and position axes exchanged. -/
theorem iblk1_apply (c : Dev nD) (t : Fin cfg0.N) (x : S2x2x12x10x64.Idx) (k : S64x2x10x12x64.Idx)
    (hk0 : (k 0).val = 2 * t.val + (x 0).val) (hk1 : (k 1).val = (x 1).val) (hk2 : (k 2).val = (x 3).val)
    (hk3 : (k 3).val = (x 2).val) (hk4 : (k 4).val = (x 4).val) :
    (iblk m c 1 t : Vec Ideal S2x2x12x10x64 .f32) x = (m ((c : Thread nD τ).loc main_arg1) : S64x2x10x12x64.Idx → EReal) k := by
  obtain ⟨-, ⟨e0, e1, e2, e3, e4⟩, -⟩ := idx_facts t
  unfold iblk
  rw [View.read_apply]
  show V m c main_v2 _ = m (c.tc.loc main_arg1) _
  refine (congrFun (V_main_v2_eq m c) _).trans ?_
  refine transpose_apply _ _ _ _ k (fun b => ?_)
  match b with
  | ⟨0, _⟩ => show (k 0).val = win0_1.index t 0 * 2 + 1 * (x 0).val; rw [e0, hk0]; omega
  | ⟨1, _⟩ => show (k 1).val = win0_1.index t 1 * 2 + 1 * (x 1).val; rw [e1, hk1]; omega
  | ⟨2, _⟩ => show (k 3).val = win0_1.index t 2 * 12 + 1 * (x 2).val; rw [e2, hk3]; omega
  | ⟨3, _⟩ => show (k 2).val = win0_1.index t 3 * 10 + 1 * (x 3).val; rw [e3, hk2]; omega
  | ⟨4, _⟩ => show (k 4).val = win0_1.index t 4 * 64 + 1 * (x 4).val; rw [e4, hk4]; omega

/-- The weight block at every point is the whole weight array. -/
theorem iblk2_eq (c : Dev nD) (t : Fin cfg0.N) :
    (iblk m c 2 t : S2304x768.Idx → EReal) = (m ((c : Thread nD τ).loc main_arg2) : S2304x768.Idx → EReal) := by
  obtain ⟨-, -, ⟨e0, e1⟩, -⟩ := idx_facts t
  funext x
  unfold iblk
  rw [View.read_apply]
  show V m c main_v0 _ = m (c.tc.loc main_arg2) x
  refine (congrFun (V_main_v0_eq m c) _).trans ?_
  congr 1
  funext a
  apply Fin.ext
  match a with
  | ⟨0, _⟩ => show win0_2.index t 0 * 2304 + 1 * (x 0).val = (x 0).val; rw [e0]; omega
  | ⟨1, _⟩ => show win0_2.index t 1 * 768 + 1 * (x 1).val = (x 1).val; rw [e1]; omega

/-- The projection block at every point is the whole projection array. -/
theorem iblk3_eq (c : Dev nD) (t : Fin cfg0.N) :
    (iblk m c 3 t : S768x768.Idx → EReal) = (m ((c : Thread nD τ).loc main_arg3) : S768x768.Idx → EReal) := by
  obtain ⟨-, -, -, ⟨e0, e1⟩, -⟩ := idx_facts t
  funext x
  unfold iblk
  rw [View.read_apply]
  show V m c main_v1 _ = m (c.tc.loc main_arg3) x
  refine (congrFun (V_main_v1_eq m c) _).trans ?_
  congr 1
  funext a
  apply Fin.ext
  match a with
  | ⟨0, _⟩ => show win0_3.index t 0 * 768 + 1 * (x 0).val = (x 0).val; rw [e0]; omega
  | ⟨1, _⟩ => show win0_3.index t 1 * 768 + 1 * (x 1).val = (x 1).val; rw [e1]; omega

/-- The bias block at every point is the whole bias array. -/
theorem iblk4_eq (c : Dev nD) (t : Fin cfg0.N) :
    (iblk m c 4 t : S768.Idx → EReal) = (m ((c : Thread nD τ).loc main_arg4) : S768.Idx → EReal) := by
  obtain ⟨-, -, -, -, e0, -⟩ := idx_facts t
  funext x
  unfold iblk
  rw [View.read_apply]
  show V m c main_arg4 _ = m (c.tc.loc main_arg4) x
  rw [V_main_arg4]
  congr 1
  funext a
  apply Fin.ext
  match a with
  | ⟨0, _⟩ => show win0_4.index t 0 * 768 + 1 * (x 0).val = (x 0).val; rw [e0]; omega

/-! ## The output array, and what each point writes back -/

/-- The attention output of the five argument arrays as core `c` holds them, index by index: the whole output array. -/
abbrev outArr (c : Dev nD) : S64x197x768.Idx → EReal := fun i =>
  AttnSpec.outK (m ((c : Thread nD τ).loc main_arg0)) (m ((c : Thread nD τ).loc main_arg1)) (m ((c : Thread nD τ).loc main_arg2))
    (m ((c : Thread nD τ).loc main_arg3)) (m ((c : Thread nD τ).loc main_arg4))
    (Ideal.ofBits .f32 0x3E000000#32) (Ideal.ofBits .f32 0xFF800000#32) (i 0) (i 1) (i 2)

/-- An element of what point `t`'s body leaves in the output block is the output array's element two batch rows per point
    further down: block row `y 0` is batch row `2t + y 0`. -/
theorem point_eq (hblk : BlockSpec) (c : Dev nD) (t : Fin cfg0.N) (y : S2x197x768.Idx) (k : S64x197x768.Idx)
    (hk0 : (k 0).val = 2 * t.val + (y 0).val) (hk1 : (k 1).val = (y 1).val) (hk2 : (k 2).val = (y 2).val) :
    (outsAt0 m c t : Vec Ideal S2x197x768 .f32) y = outArr m c k := by
  obtain ⟨bi, n, o, rfl⟩ : ∃ bi n o, y = ix3 bi n o := ⟨y 0, y 1, y 2, eq_ix3 y⟩
  have hB : ∀ b : Fin 2, 2 * t.val + b.val < 64 := fun b => by
    have h1 : t.val < 32 := lt_of_lt_of_eq t.isLt N32
    have h2 : b.val < 2 := b.isLt
    omega
  unfold outsAt0
  refine (hblk c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4))
    (fun b => ⟨2 * t.val + b.val, hB b⟩) ?_ ?_ ?_ ?_ ?_ bi n o).trans ?_
  · intro b n' e
    exact iblk0_apply m c t _ _ rfl rfl rfl
  · intro b s h p d
    exact iblk1_apply m c t _ _ rfl rfl rfl rfl rfl
  · exact iblk2_eq m c t
  · exact iblk3_eq m c t
  · exact iblk4_eq m c t
  · have e0 : (⟨2 * t.val + bi.val, hB bi⟩ : Fin 64) = k 0 := Fin.ext hk0.symm
    have e1 : n = k 1 := Fin.ext hk1.symm
    have e2 : o = k 2 := Fin.ext hk2.symm
    show AttnSpec.outK _ _ _ _ _ _ _ (⟨2 * t.val + bi.val, hB bi⟩ : Fin 64) n o = AttnSpec.outK _ _ _ _ _ _ _ (k 0) (k 1) (k 2)
    rw [e0, e1, e2]

/-- What point `t` writes back is block `t` of the output array. -/
theorem flushed5_eq (hblk : BlockSpec) (c : Dev nD) (t : Fin cfg0.N) :
    (dats m 0 c).flushed 5 t = ((cfg0.win 5).blk t).view.read (Elt Ideal) (outArr m c) := by
  obtain ⟨-, -, -, -, -, ⟨e0, e1, e2⟩⟩ := idx_facts t
  rw [Value.flushed5]
  funext y
  rw [View.read_apply]
  show (outsAt0 m c t : Vec Ideal S2x197x768 .f32) y = outArr m c (((cfg0.win 5).blk t).view.emb y)
  refine point_eq m hblk c t y _ ?_ ?_ ?_
  · show win0_5.index t 0 * 2 + 1 * (y 0).val = 2 * t.val + (y 0).val; rw [e0]; omega
  · show win0_5.index t 1 * 197 + 1 * (y 1).val = (y 1).val; rw [e1]; omega
  · show win0_5.index t 2 * 768 + 1 * (y 2).val = (y 2).val; rw [e2]; omega

/-! ## The blocks cover the array -/

/-- An index of the output array is in point `t`'s block iff each coordinate is in the block's range on its axis. -/
theorem mem_blk5 (t : Fin cfg0.N) (i : S64x197x768.Idx) :
    i ∈ ((cfg0.win 5).blk t).view.set ↔ ∀ a : Fin 3, win0_5.index t a * S2x197x768.size a ≤ (i a).val
      ∧ (i a).val < win0_5.index t a * S2x197x768.size a + S2x197x768.size a := by
  show i ∈ ((View.whole main_v3).slice (win0_5.rect t)).set ↔ _
  rw [View.set_slice_whole, Rect.mem_set_unit]
  exact Iff.rfl

/-- Every index of the output array lies in the block of the point that handles its batch row: point `(i 0) / 2`. -/
theorem cover5 (i : S64x197x768.Idx) : ∃ t : Fin cfg0.N, (cfg0.win 5).flush t = true ∧ i ∈ ((cfg0.win 5).blk t).view.set := by
  have hi0 : (i 0).val < 64 := (i 0).isLt
  have hi1 : (i 1).val < 197 := (i 1).isLt
  have hi2 : (i 2).val < 768 := (i 2).isLt
  obtain ⟨t, ht⟩ : ∃ t : Fin cfg0.N, t.val = (i 0).val / 2 := ⟨⟨(i 0).val / 2, by rw [N32]; omega⟩, rfl⟩
  obtain ⟨-, -, -, -, -, ⟨e0, e1, e2⟩⟩ := idx_facts t
  refine ⟨t, flush0_5 t, ?_⟩
  rw [mem_blk5]
  intro a
  match a with
  | ⟨0, _⟩ => show win0_5.index t 0 * 2 ≤ (i 0).val ∧ (i 0).val < win0_5.index t 0 * 2 + 2; rw [e0, ht]; omega
  | ⟨1, _⟩ => show win0_5.index t 1 * 197 ≤ (i 1).val ∧ (i 1).val < win0_5.index t 1 * 197 + 197; rw [e1]; omega
  | ⟨2, _⟩ => show win0_5.index t 2 * 768 ≤ (i 2).val ∧ (i 2).val < win0_5.index t 2 * 768 + 768; rw [e2]; omega

/-! ## The array after the run, and the run -/

/-- After the run the output array is the attention output of the argument arrays. -/
theorem final5 (hblk : BlockSpec) (c : Dev nD) : (dats m 0 c).arrAt 5 cfg0.N = outArr m c :=
  (dats m 0 c).arrAt_eq_of_cover 5 (outArr m c) (fun t _ => flushed5_eq m hblk c t) cover5

/-- The kernel's run: the output array ends at the attention output of the argument arrays, which end unchanged. -/
theorem run (hblk : BlockSpec) : θ_run defs (onTc (τ := τ) (main (F := Ideal))) ⟨m, fun _ => 0, ρ⟩ fun r => ∀ c : Dev nD,
      r.2.mem ((c : Thread nD τ).loc main_v3) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m hblk c), (h c).2⟩) (Value.run_blocks m ρ)

end Cert.KernelIdeal.RunValue

end
-- ==== Proof.KernelTerm.lean ====
/-
  The kernel body's arithmetic, regrouped by what it computes: for one batch row, the fused projection of the row's
  tokens; for one head, the scores against the prefix keys followed by the token keys, the exponentials of the scores
  less their row maximum, and the weighted sum of the prefix values followed by the token values divided by the
  exponentials' row sum; for two neighbouring heads, their outputs side by side (128 columns). Each definition below is
  the same composition of vector operations as the body performs, for any float instance; a head is addressed by the
  column offset of its 64 lanes.
-/
import proofs.«177170_j52106543235483_2_alg».proof.Proof.Gen.KernelIdeal.Skeleton

noncomputable section

namespace Cert.KernelIdeal.Attn

open Cert.KernelIdeal Cert.KernelIdeal.Gen Idealize.ShloMosaic Idealize.SL.Sem

variable {F : FTy → Type} [FloatOps F]

/-- The 207 rows a head attends to: the 10 prefix rows, then the head's 64 lanes of the 197 token rows. -/
def rows207 (P : Vec F S1x1x1x10x64 .f32) (A : FVec F S197x768 .f32) (o : Nat) (hs : S197x768.Slices ![0, o] S197x64) :
    FVec F S207x64 .bf16 :=
  concatenate S207x64 0 [⟨S10x64, truncf .bf16 (shapeCast S10x64 P Gen.shapeCasts_S1x1x1x10x64_S10x64) Gen.bitsLt_bf16_f32⟩,
    ⟨S197x64, truncf .bf16 (extractStridedSlice S197x64 ![0, o] A hs) Gen.bitsLt_bf16_f32⟩] Gen.concatenates_S10x64_S197x64_S207x64_d0

/-- Scaled scores of the head's queries against its 207 keys. -/
def scores (Q K : FVec F S197x768 .f32) (kp : Vec F S1x1x1x10x64 .f32) (o : Nat) (hs : S197x768.Slices ![0, o] S197x64) :
    FVec F S197x207 .f32 :=
  mulf (matmul dot_S197x64_S207x64_S197x207_1_1_0_0_n_n none
      (truncf .bf16 (extractStridedSlice S197x64 ![0, o] Q hs) Gen.bitsLt_bf16_f32) (rows207 kp K o hs)
      (constant S197x207 .f32 0x00000000#32))
    (broadcast S197x207 (Scalar.ofBits .f32 0x3E000000#32))

/-- Exponentials of the scores less their row maximum. -/
def weights (Q K : FVec F S197x768 .f32) (kp : Vec F S1x1x1x10x64 .f32) (o : Nat) (hs : S197x768.Slices ![0, o] S197x64) :
    FVec F S197x207 .f32 :=
  exp (subf (scores Q K kp o hs)
    (broadcastTo S197x207
      (shapeCast S197x1 (multiReduction .maximumf [1] S197 (scores Q K kp o hs) 0xFF800000#32 Gen.reduces_S197x207_S197 (.inl rfl) rfl)
        Gen.shapeCasts_S197_S197x1) Gen.broadcasts_S197x1_S197x207))

/-- The row sums of the weights, as a column. -/
def rowSum (Q K : FVec F S197x768 .f32) (kp : Vec F S1x1x1x10x64 .f32) (o : Nat) (hs : S197x768.Slices ![0, o] S197x64) :
    FVec F S197x1 .f32 :=
  shapeCast S197x1 (multiReduction .add [1] S197 (weights Q K kp o hs) 0x00000000#32 Gen.reduces_S197x207_S197 (.inl rfl) rfl)
    Gen.shapeCasts_S197_S197x1

/-- One head's output: the weighted sum of its 207 values, divided by the weights' row sum. -/
def headOut (Q K V : FVec F S197x768 .f32) (kp vp : Vec F S1x1x1x10x64 .f32) (o : Nat) (hs : S197x768.Slices ![0, o] S197x64) :
    FVec F S197x64 .f32 :=
  divf (matmul dot_S197x207_S207x64_S197x64_1_0_0_1_n_n none (truncf .bf16 (weights Q K kp o hs) Gen.bitsLt_bf16_f32)
      (rows207 vp V o hs) (constant S197x64 .f32 0x00000000#32))
    (broadcastTo S197x64 (rowSum Q K kp o hs) Gen.broadcasts_S197x1_S197x64)

/-- Two neighbouring heads' outputs side by side. -/
def pairOut (Q K V : FVec F S197x768 .f32) (kp0 vp0 kp1 vp1 : Vec F S1x1x1x10x64 .f32)
    (o0 : Nat) (hs0 : S197x768.Slices ![0, o0] S197x64) (o1 : Nat) (hs1 : S197x768.Slices ![0, o1] S197x64) :
    FVec F S197x128 .f32 :=
  shapeCast S197x128
    (concatenate S197x128 1 [⟨S197x64, headOut Q K V kp0 vp0 o0 hs0⟩, ⟨S197x64, headOut Q K V kp1 vp1 o1 hs1⟩]
      Gen.concatenates_S197x64_S197x64_S197x128_d1) Gen.shapeCasts_S197x128_S197x128

end Cert.KernelIdeal.Attn

end
-- ==== Proof.BlockBasics.lean ====
/-
  Small facts about reading blocks: a load of one batch row or one head's prefix rows out of a staged block reads the
  block at the shifted index; a column's projection row is its part's offset plus the column; and the contents a list
  of stores leaves agree with a function wherever the NEWEST stores already cover, whatever older stores lie beneath.
-/
import proofs.«177170_j52106543235483_2_alg».proof.Proof.Gen.KernelIdeal.Skeleton
import proofs.«177170_j52106543235483_2_alg».proof.Proof.AttnSpec
import Idealize.ShloMosaic.Lib.Pipeline.Value
import Idealize.ShloMosaic.Lib.Pipeline.FrameBody
import Idealize.ShloMosaic.Lib.ValueIdx

noncomputable section

namespace Cert.KernelIdeal.Attn

open Cert.KernelIdeal Cert.KernelIdeal.Gen Idealize.ShloMosaic Idealize.ShloMosaic.ValueIdx Idealize.SL.Sem

theorem hz2 : (![0, 0] : Fin 2 → Nat) = fun _ => 0 := funext fun a => by fin_cases a <;> rfl
theorem hz1 : (![0] : Fin 1 → Nat) = fun _ => 0 := funext fun a => by fin_cases a <;> rfl

/-- Where the newest stores `L₁` cover an index and all agree with `G`, the contents read `G` there, whatever older
    stores `L₂` lie beneath them. -/
theorem canon_prefix {Val : EltTy → Type} [∀ e, Nonempty (Val e)] {S : Shape} {e : EltTy} (G : S.Idx → Val e) :
    ∀ (L₁ L₂ : List (View.Piece Val S e)) (_ : ∀ p ∈ L₁, ∀ x : p.1.shape.Idx, p.2 x = G (p.1.emb x)) (y : S.Idx)
      (_ : ∃ p ∈ L₁, y ∈ p.1.set), View.canon (L₁ ++ L₂) y = G y
  | [], _, _, _, hy => by obtain ⟨p, hp, _⟩ := hy; simp at hp
  | p :: L, L₂, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_prefix G L L₂ (fun q hq => hL q (by simp [hq])) y ?_
      obtain ⟨q, hq, hyq⟩ := hy
      rcases List.mem_cons.mp hq with rfl | hq'
      · exact absurd hyq hm
      · exact ⟨q, hq', hyq⟩

/-- One batch row loaded out of a two-row block. -/
theorem ld_row (x0 : S2x197x768.Idx → EReal) (bi : Nat) (hbi : bi < 2) (inb : ∀ a, (![bi, 0, 0] : Fin 3 → Nat) a + S1x197x768.size a ≤ S2x197x768.size a)
    (n : Fin 197) (e : Fin 768) :
    View.ld (Val := Elt Ideal) (e' := .f32) x0 (Rect.unit (s := S2x197x768) ![bi, 0, 0] S1x197x768.size inb) (ix3 0 n e) = x0 (ix3 ⟨bi, hbi⟩ n e) := by
  show x0 _ = x0 _
  congr 1; funext a; apply Fin.ext
  match a with
  | ⟨0, _⟩ => show bi + 1 * 0 = bi; omega
  | ⟨1, _⟩ => show 0 + 1 * n.val = n.val; omega
  | ⟨2, _⟩ => show 0 + 1 * e.val = e.val; omega

/-- One head's ten prefix rows (keys `s = 0`, values `s = 1`) loaded out of a two-row block of prefixes. -/
theorem ld_pref (x1 : S2x2x12x10x64.Idx → EReal) (bi s h : Nat) (hbi : bi < 2) (hs : s < 2) (hh : h < 12)
    (inb : ∀ a, (![bi, s, h, 0, 0] : Fin 5 → Nat) a + S1x1x1x10x64.size a ≤ S2x2x12x10x64.size a)
    (p : Fin 10) (d : Fin 64) :
    View.ld (Val := Elt Ideal) (e' := .f32) x1 (Rect.unit (s := S2x2x12x10x64) ![bi, s, h, 0, 0] S1x1x1x10x64.size inb) (ix5 0 0 0 p d)
      = x1 (ix5 ⟨bi, hbi⟩ ⟨s, hs⟩ ⟨h, hh⟩ p d) := by
  show x1 _ = x1 _
  congr 1; funext a; apply Fin.ext
  match a with
  | ⟨0, _⟩ => show bi + 1 * 0 = bi; omega
  | ⟨1, _⟩ => show s + 1 * 0 = s; omega
  | ⟨2, _⟩ => show h + 1 * 0 = h; omega
  | ⟨3, _⟩ => show 0 + 1 * p.val = p.val; omega
  | ⟨4, _⟩ => show 0 + 1 * d.val = d.val; omega

/-- The projection row of column `c` of the query, key and value parts: the part's offset plus the column. -/
theorem col0 (c : Fin 768) : AttnSpec.col 0 (AttnSpec.hd c) (AttnSpec.ln c) = ⟨c.val, by omega⟩ := by
  apply Fin.ext
  show 0 * 768 + c.val / 64 * 64 + c.val % 64 = c.val
  have := Nat.div_add_mod c.val 64
  omega
theorem col1 (c : Fin 768) : AttnSpec.col 1 (AttnSpec.hd c) (AttnSpec.ln c) = ⟨768 + c.val, by omega⟩ := by
  apply Fin.ext
  show 1 * 768 + c.val / 64 * 64 + c.val % 64 = 768 + c.val
  have := Nat.div_add_mod c.val 64
  omega
theorem col2 (c : Fin 768) : AttnSpec.col 2 (AttnSpec.hd c) (AttnSpec.ln c) = ⟨1536 + c.val, by omega⟩ := by
  apply Fin.ext
  show 2 * 768 + c.val / 64 * 64 + c.val % 64 = 1536 + c.val
  have := Nat.div_add_mod c.val 64
  omega

/-- A 128-column store into the 768-column scratch lands at the shifted column. -/
theorem emb_cols (o : Nat) (inb : ∀ a, (![0, o] : Fin 2 → Nat) a + S197x128.size a ≤ S197x768.size a) (n : Fin 197) (c' : Fin 128)
    (hc : o + c'.val < 768) :
    (Rect.unit (s := S197x768) ![0, o] S197x128.size inb).emb (ix2 n c') = (ix2 n ⟨o + c'.val, hc⟩ : S197x768.Idx) := by
  funext a; apply Fin.ext
  match a with
  | ⟨0, _⟩ => show 0 + 1 * n.val = n.val; omega
  | ⟨1, _⟩ => show o + 1 * c'.val = o + c'.val; omega

end Cert.KernelIdeal.Attn

end
-- ==== Proof.RowValue.lean ====
/-
  Two matrix products of the attention body, read at an index on the extended reals.

  The fused projection of one batch row: with `x` the row's [197, 768] tokens and `w` the [2304, 768] weight, the
  product contracts the feature axis of both, so its entry at token `n`, column `r` is `∑ e, x(n,e) · w(r,e)`; the
  query, key and value are its column ranges from 0, 768 and 1536. The output projection: with `a` the [197, 768]
  concatenated heads, `pw` the [768, 768] weight and `pb` the [768] bias, the entry at token `n`, column `o` is
  `∑ c, a(n,c) · pw(o,c) + pb(o)`. Narrowing a value to the product's operand type is the identity on the extended
  reals, and the product accumulates into the zero array, so nothing else is left in either sum.
-/
import proofs.«177170_j52106543235483_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Attn

open Cert.KernelIdeal Cert.KernelIdeal.Gen Idealize.ShloMosaic Idealize.ShloMosaic.ValueIdx

/-! ## The two products' operand indices

Both products contract axis 1 of the left operand with axis 1 of the right one: the output's row picks the left
operand's row, the output's column picks the right operand's ROW, and the contraction index is the second coordinate
of both. -/

theorem lhs_dot_S197x768_S2304x768_S197x2304_1_1_0_0_n_n_0 (i : S197x2304.Idx) (q : dot_S197x768_S2304x768_S197x2304_1_1_0_0_n_n.contr.Idx) :
    (dot_S197x768_S2304x768_S197x2304_1_1_0_0_n_n.lhsIdx i q 0).val = (i 0).val := by
  unfold DotDims.lhsIdx
  rw [dif_neg (show ¬(0 : Fin S197x768.rank) ∈ dot_S197x768_S2304x768_S197x2304_1_1_0_0_n_n.lhsBatch by decide), dif_pos (show (0 : Fin S197x768.rank) ∈ dot_S197x768_S2304x768_S197x2304_1_1_0_0_n_n.lhsNonContracting by decide)]
  rfl
theorem lhs_dot_S197x768_S2304x768_S197x2304_1_1_0_0_n_n_1 (i : S197x2304.Idx) (q : dot_S197x768_S2304x768_S197x2304_1_1_0_0_n_n.contr.Idx) :
    (dot_S197x768_S2304x768_S197x2304_1_1_0_0_n_n.lhsIdx i q 1).val = (q ⟨0, by decide⟩).val :=
  dot_S197x768_S2304x768_S197x2304_1_1_0_0_n_n.lhsIdx_val_of_single rfl i q
theorem rhs_dot_S197x768_S2304x768_S197x2304_1_1_0_0_n_n_0 (i : S197x2304.Idx) (q : dot_S197x768_S2304x768_S197x2304_1_1_0_0_n_n.contr.Idx) :
    (dot_S197x768_S2304x768_S197x2304_1_1_0_0_n_n.rhsIdx i q 0).val = (i 1).val := by
  unfold DotDims.rhsIdx
  rw [dif_neg (show ¬(0 : Fin S2304x768.rank) ∈ dot_S197x768_S2304x768_S197x2304_1_1_0_0_n_n.rhsBatch by decide), dif_pos (show (0 : Fin S2304x768.rank) ∈ dot_S197x768_S2304x768_S197x2304_1_1_0_0_n_n.rhsNonContracting by decide)]
  rfl
theorem rhs_dot_S197x768_S2304x768_S197x2304_1_1_0_0_n_n_1 (i : S197x2304.Idx) (q : dot_S197x768_S2304x768_S197x2304_1_1_0_0_n_n.contr.Idx) :
    (dot_S197x768_S2304x768_S197x2304_1_1_0_0_n_n.rhsIdx i q 1).val = (q ⟨0, by decide⟩).val :=
  dot_S197x768_S2304x768_S197x2304_1_1_0_0_n_n.rhsIdx_val_of_single rfl i q

theorem lhs_dot_S197x768_S768x768_S197x768_1_1_0_0_n_n_0 (i : S197x768.Idx) (q : dot_S197x768_S768x768_S197x768_1_1_0_0_n_n.contr.Idx) :
    (dot_S197x768_S768x768_S197x768_1_1_0_0_n_n.lhsIdx i q 0).val = (i 0).val := by
  unfold DotDims.lhsIdx
  rw [dif_neg (show ¬(0 : Fin S197x768.rank) ∈ dot_S197x768_S768x768_S197x768_1_1_0_0_n_n.lhsBatch by decide), dif_pos (show (0 : Fin S197x768.rank) ∈ dot_S197x768_S768x768_S197x768_1_1_0_0_n_n.lhsNonContracting by decide)]
  rfl
theorem lhs_dot_S197x768_S768x768_S197x768_1_1_0_0_n_n_1 (i : S197x768.Idx) (q : dot_S197x768_S768x768_S197x768_1_1_0_0_n_n.contr.Idx) :
    (dot_S197x768_S768x768_S197x768_1_1_0_0_n_n.lhsIdx i q 1).val = (q ⟨0, by decide⟩).val :=
  dot_S197x768_S768x768_S197x768_1_1_0_0_n_n.lhsIdx_val_of_single rfl i q
theorem rhs_dot_S197x768_S768x768_S197x768_1_1_0_0_n_n_0 (i : S197x768.Idx) (q : dot_S197x768_S768x768_S197x768_1_1_0_0_n_n.contr.Idx) :
    (dot_S197x768_S768x768_S197x768_1_1_0_0_n_n.rhsIdx i q 0).val = (i 1).val := by
  unfold DotDims.rhsIdx
  rw [dif_neg (show ¬(0 : Fin S768x768.rank) ∈ dot_S197x768_S768x768_S197x768_1_1_0_0_n_n.rhsBatch by decide), dif_pos (show (0 : Fin S768x768.rank) ∈ dot_S197x768_S768x768_S197x768_1_1_0_0_n_n.rhsNonContracting by decide)]
  rfl
theorem rhs_dot_S197x768_S768x768_S197x768_1_1_0_0_n_n_1 (i : S197x768.Idx) (q : dot_S197x768_S768x768_S197x768_1_1_0_0_n_n.contr.Idx) :
    (dot_S197x768_S768x768_S197x768_1_1_0_0_n_n.rhsIdx i q 1).val = (q ⟨0, by decide⟩).val :=
  dot_S197x768_S768x768_S197x768_1_1_0_0_n_n.rhsIdx_val_of_single rfl i q

/-- The fused projection's product into the zero accumulator, at token `n` and output column `r`: the sum over the
    768 input features of the token's feature times the feature of row `r` of the weight. -/
theorem qkvDot_apply (lhs : FVec Ideal S197x768 .bf16) (rhs : FVec Ideal S2304x768 .bf16) (n : Fin 197) (r : Fin 2304) :
    matmul dot_S197x768_S2304x768_S197x2304_1_1_0_0_n_n none lhs rhs (constant S197x2304 .f32 0x00000000#32) (ix2 n r)
      = ∑ e : Fin 768, lhs (ix2 n e) * rhs (ix2 r e) := by
  simp only [matmul]
  rw [Ideal.matmul_constant_zero_apply,
    ← Equiv.sum_comp (contrEquiv1 dot_S197x768_S2304x768_S197x2304_1_1_0_0_n_n 768 rfl rfl).symm]
  refine Finset.sum_congr rfl fun k _ => ?_
  have hk := contrEquiv1_symm_val dot_S197x768_S2304x768_S197x2304_1_1_0_0_n_n 768 rfl rfl k
  have el : dot_S197x768_S2304x768_S197x2304_1_1_0_0_n_n.lhsIdx (ix2 n r) ((contrEquiv1 dot_S197x768_S2304x768_S197x2304_1_1_0_0_n_n 768 rfl rfl).symm k) = ix2 n k :=
    funext fun a => Fin.ext (by
      match a with
      | ⟨0, _⟩ => exact lhs_dot_S197x768_S2304x768_S197x2304_1_1_0_0_n_n_0 _ _
      | ⟨1, _⟩ => exact (lhs_dot_S197x768_S2304x768_S197x2304_1_1_0_0_n_n_1 _ _).trans hk)
  have er : dot_S197x768_S2304x768_S197x2304_1_1_0_0_n_n.rhsIdx (ix2 n r) ((contrEquiv1 dot_S197x768_S2304x768_S197x2304_1_1_0_0_n_n 768 rfl rfl).symm k) = ix2 r k :=
    funext fun a => Fin.ext (by
      match a with
      | ⟨0, _⟩ => exact rhs_dot_S197x768_S2304x768_S197x2304_1_1_0_0_n_n_0 _ _
      | ⟨1, _⟩ => exact (rhs_dot_S197x768_S2304x768_S197x2304_1_1_0_0_n_n_1 _ _).trans hk)
  rw [el, er]

/-- The output projection's product into the zero accumulator, at token `n` and output column `r`: the sum over the
    768 concatenated head lanes of the token's lane times the lane of row `r` of the weight. -/
theorem outDot_apply (lhs : FVec Ideal S197x768 .bf16) (rhs : FVec Ideal S768x768 .bf16) (n : Fin 197) (r : Fin 768) :
    matmul dot_S197x768_S768x768_S197x768_1_1_0_0_n_n none lhs rhs (constant S197x768 .f32 0x00000000#32) (ix2 n r)
      = ∑ e : Fin 768, lhs (ix2 n e) * rhs (ix2 r e) := by
  simp only [matmul]
  rw [Ideal.matmul_constant_zero_apply,
    ← Equiv.sum_comp (contrEquiv1 dot_S197x768_S768x768_S197x768_1_1_0_0_n_n 768 rfl rfl).symm]
  refine Finset.sum_congr rfl fun k _ => ?_
  have hk := contrEquiv1_symm_val dot_S197x768_S768x768_S197x768_1_1_0_0_n_n 768 rfl rfl k
  have el : dot_S197x768_S768x768_S197x768_1_1_0_0_n_n.lhsIdx (ix2 n r) ((contrEquiv1 dot_S197x768_S768x768_S197x768_1_1_0_0_n_n 768 rfl rfl).symm k) = ix2 n k :=
    funext fun a => Fin.ext (by
      match a with
      | ⟨0, _⟩ => exact lhs_dot_S197x768_S768x768_S197x768_1_1_0_0_n_n_0 _ _
      | ⟨1, _⟩ => exact (lhs_dot_S197x768_S768x768_S197x768_1_1_0_0_n_n_1 _ _).trans hk)
  have er : dot_S197x768_S768x768_S197x768_1_1_0_0_n_n.rhsIdx (ix2 n r) ((contrEquiv1 dot_S197x768_S768x768_S197x768_1_1_0_0_n_n 768 rfl rfl).symm k) = ix2 r k :=
    funext fun a => Fin.ext (by
      match a with
      | ⟨0, _⟩ => exact rhs_dot_S197x768_S768x768_S197x768_1_1_0_0_n_n_0 _ _
      | ⟨1, _⟩ => exact (rhs_dot_S197x768_S768x768_S197x768_1_1_0_0_n_n_1 _ _).trans hk)
  rw [el, er]

/-! ## The fused projection of one batch row -/

/-- The fused projection at token `n`, output column `r` of the 2304: the row's tokens (the block's one batch row,
    narrowed to the product's operand type, which at the extended reals changes nothing) against row `r` of the weight. -/
theorem qkvMat_apply (wv : Vec Ideal S2304x768 .bf16) (xr : Vec Ideal S1x197x768 .f32) (n : Fin 197) (r : Fin 2304) :
    k0_pay4 wv xr (ix2 n r) = ∑ e : Fin 768, xr (ix3 0 n e) * wv (ix2 r e) := by
  unfold k0_pay4 k0_pay2
  refine (qkvDot_apply _ _ n r).trans ?_
  refine Finset.sum_congr rfl fun e _ => ?_
  rw [shapeCast_self, truncf_apply, shapeCast_1ab_ab_apply]

/-- The query, key and value thirds of the fused projection are its columns from 0, 768 and 1536. -/
theorem qkv_apply (wv : Vec Ideal S2304x768 .bf16) (xr : Vec Ideal S1x197x768 .f32) (n : Fin 197) (c : Fin 768) :
    k0_pay5 wv xr (ix2 n c) = ∑ e : Fin 768, xr (ix3 0 n e) * wv (ix2 (⟨c.val, by omega⟩ : Fin 2304) e)
  ∧ k0_pay6 wv xr (ix2 n c) = ∑ e : Fin 768, xr (ix3 0 n e) * wv (ix2 (⟨768 + c.val, by omega⟩ : Fin 2304) e)
  ∧ k0_pay7 wv xr (ix2 n c) = ∑ e : Fin 768, xr (ix3 0 n e) * wv (ix2 (⟨1536 + c.val, by omega⟩ : Fin 2304) e) := by
  refine ⟨?_, ?_, ?_⟩
  · unfold k0_pay5
    refine (slice2_axis1_apply 0 (k0_pay4 wv xr) slices_S197x2304_o0_0_S197x768 n c (⟨c.val, by omega⟩ : Fin 2304)
      (Nat.zero_add _).symm).trans ?_
    exact qkvMat_apply wv xr n _
  · unfold k0_pay6
    refine (slice2_axis1_apply 768 (k0_pay4 wv xr) slices_S197x2304_o0_768_S197x768 n c (⟨768 + c.val, by omega⟩ : Fin 2304)
      rfl).trans ?_
    exact qkvMat_apply wv xr n _
  · unfold k0_pay7
    refine (slice2_axis1_apply 1536 (k0_pay4 wv xr) slices_S197x2304_o0_1536_S197x768 n c (⟨1536 + c.val, by omega⟩ : Fin 2304)
      rfl).trans ?_
    exact qkvMat_apply wv xr n _

/-! ## The output projection of one batch row -/

/-- The output projection at token `n`, output column `o`: the concatenated heads against row `o` of the weight,
    plus the bias's entry `o` (the bias is laid along every token row). -/
theorem rowOutMat_apply (w3 : FVec Ideal S768x768 .bf16) (scr : Vec Ideal S197x768 .f32) (bias : Vec Ideal S768 .f32)
    (n : Fin 197) (o : Fin 768) :
    k0_pay85 w3 scr bias (ix2 n o) = (∑ c : Fin 768, scr (ix2 n c) * w3 (ix2 o c)) + bias (ix1 o) := by
  unfold k0_pay85
  rw [addf_apply]
  refine congrArg₂ (· + ·) ((outDot_apply _ _ n o).trans ?_) ?_
  · refine Finset.sum_congr rfl fun c _ => ?_
    rw [truncf_apply]
  · rw [broadcastTo_1b_ab_apply, shapeCast_a_1a_apply]

/-- The second batch row's query, key and value thirds are the same functions of the weight and the row as the first's. -/
theorem row1_q {F : FTy → Type} [FloatOps F] (v0 : Vec F S2304x768 .bf16) (v : Vec F S1x197x768 .f32) :
    k0_pay43 (k0_pay2 v0) v = k0_pay5 v0 v := rfl
theorem row1_k {F : FTy → Type} [FloatOps F] (v0 : Vec F S2304x768 .bf16) (v : Vec F S1x197x768 .f32) :
    k0_pay44 (k0_pay2 v0) v = k0_pay6 v0 v := rfl
theorem row1_v {F : FTy → Type} [FloatOps F] (v0 : Vec F S2304x768 .bf16) (v : Vec F S1x197x768 .f32) :
    k0_pay45 (k0_pay2 v0) v = k0_pay7 v0 v := rfl
/-- The second batch row's output projection, given its leading unit axis, is the same function of its operands as the first's. -/
theorem row1_out {F : FTy → Type} [FloatOps F] (w3 : FVec F S768x768 .bf16) (scr : Vec F S197x768 .f32) (bias : Vec F S768 .f32) :
    k0_pay1 (k0_pay85 w3 scr bias) = k0_pay41 w3 scr bias := rfl

/-- The first batch row's output projection carries a leading unit axis; at `(0, n, o)` it is the entry `(n, o)`. -/
theorem rowOut_apply (w3 : FVec Ideal S768x768 .bf16) (scr : Vec Ideal S197x768 .f32) (bias : Vec Ideal S768 .f32)
    (n : Fin 197) (o : Fin 768) :
    k0_pay41 w3 scr bias (ix3 0 n o) = (∑ c : Fin 768, scr (ix2 n c) * w3 (ix2 o c)) + bias (ix1 o) := by
  rw [← row1_out]
  unfold k0_pay1
  rw [shapeCast_ab_1ab_apply]
  exact rowOutMat_apply w3 scr bias n o

end Cert.KernelIdeal.Attn

end
-- ==== Proof.HeadValue.lean ====
/-
  One attention head, read index by index on the extended reals.

  The head's vector operations compose as follows. The 207 rows a head attends to are the 10 prefix rows (the
  `[1,1,1,10,64]` block viewed as `[10,64]`: both place `(p, d)` at row-major position `64 p + d`) followed by lanes
  `o … o + 63` of the 197 token rows; with `o = 64 h`, column `64 h + d` is lane `d` of head `h`, so these are the
  extended keys or values of head `h`. A contraction over one axis into the zero accumulator is the sum over that
  axis's coordinate of the products; narrowing the operands is the identity on the extended reals. Hence a score is
  `(∑ d, q(n,d) · key(j,d))` times the scale literal; the reduction of `max` over axis 1 at row
  `n` is the fold of `max` over `j` of the entries `(n, j)`, and the reduction of `+` the sum over `j`; a vector of
  197 viewed as a column and broadcast along rows reads, at `(n, ·)`, the vector at `n`. So the weights are
  `exp (score − row maximum)`, the column of row sums is the denominator, and the quotient of the weighted sum of the
  207 value rows by the broadcast denominator is the head that divides the weighted sum. Two heads laid side by side
  in 128 columns: column `c'` is lane `c' % 64` of head `2 hp + c' / 64`, that is, column `128 hp + c'` of the 768.
-/
import proofs.«177170_j52106543235483_2_alg».proof.Proof.KernelTerm
import proofs.«177170_j52106543235483_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Attn

open Cert.KernelIdeal Cert.KernelIdeal.Gen Idealize.ShloMosaic Idealize.SL.Sem Idealize.ShloMosaic.ValueIdx Cert.AttnSpec

/-! ### The 207 rows of a head -/

/-- The prefix block `[1,1,1,10,64]` viewed as `[10,64]` reads, at `(p, d)`, the block at `(0,0,0,p,d)`: both have
    row-major position `64 p + d`. -/
theorem prefixCast_apply (P : Vec Ideal S1x1x1x10x64 .f32) (p : Fin 10) (d : Fin 64) :
    shapeCast S10x64 P Gen.shapeCasts_S1x1x1x10x64_S10x64 (ix2 p d) = P (ix5 0 0 0 p d) :=
  shapeCast_apply P _ _ _ (by
    rw [Shape.rowMajor_val_five, Shape.rowMajor_val_two]
    show ((((0 * 1 + 0) * 1 + 0) * 10 + p.val) * 64 + d.val) = p.val * 64 + d.val
    omega)

/-- A row below 10 is a prefix row. -/
theorem rows207_apply_lt (P : Vec Ideal S1x1x1x10x64 .f32) (A : FVec Ideal S197x768 .f32) (o : ℕ)
    (hs : S197x768.Slices ![0, o] S197x64) (j : Fin 207) (d : Fin 64) (hj : j.val < 10) :
    rows207 P A o hs (ix2 j d) = P (ix5 0 0 0 ⟨j.val, hj⟩ d) := by
  unfold rows207
  refine (concatenate_pair_apply_left (t := S207x64) (s₁ := S10x64) (s₂ := S197x64) (0 : Fin 2) _ _
    Gen.concatenates_S10x64_S197x64_S207x64_d0 (ix2 j d) rfl
    (ix2 (⟨j.val, hj⟩ : Fin 10) d) (fun b => by
      match b with
      | ⟨0, _⟩ => rfl
      | ⟨1, _⟩ => rfl)).trans ?_
  rw [truncf_apply]
  exact prefixCast_apply P ⟨j.val, hj⟩ d

/-- A row from 10 on is a token row, read in the head's 64 lanes. -/
theorem rows207_apply_ge (P : Vec Ideal S1x1x1x10x64 .f32) (A : FVec Ideal S197x768 .f32) (o : ℕ)
    (hs : S197x768.Slices ![0, o] S197x64) (j : Fin 207) (d : Fin 64) (hj : ¬ j.val < 10)
    (k : Fin 768) (hk : k.val = o + d.val) :
    rows207 P A o hs (ix2 j d) = A (ix2 ⟨j.val - 10, by omega⟩ k) := by
  unfold rows207
  refine (concatenate_pair_apply_right (t := S207x64) (s₁ := S10x64) (s₂ := S197x64) (0 : Fin 2) _ _
    Gen.concatenates_S10x64_S197x64_S207x64_d0 (ix2 j d) rfl rfl
    (ix2 (⟨j.val - 10, by omega⟩ : Fin 197) d) (fun b hb => by
      match b with
      | ⟨0, _⟩ => exact absurd rfl hb
      | ⟨1, _⟩ => rfl) (by show j.val - 10 + 10 = j.val; omega)).trans ?_
  rw [truncf_apply]
  exact slice2_axis1_apply o A hs _ d k hk

/-! ### The two contractions, index by index -/

theorem dqk_lhs0 (i : S197x207.Idx) (q : dot_S197x64_S207x64_S197x207_1_1_0_0_n_n.contr.Idx) : (dot_S197x64_S207x64_S197x207_1_1_0_0_n_n.lhsIdx i q 0).val = (i 0).val := by
  unfold DotDims.lhsIdx
  rw [dif_neg (show ¬(0 : Fin S197x64.rank) ∈ dot_S197x64_S207x64_S197x207_1_1_0_0_n_n.lhsBatch by decide),
    dif_pos (show (0 : Fin S197x64.rank) ∈ dot_S197x64_S207x64_S197x207_1_1_0_0_n_n.lhsNonContracting by decide)]
  rfl
theorem dqk_lhs1 (i : S197x207.Idx) (q : dot_S197x64_S207x64_S197x207_1_1_0_0_n_n.contr.Idx) : (dot_S197x64_S207x64_S197x207_1_1_0_0_n_n.lhsIdx i q 1).val = (q ⟨0, by decide⟩).val :=
  dot_S197x64_S207x64_S197x207_1_1_0_0_n_n.lhsIdx_val_of_single rfl i q
theorem dqk_rhs0 (i : S197x207.Idx) (q : dot_S197x64_S207x64_S197x207_1_1_0_0_n_n.contr.Idx) : (dot_S197x64_S207x64_S197x207_1_1_0_0_n_n.rhsIdx i q 0).val = (i 1).val := by
  unfold DotDims.rhsIdx
  rw [dif_neg (show ¬(0 : Fin S207x64.rank) ∈ dot_S197x64_S207x64_S197x207_1_1_0_0_n_n.rhsBatch by decide),
    dif_pos (show (0 : Fin S207x64.rank) ∈ dot_S197x64_S207x64_S197x207_1_1_0_0_n_n.rhsNonContracting by decide)]
  rfl
theorem dqk_rhs1 (i : S197x207.Idx) (q : dot_S197x64_S207x64_S197x207_1_1_0_0_n_n.contr.Idx) : (dot_S197x64_S207x64_S197x207_1_1_0_0_n_n.rhsIdx i q 1).val = (q ⟨0, by decide⟩).val :=
  dot_S197x64_S207x64_S197x207_1_1_0_0_n_n.rhsIdx_val_of_single rfl i q

theorem dpv_lhs0 (i : S197x64.Idx) (q : dot_S197x207_S207x64_S197x64_1_0_0_1_n_n.contr.Idx) : (dot_S197x207_S207x64_S197x64_1_0_0_1_n_n.lhsIdx i q 0).val = (i 0).val := by
  unfold DotDims.lhsIdx
  rw [dif_neg (show ¬(0 : Fin S197x207.rank) ∈ dot_S197x207_S207x64_S197x64_1_0_0_1_n_n.lhsBatch by decide),
    dif_pos (show (0 : Fin S197x207.rank) ∈ dot_S197x207_S207x64_S197x64_1_0_0_1_n_n.lhsNonContracting by decide)]
  rfl
theorem dpv_lhs1 (i : S197x64.Idx) (q : dot_S197x207_S207x64_S197x64_1_0_0_1_n_n.contr.Idx) : (dot_S197x207_S207x64_S197x64_1_0_0_1_n_n.lhsIdx i q 1).val = (q ⟨0, by decide⟩).val :=
  dot_S197x207_S207x64_S197x64_1_0_0_1_n_n.lhsIdx_val_of_single rfl i q
theorem dpv_rhs0 (i : S197x64.Idx) (q : dot_S197x207_S207x64_S197x64_1_0_0_1_n_n.contr.Idx) : (dot_S197x207_S207x64_S197x64_1_0_0_1_n_n.rhsIdx i q 0).val = (q ⟨0, by decide⟩).val :=
  dot_S197x207_S207x64_S197x64_1_0_0_1_n_n.rhsIdx_val_of_single rfl i q
theorem dpv_rhs1 (i : S197x64.Idx) (q : dot_S197x207_S207x64_S197x64_1_0_0_1_n_n.contr.Idx) : (dot_S197x207_S207x64_S197x64_1_0_0_1_n_n.rhsIdx i q 1).val = (i 1).val := by
  unfold DotDims.rhsIdx
  rw [dif_neg (show ¬(1 : Fin S207x64.rank) ∈ dot_S197x207_S207x64_S197x64_1_0_0_1_n_n.rhsBatch by decide),
    dif_pos (show (1 : Fin S207x64.rank) ∈ dot_S197x207_S207x64_S197x64_1_0_0_1_n_n.rhsNonContracting by decide)]
  rfl

/-- The query-key product into the zero accumulator, at `(n, j)`: the sum over the 64 lanes. -/
theorem matmulQK_apply (A : FVec Ideal S197x64 .bf16) (B : FVec Ideal S207x64 .bf16) (n : Fin 197) (j : Fin 207) :
    matmul dot_S197x64_S207x64_S197x207_1_1_0_0_n_n none A B (constant S197x207 .f32 0x00000000#32) (ix2 n j) = ∑ d : Fin 64, A (ix2 n d) * B (ix2 j d) := by
  simp only [matmul]
  rw [Ideal.matmul_constant_zero_apply, ← Equiv.sum_comp (contrEquiv1 dot_S197x64_S207x64_S197x207_1_1_0_0_n_n 64 rfl rfl).symm]
  refine Finset.sum_congr rfl fun d _ => ?_
  have hk := contrEquiv1_symm_val dot_S197x64_S207x64_S197x207_1_1_0_0_n_n 64 rfl rfl d
  have el : dot_S197x64_S207x64_S197x207_1_1_0_0_n_n.lhsIdx (ix2 n j) ((contrEquiv1 dot_S197x64_S207x64_S197x207_1_1_0_0_n_n 64 rfl rfl).symm d) = ix2 n d := funext fun a => Fin.ext (by
    match a with
    | ⟨0, _⟩ => exact dqk_lhs0 _ _
    | ⟨1, _⟩ => exact (dqk_lhs1 _ _).trans hk)
  have er : dot_S197x64_S207x64_S197x207_1_1_0_0_n_n.rhsIdx (ix2 n j) ((contrEquiv1 dot_S197x64_S207x64_S197x207_1_1_0_0_n_n 64 rfl rfl).symm d) = ix2 j d := funext fun a => Fin.ext (by
    match a with
    | ⟨0, _⟩ => exact dqk_rhs0 _ _
    | ⟨1, _⟩ => exact (dqk_rhs1 _ _).trans hk)
  rw [el, er]

/-- The weight-value product into the zero accumulator, at `(n, d)`: the sum over the 207 rows. -/
theorem matmulPV_apply (A : FVec Ideal S197x207 .bf16) (B : FVec Ideal S207x64 .bf16) (n : Fin 197) (d : Fin 64) :
    matmul dot_S197x207_S207x64_S197x64_1_0_0_1_n_n none A B (constant S197x64 .f32 0x00000000#32) (ix2 n d) = ∑ j : Fin 207, A (ix2 n j) * B (ix2 j d) := by
  simp only [matmul]
  rw [Ideal.matmul_constant_zero_apply, ← Equiv.sum_comp (contrEquiv1 dot_S197x207_S207x64_S197x64_1_0_0_1_n_n 207 rfl rfl).symm]
  refine Finset.sum_congr rfl fun j _ => ?_
  have hk := contrEquiv1_symm_val dot_S197x207_S207x64_S197x64_1_0_0_1_n_n 207 rfl rfl j
  have el : dot_S197x207_S207x64_S197x64_1_0_0_1_n_n.lhsIdx (ix2 n d) ((contrEquiv1 dot_S197x207_S207x64_S197x64_1_0_0_1_n_n 207 rfl rfl).symm j) = ix2 n j := funext fun a => Fin.ext (by
    match a with
    | ⟨0, _⟩ => exact dpv_lhs0 _ _
    | ⟨1, _⟩ => exact (dpv_lhs1 _ _).trans hk)
  have er : dot_S197x207_S207x64_S197x64_1_0_0_1_n_n.rhsIdx (ix2 n d) ((contrEquiv1 dot_S197x207_S207x64_S197x64_1_0_0_1_n_n 207 rfl rfl).symm j) = ix2 j d := funext fun a => Fin.ext (by
    match a with
    | ⟨0, _⟩ => exact (dpv_rhs0 _ _).trans hk
    | ⟨1, _⟩ => exact dpv_rhs1 _ _)
  rw [el, er]

/-! ### Columns, lanes and heads -/

/-- Column `64 h + d` of the 768: lane `d` of head `h`. -/
def laneCol (h : Fin 12) (d : Fin 64) : Fin 768 := ⟨64 * h.val + d.val, by omega⟩

theorem hd_laneCol (h : Fin 12) (d : Fin 64) : hd (laneCol h d) = h :=
  Fin.ext (by show (64 * h.val + d.val) / 64 = h.val; omega)

theorem ln_laneCol (h : Fin 12) (d : Fin 64) : ln (laneCol h d) = d :=
  Fin.ext (by show (64 * h.val + d.val) % 64 = d.val; omega)

/-- The 207 rows built from a prefix block and a projected token block are the specification's extended keys
    (`s = 0`) or values (`s = 1`). -/
theorem rows207_eq_ext (X : SX.Idx → EReal) (PR : SP.Idx → EReal) (W : SW.Idx → EReal) (b : Fin 64) (s : Fin 2)
    (P : Vec Ideal S1x1x1x10x64 .f32) (A : FVec Ideal S197x768 .f32) (h : Fin 12) (o : ℕ) (ho : o = 64 * h.val)
    (hs : S197x768.Slices ![0, o] S197x64)
    (hA : ∀ (n : Fin 197) (c : Fin 768), A (ix2 n c) = proj X W b n s.succ (hd c) (ln c))
    (hP : ∀ (p : Fin 10) (d : Fin 64), P (ix5 0 0 0 p d) = PR (ix5 b s p h d)) (j : Fin 207) (d : Fin 64) :
    rows207 P A o hs (ix2 j d) = ext X PR W s b h j d := by
  unfold ext
  split
  · next hj => rw [rows207_apply_lt P A o hs j d hj, hP]
  · next hj =>
    rw [rows207_apply_ge P A o hs j d hj (laneCol h d) (by show 64 * h.val + d.val = o + d.val; omega), hA,
      hd_laneCol, ln_laneCol]

/-! ### Scores -/

theorem scores_apply_raw (Q K : FVec Ideal S197x768 .f32) (kp : Vec Ideal S1x1x1x10x64 .f32) (o : ℕ)
    (hs : S197x768.Slices ![0, o] S197x64) (n : Fin 197) (j : Fin 207) :
    scores Q K kp o hs (ix2 n j)
      = (∑ d : Fin 64, extractStridedSlice S197x64 ![0, o] Q hs (ix2 n d) * rows207 kp K o hs (ix2 j d))
          * Ideal.ofBits .f32 0x3E000000#32 := by
  unfold scores
  rw [mulf_apply, broadcast_apply, matmulQK_apply]
  rfl

theorem scores_apply (X : SX.Idx → EReal) (PR : SP.Idx → EReal) (W : SW.Idx → EReal) (b : Fin 64)
    (Q K : FVec Ideal S197x768 .f32) (kp : Vec Ideal S1x1x1x10x64 .f32) (h : Fin 12) (o : ℕ) (ho : o = 64 * h.val)
    (hs : S197x768.Slices ![0, o] S197x64)
    (hQ : ∀ (n : Fin 197) (c : Fin 768), Q (ix2 n c) = proj X W b n 0 (hd c) (ln c))
    (hK : ∀ (n : Fin 197) (c : Fin 768), K (ix2 n c) = proj X W b n 1 (hd c) (ln c))
    (hkp : ∀ (p : Fin 10) (d : Fin 64), kp (ix5 0 0 0 p d) = PR (ix5 b 0 p h d))
    (n : Fin 197) (j : Fin 207) :
    scores Q K kp o hs (ix2 n j) = score X PR W (Ideal.ofBits .f32 0x3E000000#32) b h n j := by
  rw [scores_apply_raw]
  unfold score
  congr 1
  refine Finset.sum_congr rfl fun d _ => ?_
  rw [slice2_axis1_apply o Q hs n d (laneCol h d) (by show 64 * h.val + d.val = o + d.val; omega), hQ,
    hd_laneCol, ln_laneCol, rows207_eq_ext X PR W b 0 kp K h o ho hs hK hkp j d]

/-! ### Row reductions, the column cast and the broadcasts -/

/-- The index a reduction over axis 1 reads at row `n`, coordinate `k`, is `(n, k)`. -/
theorem lift_rows (n : Fin 197) (k : Fin 207) : Gen.reduces_S197x207_S197.lift (ix1 n) k = ix2 n k :=
  funext fun a => Fin.ext (by
    match a with
    | ⟨0, _⟩ => rfl
    | ⟨1, _⟩ => rfl)

theorem rowMax_apply (src : FVec Ideal S197x207 .f32) (n : Fin 197) :
    multiReduction .maximumf [1] S197 src 0xFF800000#32 Gen.reduces_S197x207_S197 (.inl rfl) rfl (ix1 n)
      = (Finset.univ : Finset (Fin 207)).fold max (Ideal.ofBits .f32 0xFF800000#32) (fun j => src (ix2 n j)) := by
  refine (Ideal.multiReduction_maximumf_single src _ Gen.reduces_S197x207_S197 (.inl rfl) rfl (ix1 n)).trans ?_
  show (Finset.univ : Finset (Fin 207)).fold max (Ideal.ofBits .f32 0xFF800000#32)
      (src ∘ Gen.reduces_S197x207_S197.lift (ix1 n)) = _
  congr 1
  funext k
  exact congrArg src (lift_rows n k)

theorem rowAdd_apply (src : FVec Ideal S197x207 .f32) (n : Fin 197) :
    multiReduction .add [1] S197 src 0x00000000#32 Gen.reduces_S197x207_S197 (.inl rfl) rfl (ix1 n)
      = ∑ j : Fin 207, src (ix2 n j) := by
  refine (Ideal.multiReduction_add_single src _ Gen.reduces_S197x207_S197 (.inl rfl) rfl (ix1 n)).trans ?_
  show ∑ k : Fin 207, src (Gen.reduces_S197x207_S197.lift (ix1 n) k) = _
  exact Finset.sum_congr rfl fun k _ => congrArg src (lift_rows n k)

/-- A vector of 197 viewed as a `[197, 1]` column reads, at `(n, 0)`, the vector at `n`. -/
theorem colCast_apply {α : Type} (v : S197.Idx → α) (n : Fin 197) (u : Fin 1) :
    shapeCast S197x1 v Gen.shapeCasts_S197_S197x1 (ix2 n u) = v (ix1 n) :=
  shapeCast_apply v _ _ _ (by
    have hu : u.val = 0 := by omega
    rw [Shape.rowMajor_val_one, Shape.rowMajor_val_two]
    show n.val = n.val * 1 + u.val
    omega)

/-- A column broadcast over 207 columns reads, at `(n, j)`, the column at `n`. -/
theorem bcast207_apply {α : Type} (v : S197x1.Idx → α) (n : Fin 197) (j : Fin 207) :
    broadcastTo S197x207 v Gen.broadcasts_S197x1_S197x207 (ix2 n j) = v (ix2 n (0 : Fin 1)) := by
  refine broadcastTo_apply v _ (ix2 n j) (ix2 n (0 : Fin 1)) fun ax => ?_
  match ax with
  | ⟨0, _⟩ => rfl
  | ⟨1, _⟩ => rfl

/-- A column broadcast over 64 columns reads, at `(n, d)`, the column at `n`. -/
theorem bcast64_apply {α : Type} (v : S197x1.Idx → α) (n : Fin 197) (d : Fin 64) :
    broadcastTo S197x64 v Gen.broadcasts_S197x1_S197x64 (ix2 n d) = v (ix2 n (0 : Fin 1)) := by
  refine broadcastTo_apply v _ (ix2 n d) (ix2 n (0 : Fin 1)) fun ax => ?_
  match ax with
  | ⟨0, _⟩ => rfl
  | ⟨1, _⟩ => rfl

/-! ### Weights, their row sum, and the head -/

theorem weights_apply_raw (Q K : FVec Ideal S197x768 .f32) (kp : Vec Ideal S1x1x1x10x64 .f32) (o : ℕ)
    (hs : S197x768.Slices ![0, o] S197x64) (n : Fin 197) (j : Fin 207) :
    weights Q K kp o hs (ix2 n j)
      = Ideal.exp (scores Q K kp o hs (ix2 n j)
          - (Finset.univ : Finset (Fin 207)).fold max (Ideal.ofBits .f32 0xFF800000#32)
              (fun j' => scores Q K kp o hs (ix2 n j'))) := by
  unfold weights
  show Ideal.exp (subf (F := Ideal) (s := S197x207) (φ := .f32) _ _ (ix2 n j)) = _
  rw [subf_apply, bcast207_apply, colCast_apply, rowMax_apply]

theorem weights_apply (X : SX.Idx → EReal) (PR : SP.Idx → EReal) (W : SW.Idx → EReal) (b : Fin 64)
    (Q K : FVec Ideal S197x768 .f32) (kp : Vec Ideal S1x1x1x10x64 .f32) (h : Fin 12) (o : ℕ) (ho : o = 64 * h.val)
    (hs : S197x768.Slices ![0, o] S197x64)
    (hQ : ∀ (n : Fin 197) (c : Fin 768), Q (ix2 n c) = proj X W b n 0 (hd c) (ln c))
    (hK : ∀ (n : Fin 197) (c : Fin 768), K (ix2 n c) = proj X W b n 1 (hd c) (ln c))
    (hkp : ∀ (p : Fin 10) (d : Fin 64), kp (ix5 0 0 0 p d) = PR (ix5 b 0 p h d))
    (n : Fin 197) (j : Fin 207) :
    weights Q K kp o hs (ix2 n j)
      = wexp X PR W (Ideal.ofBits .f32 0x3E000000#32) (Ideal.ofBits .f32 0xFF800000#32) b h n j := by
  have hsc : ∀ j' : Fin 207, scores Q K kp o hs (ix2 n j') = score X PR W (Ideal.ofBits .f32 0x3E000000#32) b h n j' :=
    fun j' => scores_apply X PR W b Q K kp h o ho hs hQ hK hkp n j'
  rw [weights_apply_raw]
  unfold wexp rowMax
  simp only [hsc]

theorem rowSum_apply (X : SX.Idx → EReal) (PR : SP.Idx → EReal) (W : SW.Idx → EReal) (b : Fin 64)
    (Q K : FVec Ideal S197x768 .f32) (kp : Vec Ideal S1x1x1x10x64 .f32) (h : Fin 12) (o : ℕ) (ho : o = 64 * h.val)
    (hs : S197x768.Slices ![0, o] S197x64)
    (hQ : ∀ (n : Fin 197) (c : Fin 768), Q (ix2 n c) = proj X W b n 0 (hd c) (ln c))
    (hK : ∀ (n : Fin 197) (c : Fin 768), K (ix2 n c) = proj X W b n 1 (hd c) (ln c))
    (hkp : ∀ (p : Fin 10) (d : Fin 64), kp (ix5 0 0 0 p d) = PR (ix5 b 0 p h d))
    (n : Fin 197) (u : Fin 1) :
    rowSum Q K kp o hs (ix2 n u)
      = denom X PR W (Ideal.ofBits .f32 0x3E000000#32) (Ideal.ofBits .f32 0xFF800000#32) b h n := by
  unfold rowSum
  rw [colCast_apply, rowAdd_apply]
  unfold denom
  exact Finset.sum_congr rfl fun j _ => weights_apply X PR W b Q K kp h o ho hs hQ hK hkp n j

/-- One head of the kernel body, index by index, is the specification's head that divides the weighted sum. -/
theorem headOut_apply (X : SX.Idx → EReal) (PR : SP.Idx → EReal) (W : SW.Idx → EReal) (b : Fin 64)
    (Q K V : FVec Ideal S197x768 .f32) (kp vp : Vec Ideal S1x1x1x10x64 .f32) (h : Fin 12) (o : ℕ) (ho : o = 64 * h.val)
    (hs : S197x768.Slices ![0, o] S197x64)
    (hQ : ∀ (n : Fin 197) (c : Fin 768), Q (ix2 n c) = proj X W b n 0 (hd c) (ln c))
    (hK : ∀ (n : Fin 197) (c : Fin 768), K (ix2 n c) = proj X W b n 1 (hd c) (ln c))
    (hV : ∀ (n : Fin 197) (c : Fin 768), V (ix2 n c) = proj X W b n 2 (hd c) (ln c))
    (hkp : ∀ (p : Fin 10) (d : Fin 64), kp (ix5 0 0 0 p d) = PR (ix5 b 0 p h d))
    (hvp : ∀ (p : Fin 10) (d : Fin 64), vp (ix5 0 0 0 p d) = PR (ix5 b 1 p h d))
    (n : Fin 197) (d : Fin 64) :
    headOut Q K V kp vp o hs (ix2 n d)
      = headK X PR W (Ideal.ofBits .f32 0x3E000000#32) (Ideal.ofBits .f32 0xFF800000#32) b h n d := by
  unfold headOut
  rw [divf_apply, matmulPV_apply, bcast64_apply, rowSum_apply X PR W b Q K kp h o ho hs hQ hK hkp n 0]
  unfold headK
  congr 1
  refine Finset.sum_congr rfl fun j _ => ?_
  rw [truncf_apply, weights_apply X PR W b Q K kp h o ho hs hQ hK hkp n j,
    rows207_eq_ext X PR W b 1 vp V h o ho hs hV hvp j d]

/-! ### Two neighbouring heads side by side -/

theorem hd_pair_lt (hp : Fin 6) (c' : Fin 128) (hc : c'.val < 64) :
    hd ⟨128 * hp.val + c'.val, by omega⟩ = (⟨2 * hp.val, by omega⟩ : Fin 12) :=
  Fin.ext (by show (128 * hp.val + c'.val) / 64 = 2 * hp.val; omega)

theorem ln_pair_lt (hp : Fin 6) (c' : Fin 128) (hc : c'.val < 64) :
    ln ⟨128 * hp.val + c'.val, by omega⟩ = (⟨c'.val, hc⟩ : Fin 64) :=
  Fin.ext (by show (128 * hp.val + c'.val) % 64 = c'.val; omega)

theorem hd_pair_ge (hp : Fin 6) (c' : Fin 128) (hc : ¬ c'.val < 64) :
    hd ⟨128 * hp.val + c'.val, by omega⟩ = (⟨2 * hp.val + 1, by omega⟩ : Fin 12) :=
  Fin.ext (by show (128 * hp.val + c'.val) / 64 = 2 * hp.val + 1; omega)

theorem ln_pair_ge (hp : Fin 6) (c' : Fin 128) (hc : ¬ c'.val < 64) :
    ln ⟨128 * hp.val + c'.val, by omega⟩ = (⟨c'.val - 64, by omega⟩ : Fin 64) :=
  Fin.ext (by show (128 * hp.val + c'.val) % 64 = c'.val - 64; omega)

/-- Two neighbouring heads side by side: column `c'` of the 128 is lane `c' % 64` of head `2 hp + c' / 64`, that is,
    column `128 hp + c'` of the 768. -/
theorem pairOut_apply (X : SX.Idx → EReal) (PR : SP.Idx → EReal) (W : SW.Idx → EReal) (b : Fin 64)
    (Q K V : FVec Ideal S197x768 .f32) (kp0 vp0 kp1 vp1 : Vec Ideal S1x1x1x10x64 .f32) (hp : Fin 6) (o0 o1 : ℕ)
    (ho0 : o0 = 128 * hp.val) (ho1 : o1 = 128 * hp.val + 64)
    (hs0 : S197x768.Slices ![0, o0] S197x64) (hs1 : S197x768.Slices ![0, o1] S197x64)
    (hQ : ∀ (n : Fin 197) (c : Fin 768), Q (ix2 n c) = proj X W b n 0 (hd c) (ln c))
    (hK : ∀ (n : Fin 197) (c : Fin 768), K (ix2 n c) = proj X W b n 1 (hd c) (ln c))
    (hV : ∀ (n : Fin 197) (c : Fin 768), V (ix2 n c) = proj X W b n 2 (hd c) (ln c))
    (hkp0 : ∀ (p : Fin 10) (d : Fin 64), kp0 (ix5 0 0 0 p d) = PR (ix5 b 0 p ⟨2 * hp.val, by omega⟩ d))
    (hvp0 : ∀ (p : Fin 10) (d : Fin 64), vp0 (ix5 0 0 0 p d) = PR (ix5 b 1 p ⟨2 * hp.val, by omega⟩ d))
    (hkp1 : ∀ (p : Fin 10) (d : Fin 64), kp1 (ix5 0 0 0 p d) = PR (ix5 b 0 p ⟨2 * hp.val + 1, by omega⟩ d))
    (hvp1 : ∀ (p : Fin 10) (d : Fin 64), vp1 (ix5 0 0 0 p d) = PR (ix5 b 1 p ⟨2 * hp.val + 1, by omega⟩ d))
    (n : Fin 197) (c' : Fin 128) :
    pairOut Q K V kp0 vp0 kp1 vp1 o0 hs0 o1 hs1 (ix2 n c')
      = headK X PR W (Ideal.ofBits .f32 0x3E000000#32) (Ideal.ofBits .f32 0xFF800000#32) b
          (hd ⟨128 * hp.val + c'.val, by omega⟩) n (ln ⟨128 * hp.val + c'.val, by omega⟩) := by
  unfold pairOut
  rw [shapeCast_self]
  by_cases hc : c'.val < 64
  · rw [hd_pair_lt hp c' hc, ln_pair_lt hp c' hc]
    refine (concatenate_pair_apply_left (t := S197x128) (s₁ := S197x64) (s₂ := S197x64) (1 : Fin 2) _ _
      Gen.concatenates_S197x64_S197x64_S197x128_d1 (ix2 n c') rfl (ix2 n (⟨c'.val, hc⟩ : Fin 64)) (fun a => by
        match a with
        | ⟨0, _⟩ => rfl
        | ⟨1, _⟩ => rfl)).trans ?_
    exact headOut_apply X PR W b Q K V kp0 vp0 ⟨2 * hp.val, by omega⟩ o0 (by show o0 = 64 * (2 * hp.val); omega) hs0
      hQ hK hV hkp0 hvp0 n ⟨c'.val, hc⟩
  · rw [hd_pair_ge hp c' hc, ln_pair_ge hp c' hc]
    refine (concatenate_pair_apply_right (t := S197x128) (s₁ := S197x64) (s₂ := S197x64) (1 : Fin 2) _ _
      Gen.concatenates_S197x64_S197x64_S197x128_d1 (ix2 n c') rfl rfl
      (ix2 n (⟨c'.val - 64, by omega⟩ : Fin 64)) (fun a ha => by
        match a with
        | ⟨0, _⟩ => rfl
        | ⟨1, _⟩ => exact absurd rfl ha) (by show c'.val - 64 + 64 = c'.val; omega)).trans ?_
    exact headOut_apply X PR W b Q K V kp1 vp1 ⟨2 * hp.val + 1, by omega⟩ o1
      (by show o1 = 64 * (2 * hp.val + 1); omega) hs1 hQ hK hV hkp1 hvp1 n ⟨c'.val - 64, by omega⟩

end Cert.KernelIdeal.Attn

end
-- ==== Proof.ScratchRows.lean ====
/-
  What the body keeps in its scratch buffer, for each of the two batch rows a grid point handles.

  For a batch row the body first projects the row's 197 tokens to queries, keys and values (three 768-column slices of
  one matrix product: column c of slice s is row 768 s + c of the projection matrix against the token). It then stores,
  for each of the six pairs of neighbouring heads, the two heads' attention outputs side by side into the pair's 128
  columns of a [197, 768] scratch, and reads the whole scratch back for the output projection. The six stores tile the
  scratch, every store agrees with ONE function of the scratch index — column c holds head c / 64, lane c % 64 — so the
  read-back is that function: the row's attention output. For the second row the six new stores lie over the first
  row's six; they cover everything again, so the older stores are never seen.
-/
import proofs.«177170_j52106543235483_2_alg».proof.Proof.KernelTerm
import proofs.«177170_j52106543235483_2_alg».proof.Proof.BlockBasics
import proofs.«177170_j52106543235483_2_alg».proof.Proof.RowValue
import proofs.«177170_j52106543235483_2_alg».proof.Proof.HeadValue
import proofs.«177170_j52106543235483_2_alg».proof.Proof.Gen.KernelIdeal.Value
import Idealize.ShloMosaic.PureOps.Ideal.Laws

set_option maxRecDepth 16384

noncomputable section

namespace Cert.KernelIdeal.Attn

open Cert.KernelIdeal Cert.KernelIdeal.Gen Idealize.ShloMosaic Idealize.ShloMosaic.ValueIdx Idealize.ShloMosaic.TcCoe Idealize.SL.Sem

theorem proj0_0 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) (n : Fin 197) (cc : Fin 768) :
    kernelRun0_A.sl.r_2 c arg1 harg1 arg3 harg3 x0 x2 (ix2 n cc) = AttnSpec.proj X W (B 0) n 0 (AttnSpec.hd cc) (AttnSpec.ln cc) := by
  have e1 : kernelRun0_A.sl.r_2 c arg1 harg1 arg3 harg3 x0 x2
      = k0_pay5 (View.ld (Val := Elt Ideal) (arg3.view.read (Elt Ideal) (harg3.unread x2)) (Rect.unit (s := S2304x768) ![0, 0] S2304x768.size Gen.inb_S2304x768_S2304x768_0_0))
          (View.ld (Val := Elt Ideal) (arg1.view.read (Elt Ideal) (harg1.unread x0)) (Rect.unit (s := S2x197x768) ![0, 0, 0] S1x197x768.size Gen.inb_S2x197x768_S1x197x768_0_0_0)) := rfl
  rw [e1, harg3.read_unread, harg1.read_unread, View.ld_unit_zero (S := S2304x768) hz2, (qkv_apply _ _ n cc).1]
  unfold AttnSpec.proj
  refine Finset.sum_congr rfl fun e _ => ?_
  rw [col0, ld_row x0 0 (by omega) Gen.inb_S2x197x768_S1x197x768_0_0_0 n e, h0, h2]
  rfl

theorem proj0_1 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) (n : Fin 197) (cc : Fin 768) :
    kernelRun0_A.sl.r_3 c arg1 harg1 arg3 harg3 x0 x2 (ix2 n cc) = AttnSpec.proj X W (B 0) n 1 (AttnSpec.hd cc) (AttnSpec.ln cc) := by
  have e1 : kernelRun0_A.sl.r_3 c arg1 harg1 arg3 harg3 x0 x2
      = k0_pay6 (View.ld (Val := Elt Ideal) (arg3.view.read (Elt Ideal) (harg3.unread x2)) (Rect.unit (s := S2304x768) ![0, 0] S2304x768.size Gen.inb_S2304x768_S2304x768_0_0))
          (View.ld (Val := Elt Ideal) (arg1.view.read (Elt Ideal) (harg1.unread x0)) (Rect.unit (s := S2x197x768) ![0, 0, 0] S1x197x768.size Gen.inb_S2x197x768_S1x197x768_0_0_0)) := rfl
  rw [e1, harg3.read_unread, harg1.read_unread, View.ld_unit_zero (S := S2304x768) hz2, (qkv_apply _ _ n cc).2.1]
  unfold AttnSpec.proj
  refine Finset.sum_congr rfl fun e _ => ?_
  rw [col1, ld_row x0 0 (by omega) Gen.inb_S2x197x768_S1x197x768_0_0_0 n e, h0, h2]
  rfl

theorem proj0_2 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) (n : Fin 197) (cc : Fin 768) :
    kernelRun0_A.sl.r_4 c arg1 harg1 arg3 harg3 x0 x2 (ix2 n cc) = AttnSpec.proj X W (B 0) n 2 (AttnSpec.hd cc) (AttnSpec.ln cc) := by
  have e1 : kernelRun0_A.sl.r_4 c arg1 harg1 arg3 harg3 x0 x2
      = k0_pay7 (View.ld (Val := Elt Ideal) (arg3.view.read (Elt Ideal) (harg3.unread x2)) (Rect.unit (s := S2304x768) ![0, 0] S2304x768.size Gen.inb_S2304x768_S2304x768_0_0))
          (View.ld (Val := Elt Ideal) (arg1.view.read (Elt Ideal) (harg1.unread x0)) (Rect.unit (s := S2x197x768) ![0, 0, 0] S1x197x768.size Gen.inb_S2x197x768_S1x197x768_0_0_0)) := rfl
  rw [e1, harg3.read_unread, harg1.read_unread, View.ld_unit_zero (S := S2304x768) hz2, (qkv_apply _ _ n cc).2.2]
  unfold AttnSpec.proj
  refine Finset.sum_congr rfl fun e _ => ?_
  rw [col2, ld_row x0 0 (by omega) Gen.inb_S2x197x768_S1x197x768_0_0_0 n e, h0, h2]
  rfl
theorem proj1_0 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) (n : Fin 197) (cc : Fin 768) :
    kernelRun0_A.sl.r_32 c arg1 harg1 arg3 harg3 x0 x2 (ix2 n cc) = AttnSpec.proj X W (B 1) n 0 (AttnSpec.hd cc) (AttnSpec.ln cc) := by
  have e1 : kernelRun0_A.sl.r_32 c arg1 harg1 arg3 harg3 x0 x2
      = k0_pay5 (View.ld (Val := Elt Ideal) (arg3.view.read (Elt Ideal) (harg3.unread x2)) (Rect.unit (s := S2304x768) ![0, 0] S2304x768.size Gen.inb_S2304x768_S2304x768_0_0))
          (View.ld (Val := Elt Ideal) (arg1.view.read (Elt Ideal) (harg1.unread x0)) (Rect.unit (s := S2x197x768) ![1, 0, 0] S1x197x768.size Gen.inb_S2x197x768_S1x197x768_1_0_0)) := rfl
  rw [e1, harg3.read_unread, harg1.read_unread, View.ld_unit_zero (S := S2304x768) hz2, (qkv_apply _ _ n cc).1]
  unfold AttnSpec.proj
  refine Finset.sum_congr rfl fun e _ => ?_
  rw [col0, ld_row x0 1 (by omega) Gen.inb_S2x197x768_S1x197x768_1_0_0 n e, h0, h2]
  rfl

theorem proj1_1 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) (n : Fin 197) (cc : Fin 768) :
    kernelRun0_A.sl.r_33 c arg1 harg1 arg3 harg3 x0 x2 (ix2 n cc) = AttnSpec.proj X W (B 1) n 1 (AttnSpec.hd cc) (AttnSpec.ln cc) := by
  have e1 : kernelRun0_A.sl.r_33 c arg1 harg1 arg3 harg3 x0 x2
      = k0_pay6 (View.ld (Val := Elt Ideal) (arg3.view.read (Elt Ideal) (harg3.unread x2)) (Rect.unit (s := S2304x768) ![0, 0] S2304x768.size Gen.inb_S2304x768_S2304x768_0_0))
          (View.ld (Val := Elt Ideal) (arg1.view.read (Elt Ideal) (harg1.unread x0)) (Rect.unit (s := S2x197x768) ![1, 0, 0] S1x197x768.size Gen.inb_S2x197x768_S1x197x768_1_0_0)) := rfl
  rw [e1, harg3.read_unread, harg1.read_unread, View.ld_unit_zero (S := S2304x768) hz2, (qkv_apply _ _ n cc).2.1]
  unfold AttnSpec.proj
  refine Finset.sum_congr rfl fun e _ => ?_
  rw [col1, ld_row x0 1 (by omega) Gen.inb_S2x197x768_S1x197x768_1_0_0 n e, h0, h2]
  rfl

theorem proj1_2 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) (n : Fin 197) (cc : Fin 768) :
    kernelRun0_A.sl.r_34 c arg1 harg1 arg3 harg3 x0 x2 (ix2 n cc) = AttnSpec.proj X W (B 1) n 2 (AttnSpec.hd cc) (AttnSpec.ln cc) := by
  have e1 : kernelRun0_A.sl.r_34 c arg1 harg1 arg3 harg3 x0 x2
      = k0_pay7 (View.ld (Val := Elt Ideal) (arg3.view.read (Elt Ideal) (harg3.unread x2)) (Rect.unit (s := S2304x768) ![0, 0] S2304x768.size Gen.inb_S2304x768_S2304x768_0_0))
          (View.ld (Val := Elt Ideal) (arg1.view.read (Elt Ideal) (harg1.unread x0)) (Rect.unit (s := S2x197x768) ![1, 0, 0] S1x197x768.size Gen.inb_S2x197x768_S1x197x768_1_0_0)) := rfl
  rw [e1, harg3.read_unread, harg1.read_unread, View.ld_unit_zero (S := S2304x768) hz2, (qkv_apply _ _ n cc).2.2]
  unfold AttnSpec.proj
  refine Finset.sum_congr rfl fun e _ => ?_
  rw [col2, ld_row x0 1 (by omega) Gen.inb_S2x197x768_S1x197x768_1_0_0 n e, h0, h2]
  rfl
/-- The attention output of one batch row, all heads side by side, as a function of the scratch index. -/
def attnRow (X : AttnSpec.SX.Idx → EReal) (PR : AttnSpec.SP.Idx → EReal) (W : AttnSpec.SW.Idx → EReal) (b : Fin 64) : S197x768.Idx → EReal :=
  fun y => AttnSpec.headK X PR W (Ideal.ofBits .f32 0x3E000000#32) (Ideal.ofBits .f32 0xFF800000#32) b (AttnSpec.hd (y 1)) (y 0) (AttnSpec.ln (y 1))

/-- A head's prefix rows read out of the staged block of prefixes are the batch row's prefix rows. -/
theorem pref_fact (arg2 : Memref sig .tc .vmem S2x2x12x10x64 .f32) (harg2 : arg2.IsWhole) (x1 : Vec Ideal S2x2x12x10x64 .f32)
    (PR : AttnSpec.SP.Idx → EReal) (B : Fin 2 → Fin 64)
    (h1 : ∀ (bi s : Fin 2) (h : Fin 12) (p : Fin 10) (d : Fin 64), x1 (ix5 bi s h p d) = PR (ix5 (B bi) s p h d))
    (bi s h : Nat) (hbi : bi < 2) (hs : s < 2) (hh : h < 12)
    (inb : ∀ a, (![bi, s, h, 0, 0] : Fin 5 → Nat) a + S1x1x1x10x64.size a ≤ S2x2x12x10x64.size a) (p : Fin 10) (d : Fin 64) :
    View.readAt (Elt Ideal) arg2.view (Rect.unit (s := S2x2x12x10x64) ![bi, s, h, 0, 0] S1x1x1x10x64.size inb).toLoadRect (harg2.unread x1) (ix5 0 0 0 p d)
      = PR (ix5 (B ⟨bi, hbi⟩) ⟨s, hs⟩ p ⟨h, hh⟩ d) := by
  show View.ld (Val := Elt Ideal) (arg2.view.read (Elt Ideal) (harg2.unread x1)) _ _ = _
  rw [harg2.read_unread, ld_pref x1 bi s h hbi hs hh inb p d, h1]

/-- Two neighbouring heads' outputs, stored at their 128 columns of the scratch, are the row's attention output there. -/
theorem pair_agrees (X : AttnSpec.SX.Idx → EReal) (PR : AttnSpec.SP.Idx → EReal) (W : AttnSpec.SW.Idx → EReal) (b : Fin 64)
    (Q K V : FVec Ideal S197x768 .f32)
    (hQ : ∀ (n : Fin 197) (c : Fin 768), Q (ix2 n c) = AttnSpec.proj X W b n 0 (AttnSpec.hd c) (AttnSpec.ln c))
    (hK : ∀ (n : Fin 197) (c : Fin 768), K (ix2 n c) = AttnSpec.proj X W b n 1 (AttnSpec.hd c) (AttnSpec.ln c))
    (hV : ∀ (n : Fin 197) (c : Fin 768), V (ix2 n c) = AttnSpec.proj X W b n 2 (AttnSpec.hd c) (AttnSpec.ln c))
    (kp0 vp0 kp1 vp1 : Vec Ideal S1x1x1x10x64 .f32) (hp : Fin 6) (o0 o1 : ℕ)
    (ho0 : o0 = 128 * hp.val) (ho1 : o1 = 128 * hp.val + 64) (hs0 : S197x768.Slices ![0, o0] S197x64) (hs1 : S197x768.Slices ![0, o1] S197x64)
    (hkp0 : ∀ (p : Fin 10) (d : Fin 64), kp0 (ix5 0 0 0 p d) = PR (ix5 b 0 p ⟨2 * hp.val, by omega⟩ d))
    (hvp0 : ∀ (p : Fin 10) (d : Fin 64), vp0 (ix5 0 0 0 p d) = PR (ix5 b 1 p ⟨2 * hp.val, by omega⟩ d))
    (hkp1 : ∀ (p : Fin 10) (d : Fin 64), kp1 (ix5 0 0 0 p d) = PR (ix5 b 0 p ⟨2 * hp.val + 1, by omega⟩ d))
    (hvp1 : ∀ (p : Fin 10) (d : Fin 64), vp1 (ix5 0 0 0 p d) = PR (ix5 b 1 p ⟨2 * hp.val + 1, by omega⟩ d))
    (inb : ∀ a, (![0, o0] : Fin 2 → Nat) a + S197x128.size a ≤ S197x768.size a) (x : S197x128.Idx) :
    pairOut Q K V kp0 vp0 kp1 vp1 o0 hs0 o1 hs1 x = attnRow X PR W b ((Rect.unit (s := S197x768) ![0, o0] S197x128.size inb).emb x) := by
  obtain ⟨n, c', rfl⟩ : ∃ (n : Fin 197) (c' : Fin 128), x = ix2 n c' := ⟨x 0, x 1, eq_ix2 x⟩
  have hc : o0 + c'.val < 768 := by have := c'.isLt; have := hp.isLt; omega
  rw [emb_cols o0 inb n c' hc]
  subst ho0
  exact pairOut_apply X PR W b Q K V kp0 vp0 kp1 vp1 hp _ o1 rfl ho1 hs0 hs1 hQ hK hV hkp0 hvp0 hkp1 hvp1 n c'

/-- The six stores of batch row 0 into the scratch: each one two neighbouring heads' outputs at their 128 columns. -/
def rowPieces0 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) : List (View.Piece (Elt Ideal) S197x768 .f32) :=
    [⟨Rect.unit (s := S197x768) ![0, 640] S197x128.size Gen.inb_S197x768_S197x128_0_640, pairOut (kernelRun0_A.sl.r_2 c arg1 harg1 arg3 harg3 x0 x2) (kernelRun0_A.sl.r_3 c arg1 harg1 arg3 harg3 x0 x2) (kernelRun0_A.sl.r_4 c arg1 harg1 arg3 harg3 x0 x2) (View.readAt (Elt Ideal) arg2.view (Rect.unit (s := S2x2x12x10x64) ![0, 0, 10, 0, 0] S1x1x1x10x64.size Gen.inb_S2x2x12x10x64_S1x1x1x10x64_0_0_10_0_0).toLoadRect (harg2.unread x1)) (View.readAt (Elt Ideal) arg2.view (Rect.unit (s := S2x2x12x10x64) ![0, 1, 10, 0, 0] S1x1x1x10x64.size Gen.inb_S2x2x12x10x64_S1x1x1x10x64_0_1_10_0_0).toLoadRect (harg2.unread x1)) (View.readAt (Elt Ideal) arg2.view (Rect.unit (s := S2x2x12x10x64) ![0, 0, 11, 0, 0] S1x1x1x10x64.size Gen.inb_S2x2x12x10x64_S1x1x1x10x64_0_0_11_0_0).toLoadRect (harg2.unread x1)) (View.readAt (Elt Ideal) arg2.view (Rect.unit (s := S2x2x12x10x64) ![0, 1, 11, 0, 0] S1x1x1x10x64.size Gen.inb_S2x2x12x10x64_S1x1x1x10x64_0_1_11_0_0).toLoadRect (harg2.unread x1)) 640 Gen.slices_S197x768_o0_640_S197x64 704 Gen.slices_S197x768_o0_704_S197x64⟩,
    ⟨Rect.unit (s := S197x768) ![0, 512] S197x128.size Gen.inb_S197x768_S197x128_0_512, pairOut (kernelRun0_A.sl.r_2 c arg1 harg1 arg3 harg3 x0 x2) (kernelRun0_A.sl.r_3 c arg1 harg1 arg3 harg3 x0 x2) (kernelRun0_A.sl.r_4 c arg1 harg1 arg3 harg3 x0 x2) (View.readAt (Elt Ideal) arg2.view (Rect.unit (s := S2x2x12x10x64) ![0, 0, 8, 0, 0] S1x1x1x10x64.size Gen.inb_S2x2x12x10x64_S1x1x1x10x64_0_0_8_0_0).toLoadRect (harg2.unread x1)) (View.readAt (Elt Ideal) arg2.view (Rect.unit (s := S2x2x12x10x64) ![0, 1, 8, 0, 0] S1x1x1x10x64.size Gen.inb_S2x2x12x10x64_S1x1x1x10x64_0_1_8_0_0).toLoadRect (harg2.unread x1)) (View.readAt (Elt Ideal) arg2.view (Rect.unit (s := S2x2x12x10x64) ![0, 0, 9, 0, 0] S1x1x1x10x64.size Gen.inb_S2x2x12x10x64_S1x1x1x10x64_0_0_9_0_0).toLoadRect (harg2.unread x1)) (View.readAt (Elt Ideal) arg2.view (Rect.unit (s := S2x2x12x10x64) ![0, 1, 9, 0, 0] S1x1x1x10x64.size Gen.inb_S2x2x12x10x64_S1x1x1x10x64_0_1_9_0_0).toLoadRect (harg2.unread x1)) 512 Gen.slices_S197x768_o0_512_S197x64 576 Gen.slices_S197x768_o0_576_S197x64⟩,
    ⟨Rect.unit (s := S197x768) ![0, 384] S197x128.size Gen.inb_S197x768_S197x128_0_384, pairOut (kernelRun0_A.sl.r_2 c arg1 harg1 arg3 harg3 x0 x2) (kernelRun0_A.sl.r_3 c arg1 harg1 arg3 harg3 x0 x2) (kernelRun0_A.sl.r_4 c arg1 harg1 arg3 harg3 x0 x2) (View.readAt (Elt Ideal) arg2.view (Rect.unit (s := S2x2x12x10x64) ![0, 0, 6, 0, 0] S1x1x1x10x64.size Gen.inb_S2x2x12x10x64_S1x1x1x10x64_0_0_6_0_0).toLoadRect (harg2.unread x1)) (View.readAt (Elt Ideal) arg2.view (Rect.unit (s := S2x2x12x10x64) ![0, 1, 6, 0, 0] S1x1x1x10x64.size Gen.inb_S2x2x12x10x64_S1x1x1x10x64_0_1_6_0_0).toLoadRect (harg2.unread x1)) (View.readAt (Elt Ideal) arg2.view (Rect.unit (s := S2x2x12x10x64) ![0, 0, 7, 0, 0] S1x1x1x10x64.size Gen.inb_S2x2x12x10x64_S1x1x1x10x64_0_0_7_0_0).toLoadRect (harg2.unread x1)) (View.readAt (Elt Ideal) arg2.view (Rect.unit (s := S2x2x12x10x64) ![0, 1, 7, 0, 0] S1x1x1x10x64.size Gen.inb_S2x2x12x10x64_S1x1x1x10x64_0_1_7_0_0).toLoadRect (harg2.unread x1)) 384 Gen.slices_S197x768_o0_384_S197x64 448 Gen.slices_S197x768_o0_448_S197x64⟩,
    ⟨Rect.unit (s := S197x768) ![0, 256] S197x128.size Gen.inb_S197x768_S197x128_0_256, pairOut (kernelRun0_A.sl.r_2 c arg1 harg1 arg3 harg3 x0 x2) (kernelRun0_A.sl.r_3 c arg1 harg1 arg3 harg3 x0 x2) (kernelRun0_A.sl.r_4 c arg1 harg1 arg3 harg3 x0 x2) (View.readAt (Elt Ideal) arg2.view (Rect.unit (s := S2x2x12x10x64) ![0, 0, 4, 0, 0] S1x1x1x10x64.size Gen.inb_S2x2x12x10x64_S1x1x1x10x64_0_0_4_0_0).toLoadRect (harg2.unread x1)) (View.readAt (Elt Ideal) arg2.view (Rect.unit (s := S2x2x12x10x64) ![0, 1, 4, 0, 0] S1x1x1x10x64.size Gen.inb_S2x2x12x10x64_S1x1x1x10x64_0_1_4_0_0).toLoadRect (harg2.unread x1)) (View.readAt (Elt Ideal) arg2.view (Rect.unit (s := S2x2x12x10x64) ![0, 0, 5, 0, 0] S1x1x1x10x64.size Gen.inb_S2x2x12x10x64_S1x1x1x10x64_0_0_5_0_0).toLoadRect (harg2.unread x1)) (View.readAt (Elt Ideal) arg2.view (Rect.unit (s := S2x2x12x10x64) ![0, 1, 5, 0, 0] S1x1x1x10x64.size Gen.inb_S2x2x12x10x64_S1x1x1x10x64_0_1_5_0_0).toLoadRect (harg2.unread x1)) 256 Gen.slices_S197x768_o0_256_S197x64 320 Gen.slices_S197x768_o0_320_S197x64⟩,
    ⟨Rect.unit (s := S197x768) ![0, 128] S197x128.size Gen.inb_S197x768_S197x128_0_128, pairOut (kernelRun0_A.sl.r_2 c arg1 harg1 arg3 harg3 x0 x2) (kernelRun0_A.sl.r_3 c arg1 harg1 arg3 harg3 x0 x2) (kernelRun0_A.sl.r_4 c arg1 harg1 arg3 harg3 x0 x2) (View.readAt (Elt Ideal) arg2.view (Rect.unit (s := S2x2x12x10x64) ![0, 0, 2, 0, 0] S1x1x1x10x64.size Gen.inb_S2x2x12x10x64_S1x1x1x10x64_0_0_2_0_0).toLoadRect (harg2.unread x1)) (View.readAt (Elt Ideal) arg2.view (Rect.unit (s := S2x2x12x10x64) ![0, 1, 2, 0, 0] S1x1x1x10x64.size Gen.inb_S2x2x12x10x64_S1x1x1x10x64_0_1_2_0_0).toLoadRect (harg2.unread x1)) (View.readAt (Elt Ideal) arg2.view (Rect.unit (s := S2x2x12x10x64) ![0, 0, 3, 0, 0] S1x1x1x10x64.size Gen.inb_S2x2x12x10x64_S1x1x1x10x64_0_0_3_0_0).toLoadRect (harg2.unread x1)) (View.readAt (Elt Ideal) arg2.view (Rect.unit (s := S2x2x12x10x64) ![0, 1, 3, 0, 0] S1x1x1x10x64.size Gen.inb_S2x2x12x10x64_S1x1x1x10x64_0_1_3_0_0).toLoadRect (harg2.unread x1)) 128 Gen.slices_S197x768_o0_128_S197x64 192 Gen.slices_S197x768_o0_192_S197x64⟩,
    ⟨Rect.unit (s := S197x768) ![0, 0] S197x128.size Gen.inb_S197x768_S197x128_0_0, pairOut (kernelRun0_A.sl.r_2 c arg1 harg1 arg3 harg3 x0 x2) (kernelRun0_A.sl.r_3 c arg1 harg1 arg3 harg3 x0 x2) (kernelRun0_A.sl.r_4 c arg1 harg1 arg3 harg3 x0 x2) (View.readAt (Elt Ideal) arg2.view (Rect.unit (s := S2x2x12x10x64) ![0, 0, 0, 0, 0] S1x1x1x10x64.size Gen.inb_S2x2x12x10x64_S1x1x1x10x64_0_0_0_0_0).toLoadRect (harg2.unread x1)) (View.readAt (Elt Ideal) arg2.view (Rect.unit (s := S2x2x12x10x64) ![0, 1, 0, 0, 0] S1x1x1x10x64.size Gen.inb_S2x2x12x10x64_S1x1x1x10x64_0_1_0_0_0).toLoadRect (harg2.unread x1)) (View.readAt (Elt Ideal) arg2.view (Rect.unit (s := S2x2x12x10x64) ![0, 0, 1, 0, 0] S1x1x1x10x64.size Gen.inb_S2x2x12x10x64_S1x1x1x10x64_0_0_1_0_0).toLoadRect (harg2.unread x1)) (View.readAt (Elt Ideal) arg2.view (Rect.unit (s := S2x2x12x10x64) ![0, 1, 1, 0, 0] S1x1x1x10x64.size Gen.inb_S2x2x12x10x64_S1x1x1x10x64_0_1_1_0_0).toLoadRect (harg2.unread x1)) 0 Gen.slices_S197x768_o0_0_S197x64 64 Gen.slices_S197x768_o0_64_S197x64⟩]

theorem pieces0 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) :
    kernelRun0_A.sl.HS0_6 c arg1 harg1 arg2 harg2 arg3 harg3 x0 x1 x2 =
    rowPieces0 c arg1 harg1 arg2 harg2 arg3 harg3 x0 x1 x2 := rfl

theorem cover0 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (y : S197x768.Idx) : ∃ p ∈ rowPieces0 c arg1 harg1 arg2 harg2 arg3 harg3 x0 x1 x2, y ∈ p.1.set :=
  View.cover_of_tiledL (s := S197x768) (rowPieces0 c arg1 harg1 arg2 harg2 arg3 harg3 x0 x1 x2) S197x128.size (by sl_kernel_rfl) y

theorem agree0 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) :
    ∀ p ∈ rowPieces0 c arg1 harg1 arg2 harg2 arg3 harg3 x0 x1 x2, ∀ x : p.1.shape.Idx, p.2 x = attnRow X PR W (B 0) (p.1.emb x) := by
  intro p hp
  unfold rowPieces0 at hp
  simp only [List.mem_cons, List.not_mem_nil, or_false] at hp
  rcases hp with rfl | rfl | rfl | rfl | rfl | rfl
  · exact (pair_agrees X PR W (B 0) (kernelRun0_A.sl.r_2 c arg1 harg1 arg3 harg3 x0 x2) (kernelRun0_A.sl.r_3 c arg1 harg1 arg3 harg3 x0 x2) (kernelRun0_A.sl.r_4 c arg1 harg1 arg3 harg3 x0 x2) (proj0_0 c arg1 harg1 arg2 harg2 arg3 harg3 x0 x1 x2 X PR W B h0 h1 h2) (proj0_1 c arg1 harg1 arg2 harg2 arg3 harg3 x0 x1 x2 X PR W B h0 h1 h2) (proj0_2 c arg1 harg1 arg2 harg2 arg3 harg3 x0 x1 x2 X PR W B h0 h1 h2)
      _ _ _ _ (⟨5, by omega⟩ : Fin 6) 640 704 rfl rfl Gen.slices_S197x768_o0_640_S197x64 Gen.slices_S197x768_o0_704_S197x64
      (fun p d => pref_fact arg2 harg2 x1 PR B h1 0 0 10 (by omega) (by omega) (by omega) Gen.inb_S2x2x12x10x64_S1x1x1x10x64_0_0_10_0_0 p d) (fun p d => pref_fact arg2 harg2 x1 PR B h1 0 1 10 (by omega) (by omega) (by omega) Gen.inb_S2x2x12x10x64_S1x1x1x10x64_0_1_10_0_0 p d) (fun p d => pref_fact arg2 harg2 x1 PR B h1 0 0 11 (by omega) (by omega) (by omega) Gen.inb_S2x2x12x10x64_S1x1x1x10x64_0_0_11_0_0 p d) (fun p d => pref_fact arg2 harg2 x1 PR B h1 0 1 11 (by omega) (by omega) (by omega) Gen.inb_S2x2x12x10x64_S1x1x1x10x64_0_1_11_0_0 p d) Gen.inb_S197x768_S197x128_0_640)
  · exact (pair_agrees X PR W (B 0) (kernelRun0_A.sl.r_2 c arg1 harg1 arg3 harg3 x0 x2) (kernelRun0_A.sl.r_3 c arg1 harg1 arg3 harg3 x0 x2) (kernelRun0_A.sl.r_4 c arg1 harg1 arg3 harg3 x0 x2) (proj0_0 c arg1 harg1 arg2 harg2 arg3 harg3 x0 x1 x2 X PR W B h0 h1 h2) (proj0_1 c arg1 harg1 arg2 harg2 arg3 harg3 x0 x1 x2 X PR W B h0 h1 h2) (proj0_2 c arg1 harg1 arg2 harg2 arg3 harg3 x0 x1 x2 X PR W B h0 h1 h2)
      _ _ _ _ (⟨4, by omega⟩ : Fin 6) 512 576 rfl rfl Gen.slices_S197x768_o0_512_S197x64 Gen.slices_S197x768_o0_576_S197x64
      (fun p d => pref_fact arg2 harg2 x1 PR B h1 0 0 8 (by omega) (by omega) (by omega) Gen.inb_S2x2x12x10x64_S1x1x1x10x64_0_0_8_0_0 p d) (fun p d => pref_fact arg2 harg2 x1 PR B h1 0 1 8 (by omega) (by omega) (by omega) Gen.inb_S2x2x12x10x64_S1x1x1x10x64_0_1_8_0_0 p d) (fun p d => pref_fact arg2 harg2 x1 PR B h1 0 0 9 (by omega) (by omega) (by omega) Gen.inb_S2x2x12x10x64_S1x1x1x10x64_0_0_9_0_0 p d) (fun p d => pref_fact arg2 harg2 x1 PR B h1 0 1 9 (by omega) (by omega) (by omega) Gen.inb_S2x2x12x10x64_S1x1x1x10x64_0_1_9_0_0 p d) Gen.inb_S197x768_S197x128_0_512)
  · exact (pair_agrees X PR W (B 0) (kernelRun0_A.sl.r_2 c arg1 harg1 arg3 harg3 x0 x2) (kernelRun0_A.sl.r_3 c arg1 harg1 arg3 harg3 x0 x2) (kernelRun0_A.sl.r_4 c arg1 harg1 arg3 harg3 x0 x2) (proj0_0 c arg1 harg1 arg2 harg2 arg3 harg3 x0 x1 x2 X PR W B h0 h1 h2) (proj0_1 c arg1 harg1 arg2 harg2 arg3 harg3 x0 x1 x2 X PR W B h0 h1 h2) (proj0_2 c arg1 harg1 arg2 harg2 arg3 harg3 x0 x1 x2 X PR W B h0 h1 h2)
      _ _ _ _ (⟨3, by omega⟩ : Fin 6) 384 448 rfl rfl Gen.slices_S197x768_o0_384_S197x64 Gen.slices_S197x768_o0_448_S197x64
      (fun p d => pref_fact arg2 harg2 x1 PR B h1 0 0 6 (by omega) (by omega) (by omega) Gen.inb_S2x2x12x10x64_S1x1x1x10x64_0_0_6_0_0 p d) (fun p d => pref_fact arg2 harg2 x1 PR B h1 0 1 6 (by omega) (by omega) (by omega) Gen.inb_S2x2x12x10x64_S1x1x1x10x64_0_1_6_0_0 p d) (fun p d => pref_fact arg2 harg2 x1 PR B h1 0 0 7 (by omega) (by omega) (by omega) Gen.inb_S2x2x12x10x64_S1x1x1x10x64_0_0_7_0_0 p d) (fun p d => pref_fact arg2 harg2 x1 PR B h1 0 1 7 (by omega) (by omega) (by omega) Gen.inb_S2x2x12x10x64_S1x1x1x10x64_0_1_7_0_0 p d) Gen.inb_S197x768_S197x128_0_384)
  · exact (pair_agrees X PR W (B 0) (kernelRun0_A.sl.r_2 c arg1 harg1 arg3 harg3 x0 x2) (kernelRun0_A.sl.r_3 c arg1 harg1 arg3 harg3 x0 x2) (kernelRun0_A.sl.r_4 c arg1 harg1 arg3 harg3 x0 x2) (proj0_0 c arg1 harg1 arg2 harg2 arg3 harg3 x0 x1 x2 X PR W B h0 h1 h2) (proj0_1 c arg1 harg1 arg2 harg2 arg3 harg3 x0 x1 x2 X PR W B h0 h1 h2) (proj0_2 c arg1 harg1 arg2 harg2 arg3 harg3 x0 x1 x2 X PR W B h0 h1 h2)
      _ _ _ _ (⟨2, by omega⟩ : Fin 6) 256 320 rfl rfl Gen.slices_S197x768_o0_256_S197x64 Gen.slices_S197x768_o0_320_S197x64
      (fun p d => pref_fact arg2 harg2 x1 PR B h1 0 0 4 (by omega) (by omega) (by omega) Gen.inb_S2x2x12x10x64_S1x1x1x10x64_0_0_4_0_0 p d) (fun p d => pref_fact arg2 harg2 x1 PR B h1 0 1 4 (by omega) (by omega) (by omega) Gen.inb_S2x2x12x10x64_S1x1x1x10x64_0_1_4_0_0 p d) (fun p d => pref_fact arg2 harg2 x1 PR B h1 0 0 5 (by omega) (by omega) (by omega) Gen.inb_S2x2x12x10x64_S1x1x1x10x64_0_0_5_0_0 p d) (fun p d => pref_fact arg2 harg2 x1 PR B h1 0 1 5 (by omega) (by omega) (by omega) Gen.inb_S2x2x12x10x64_S1x1x1x10x64_0_1_5_0_0 p d) Gen.inb_S197x768_S197x128_0_256)
  · exact (pair_agrees X PR W (B 0) (kernelRun0_A.sl.r_2 c arg1 harg1 arg3 harg3 x0 x2) (kernelRun0_A.sl.r_3 c arg1 harg1 arg3 harg3 x0 x2) (kernelRun0_A.sl.r_4 c arg1 harg1 arg3 harg3 x0 x2) (proj0_0 c arg1 harg1 arg2 harg2 arg3 harg3 x0 x1 x2 X PR W B h0 h1 h2) (proj0_1 c arg1 harg1 arg2 harg2 arg3 harg3 x0 x1 x2 X PR W B h0 h1 h2) (proj0_2 c arg1 harg1 arg2 harg2 arg3 harg3 x0 x1 x2 X PR W B h0 h1 h2)
      _ _ _ _ (⟨1, by omega⟩ : Fin 6) 128 192 rfl rfl Gen.slices_S197x768_o0_128_S197x64 Gen.slices_S197x768_o0_192_S197x64
      (fun p d => pref_fact arg2 harg2 x1 PR B h1 0 0 2 (by omega) (by omega) (by omega) Gen.inb_S2x2x12x10x64_S1x1x1x10x64_0_0_2_0_0 p d) (fun p d => pref_fact arg2 harg2 x1 PR B h1 0 1 2 (by omega) (by omega) (by omega) Gen.inb_S2x2x12x10x64_S1x1x1x10x64_0_1_2_0_0 p d) (fun p d => pref_fact arg2 harg2 x1 PR B h1 0 0 3 (by omega) (by omega) (by omega) Gen.inb_S2x2x12x10x64_S1x1x1x10x64_0_0_3_0_0 p d) (fun p d => pref_fact arg2 harg2 x1 PR B h1 0 1 3 (by omega) (by omega) (by omega) Gen.inb_S2x2x12x10x64_S1x1x1x10x64_0_1_3_0_0 p d) Gen.inb_S197x768_S197x128_0_128)
  · exact (pair_agrees X PR W (B 0) (kernelRun0_A.sl.r_2 c arg1 harg1 arg3 harg3 x0 x2) (kernelRun0_A.sl.r_3 c arg1 harg1 arg3 harg3 x0 x2) (kernelRun0_A.sl.r_4 c arg1 harg1 arg3 harg3 x0 x2) (proj0_0 c arg1 harg1 arg2 harg2 arg3 harg3 x0 x1 x2 X PR W B h0 h1 h2) (proj0_1 c arg1 harg1 arg2 harg2 arg3 harg3 x0 x1 x2 X PR W B h0 h1 h2) (proj0_2 c arg1 harg1 arg2 harg2 arg3 harg3 x0 x1 x2 X PR W B h0 h1 h2)
      _ _ _ _ (⟨0, by omega⟩ : Fin 6) 0 64 rfl rfl Gen.slices_S197x768_o0_0_S197x64 Gen.slices_S197x768_o0_64_S197x64
      (fun p d => pref_fact arg2 harg2 x1 PR B h1 0 0 0 (by omega) (by omega) (by omega) Gen.inb_S2x2x12x10x64_S1x1x1x10x64_0_0_0_0_0 p d) (fun p d => pref_fact arg2 harg2 x1 PR B h1 0 1 0 (by omega) (by omega) (by omega) Gen.inb_S2x2x12x10x64_S1x1x1x10x64_0_1_0_0_0 p d) (fun p d => pref_fact arg2 harg2 x1 PR B h1 0 0 1 (by omega) (by omega) (by omega) Gen.inb_S2x2x12x10x64_S1x1x1x10x64_0_0_1_0_0 p d) (fun p d => pref_fact arg2 harg2 x1 PR B h1 0 1 1 (by omega) (by omega) (by omega) Gen.inb_S2x2x12x10x64_S1x1x1x10x64_0_1_1_0_0 p d) Gen.inb_S197x768_S197x128_0_0)

/-- What the output projection of batch row 0 reads back from the scratch: the row's attention output. -/
theorem scratch0 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (arg7 : Memref sig .tc .vmem S197x768 .f32) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) :
    kernelRun0_A.sl.v371 c arg1 harg1 arg2 harg2 arg3 harg3 arg7 x0 x1 x2 = attnRow X PR W (B 0) := by
  unfold kernelRun0_A.sl.v371
  rw [pieces0]
  rw [View.readCov_eq_canon_ld _ _ _ (cover0 c arg1 harg1 arg2 harg2 arg3 harg3 x0 x1 x2), View.ld_unit_zero (S := S197x768) hz2]
  funext y
  exact View.canon_apply_of_pieces _ _ (agree0 c arg1 harg1 arg2 harg2 arg3 harg3 x0 x1 x2 X PR W B h0 h1 h2) y (cover0 c arg1 harg1 arg2 harg2 arg3 harg3 x0 x1 x2 y)

/-- The six stores of batch row 1 into the scratch: each one two neighbouring heads' outputs at their 128 columns. -/
def rowPieces1 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) : List (View.Piece (Elt Ideal) S197x768 .f32) :=
    [⟨Rect.unit (s := S197x768) ![0, 640] S197x128.size Gen.inb_S197x768_S197x128_0_640, pairOut (kernelRun0_A.sl.r_32 c arg1 harg1 arg3 harg3 x0 x2) (kernelRun0_A.sl.r_33 c arg1 harg1 arg3 harg3 x0 x2) (kernelRun0_A.sl.r_34 c arg1 harg1 arg3 harg3 x0 x2) (View.readAt (Elt Ideal) arg2.view (Rect.unit (s := S2x2x12x10x64) ![1, 0, 10, 0, 0] S1x1x1x10x64.size Gen.inb_S2x2x12x10x64_S1x1x1x10x64_1_0_10_0_0).toLoadRect (harg2.unread x1)) (View.readAt (Elt Ideal) arg2.view (Rect.unit (s := S2x2x12x10x64) ![1, 1, 10, 0, 0] S1x1x1x10x64.size Gen.inb_S2x2x12x10x64_S1x1x1x10x64_1_1_10_0_0).toLoadRect (harg2.unread x1)) (View.readAt (Elt Ideal) arg2.view (Rect.unit (s := S2x2x12x10x64) ![1, 0, 11, 0, 0] S1x1x1x10x64.size Gen.inb_S2x2x12x10x64_S1x1x1x10x64_1_0_11_0_0).toLoadRect (harg2.unread x1)) (View.readAt (Elt Ideal) arg2.view (Rect.unit (s := S2x2x12x10x64) ![1, 1, 11, 0, 0] S1x1x1x10x64.size Gen.inb_S2x2x12x10x64_S1x1x1x10x64_1_1_11_0_0).toLoadRect (harg2.unread x1)) 640 Gen.slices_S197x768_o0_640_S197x64 704 Gen.slices_S197x768_o0_704_S197x64⟩,
    ⟨Rect.unit (s := S197x768) ![0, 512] S197x128.size Gen.inb_S197x768_S197x128_0_512, pairOut (kernelRun0_A.sl.r_32 c arg1 harg1 arg3 harg3 x0 x2) (kernelRun0_A.sl.r_33 c arg1 harg1 arg3 harg3 x0 x2) (kernelRun0_A.sl.r_34 c arg1 harg1 arg3 harg3 x0 x2) (View.readAt (Elt Ideal) arg2.view (Rect.unit (s := S2x2x12x10x64) ![1, 0, 8, 0, 0] S1x1x1x10x64.size Gen.inb_S2x2x12x10x64_S1x1x1x10x64_1_0_8_0_0).toLoadRect (harg2.unread x1)) (View.readAt (Elt Ideal) arg2.view (Rect.unit (s := S2x2x12x10x64) ![1, 1, 8, 0, 0] S1x1x1x10x64.size Gen.inb_S2x2x12x10x64_S1x1x1x10x64_1_1_8_0_0).toLoadRect (harg2.unread x1)) (View.readAt (Elt Ideal) arg2.view (Rect.unit (s := S2x2x12x10x64) ![1, 0, 9, 0, 0] S1x1x1x10x64.size Gen.inb_S2x2x12x10x64_S1x1x1x10x64_1_0_9_0_0).toLoadRect (harg2.unread x1)) (View.readAt (Elt Ideal) arg2.view (Rect.unit (s := S2x2x12x10x64) ![1, 1, 9, 0, 0] S1x1x1x10x64.size Gen.inb_S2x2x12x10x64_S1x1x1x10x64_1_1_9_0_0).toLoadRect (harg2.unread x1)) 512 Gen.slices_S197x768_o0_512_S197x64 576 Gen.slices_S197x768_o0_576_S197x64⟩,
    ⟨Rect.unit (s := S197x768) ![0, 384] S197x128.size Gen.inb_S197x768_S197x128_0_384, pairOut (kernelRun0_A.sl.r_32 c arg1 harg1 arg3 harg3 x0 x2) (kernelRun0_A.sl.r_33 c arg1 harg1 arg3 harg3 x0 x2) (kernelRun0_A.sl.r_34 c arg1 harg1 arg3 harg3 x0 x2) (View.readAt (Elt Ideal) arg2.view (Rect.unit (s := S2x2x12x10x64) ![1, 0, 6, 0, 0] S1x1x1x10x64.size Gen.inb_S2x2x12x10x64_S1x1x1x10x64_1_0_6_0_0).toLoadRect (harg2.unread x1)) (View.readAt (Elt Ideal) arg2.view (Rect.unit (s := S2x2x12x10x64) ![1, 1, 6, 0, 0] S1x1x1x10x64.size Gen.inb_S2x2x12x10x64_S1x1x1x10x64_1_1_6_0_0).toLoadRect (harg2.unread x1)) (View.readAt (Elt Ideal) arg2.view (Rect.unit (s := S2x2x12x10x64) ![1, 0, 7, 0, 0] S1x1x1x10x64.size Gen.inb_S2x2x12x10x64_S1x1x1x10x64_1_0_7_0_0).toLoadRect (harg2.unread x1)) (View.readAt (Elt Ideal) arg2.view (Rect.unit (s := S2x2x12x10x64) ![1, 1, 7, 0, 0] S1x1x1x10x64.size Gen.inb_S2x2x12x10x64_S1x1x1x10x64_1_1_7_0_0).toLoadRect (harg2.unread x1)) 384 Gen.slices_S197x768_o0_384_S197x64 448 Gen.slices_S197x768_o0_448_S197x64⟩,
    ⟨Rect.unit (s := S197x768) ![0, 256] S197x128.size Gen.inb_S197x768_S197x128_0_256, pairOut (kernelRun0_A.sl.r_32 c arg1 harg1 arg3 harg3 x0 x2) (kernelRun0_A.sl.r_33 c arg1 harg1 arg3 harg3 x0 x2) (kernelRun0_A.sl.r_34 c arg1 harg1 arg3 harg3 x0 x2) (View.readAt (Elt Ideal) arg2.view (Rect.unit (s := S2x2x12x10x64) ![1, 0, 4, 0, 0] S1x1x1x10x64.size Gen.inb_S2x2x12x10x64_S1x1x1x10x64_1_0_4_0_0).toLoadRect (harg2.unread x1)) (View.readAt (Elt Ideal) arg2.view (Rect.unit (s := S2x2x12x10x64) ![1, 1, 4, 0, 0] S1x1x1x10x64.size Gen.inb_S2x2x12x10x64_S1x1x1x10x64_1_1_4_0_0).toLoadRect (harg2.unread x1)) (View.readAt (Elt Ideal) arg2.view (Rect.unit (s := S2x2x12x10x64) ![1, 0, 5, 0, 0] S1x1x1x10x64.size Gen.inb_S2x2x12x10x64_S1x1x1x10x64_1_0_5_0_0).toLoadRect (harg2.unread x1)) (View.readAt (Elt Ideal) arg2.view (Rect.unit (s := S2x2x12x10x64) ![1, 1, 5, 0, 0] S1x1x1x10x64.size Gen.inb_S2x2x12x10x64_S1x1x1x10x64_1_1_5_0_0).toLoadRect (harg2.unread x1)) 256 Gen.slices_S197x768_o0_256_S197x64 320 Gen.slices_S197x768_o0_320_S197x64⟩,
    ⟨Rect.unit (s := S197x768) ![0, 128] S197x128.size Gen.inb_S197x768_S197x128_0_128, pairOut (kernelRun0_A.sl.r_32 c arg1 harg1 arg3 harg3 x0 x2) (kernelRun0_A.sl.r_33 c arg1 harg1 arg3 harg3 x0 x2) (kernelRun0_A.sl.r_34 c arg1 harg1 arg3 harg3 x0 x2) (View.readAt (Elt Ideal) arg2.view (Rect.unit (s := S2x2x12x10x64) ![1, 0, 2, 0, 0] S1x1x1x10x64.size Gen.inb_S2x2x12x10x64_S1x1x1x10x64_1_0_2_0_0).toLoadRect (harg2.unread x1)) (View.readAt (Elt Ideal) arg2.view (Rect.unit (s := S2x2x12x10x64) ![1, 1, 2, 0, 0] S1x1x1x10x64.size Gen.inb_S2x2x12x10x64_S1x1x1x10x64_1_1_2_0_0).toLoadRect (harg2.unread x1)) (View.readAt (Elt Ideal) arg2.view (Rect.unit (s := S2x2x12x10x64) ![1, 0, 3, 0, 0] S1x1x1x10x64.size Gen.inb_S2x2x12x10x64_S1x1x1x10x64_1_0_3_0_0).toLoadRect (harg2.unread x1)) (View.readAt (Elt Ideal) arg2.view (Rect.unit (s := S2x2x12x10x64) ![1, 1, 3, 0, 0] S1x1x1x10x64.size Gen.inb_S2x2x12x10x64_S1x1x1x10x64_1_1_3_0_0).toLoadRect (harg2.unread x1)) 128 Gen.slices_S197x768_o0_128_S197x64 192 Gen.slices_S197x768_o0_192_S197x64⟩,
    ⟨Rect.unit (s := S197x768) ![0, 0] S197x128.size Gen.inb_S197x768_S197x128_0_0, pairOut (kernelRun0_A.sl.r_32 c arg1 harg1 arg3 harg3 x0 x2) (kernelRun0_A.sl.r_33 c arg1 harg1 arg3 harg3 x0 x2) (kernelRun0_A.sl.r_34 c arg1 harg1 arg3 harg3 x0 x2) (View.readAt (Elt Ideal) arg2.view (Rect.unit (s := S2x2x12x10x64) ![1, 0, 0, 0, 0] S1x1x1x10x64.size Gen.inb_S2x2x12x10x64_S1x1x1x10x64_1_0_0_0_0).toLoadRect (harg2.unread x1)) (View.readAt (Elt Ideal) arg2.view (Rect.unit (s := S2x2x12x10x64) ![1, 1, 0, 0, 0] S1x1x1x10x64.size Gen.inb_S2x2x12x10x64_S1x1x1x10x64_1_1_0_0_0).toLoadRect (harg2.unread x1)) (View.readAt (Elt Ideal) arg2.view (Rect.unit (s := S2x2x12x10x64) ![1, 0, 1, 0, 0] S1x1x1x10x64.size Gen.inb_S2x2x12x10x64_S1x1x1x10x64_1_0_1_0_0).toLoadRect (harg2.unread x1)) (View.readAt (Elt Ideal) arg2.view (Rect.unit (s := S2x2x12x10x64) ![1, 1, 1, 0, 0] S1x1x1x10x64.size Gen.inb_S2x2x12x10x64_S1x1x1x10x64_1_1_1_0_0).toLoadRect (harg2.unread x1)) 0 Gen.slices_S197x768_o0_0_S197x64 64 Gen.slices_S197x768_o0_64_S197x64⟩]

theorem pieces1 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) :
    kernelRun0_A.sl.HS0_12 c arg1 harg1 arg2 harg2 arg3 harg3 x0 x1 x2 =
    rowPieces1 c arg1 harg1 arg2 harg2 arg3 harg3 x0 x1 x2 ++ kernelRun0_A.sl.HS0_6 c arg1 harg1 arg2 harg2 arg3 harg3 x0 x1 x2 := rfl

theorem cover1 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (y : S197x768.Idx) : ∃ p ∈ rowPieces1 c arg1 harg1 arg2 harg2 arg3 harg3 x0 x1 x2, y ∈ p.1.set :=
  View.cover_of_tiledL (s := S197x768) (rowPieces1 c arg1 harg1 arg2 harg2 arg3 harg3 x0 x1 x2) S197x128.size (by sl_kernel_rfl) y

theorem agree1 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) :
    ∀ p ∈ rowPieces1 c arg1 harg1 arg2 harg2 arg3 harg3 x0 x1 x2, ∀ x : p.1.shape.Idx, p.2 x = attnRow X PR W (B 1) (p.1.emb x) := by
  intro p hp
  unfold rowPieces1 at hp
  simp only [List.mem_cons, List.not_mem_nil, or_false] at hp
  rcases hp with rfl | rfl | rfl | rfl | rfl | rfl
  · exact (pair_agrees X PR W (B 1) (kernelRun0_A.sl.r_32 c arg1 harg1 arg3 harg3 x0 x2) (kernelRun0_A.sl.r_33 c arg1 harg1 arg3 harg3 x0 x2) (kernelRun0_A.sl.r_34 c arg1 harg1 arg3 harg3 x0 x2) (proj1_0 c arg1 harg1 arg2 harg2 arg3 harg3 x0 x1 x2 X PR W B h0 h1 h2) (proj1_1 c arg1 harg1 arg2 harg2 arg3 harg3 x0 x1 x2 X PR W B h0 h1 h2) (proj1_2 c arg1 harg1 arg2 harg2 arg3 harg3 x0 x1 x2 X PR W B h0 h1 h2)
      _ _ _ _ (⟨5, by omega⟩ : Fin 6) 640 704 rfl rfl Gen.slices_S197x768_o0_640_S197x64 Gen.slices_S197x768_o0_704_S197x64
      (fun p d => pref_fact arg2 harg2 x1 PR B h1 1 0 10 (by omega) (by omega) (by omega) Gen.inb_S2x2x12x10x64_S1x1x1x10x64_1_0_10_0_0 p d) (fun p d => pref_fact arg2 harg2 x1 PR B h1 1 1 10 (by omega) (by omega) (by omega) Gen.inb_S2x2x12x10x64_S1x1x1x10x64_1_1_10_0_0 p d) (fun p d => pref_fact arg2 harg2 x1 PR B h1 1 0 11 (by omega) (by omega) (by omega) Gen.inb_S2x2x12x10x64_S1x1x1x10x64_1_0_11_0_0 p d) (fun p d => pref_fact arg2 harg2 x1 PR B h1 1 1 11 (by omega) (by omega) (by omega) Gen.inb_S2x2x12x10x64_S1x1x1x10x64_1_1_11_0_0 p d) Gen.inb_S197x768_S197x128_0_640)
  · exact (pair_agrees X PR W (B 1) (kernelRun0_A.sl.r_32 c arg1 harg1 arg3 harg3 x0 x2) (kernelRun0_A.sl.r_33 c arg1 harg1 arg3 harg3 x0 x2) (kernelRun0_A.sl.r_34 c arg1 harg1 arg3 harg3 x0 x2) (proj1_0 c arg1 harg1 arg2 harg2 arg3 harg3 x0 x1 x2 X PR W B h0 h1 h2) (proj1_1 c arg1 harg1 arg2 harg2 arg3 harg3 x0 x1 x2 X PR W B h0 h1 h2) (proj1_2 c arg1 harg1 arg2 harg2 arg3 harg3 x0 x1 x2 X PR W B h0 h1 h2)
      _ _ _ _ (⟨4, by omega⟩ : Fin 6) 512 576 rfl rfl Gen.slices_S197x768_o0_512_S197x64 Gen.slices_S197x768_o0_576_S197x64
      (fun p d => pref_fact arg2 harg2 x1 PR B h1 1 0 8 (by omega) (by omega) (by omega) Gen.inb_S2x2x12x10x64_S1x1x1x10x64_1_0_8_0_0 p d) (fun p d => pref_fact arg2 harg2 x1 PR B h1 1 1 8 (by omega) (by omega) (by omega) Gen.inb_S2x2x12x10x64_S1x1x1x10x64_1_1_8_0_0 p d) (fun p d => pref_fact arg2 harg2 x1 PR B h1 1 0 9 (by omega) (by omega) (by omega) Gen.inb_S2x2x12x10x64_S1x1x1x10x64_1_0_9_0_0 p d) (fun p d => pref_fact arg2 harg2 x1 PR B h1 1 1 9 (by omega) (by omega) (by omega) Gen.inb_S2x2x12x10x64_S1x1x1x10x64_1_1_9_0_0 p d) Gen.inb_S197x768_S197x128_0_512)
  · exact (pair_agrees X PR W (B 1) (kernelRun0_A.sl.r_32 c arg1 harg1 arg3 harg3 x0 x2) (kernelRun0_A.sl.r_33 c arg1 harg1 arg3 harg3 x0 x2) (kernelRun0_A.sl.r_34 c arg1 harg1 arg3 harg3 x0 x2) (proj1_0 c arg1 harg1 arg2 harg2 arg3 harg3 x0 x1 x2 X PR W B h0 h1 h2) (proj1_1 c arg1 harg1 arg2 harg2 arg3 harg3 x0 x1 x2 X PR W B h0 h1 h2) (proj1_2 c arg1 harg1 arg2 harg2 arg3 harg3 x0 x1 x2 X PR W B h0 h1 h2)
      _ _ _ _ (⟨3, by omega⟩ : Fin 6) 384 448 rfl rfl Gen.slices_S197x768_o0_384_S197x64 Gen.slices_S197x768_o0_448_S197x64
      (fun p d => pref_fact arg2 harg2 x1 PR B h1 1 0 6 (by omega) (by omega) (by omega) Gen.inb_S2x2x12x10x64_S1x1x1x10x64_1_0_6_0_0 p d) (fun p d => pref_fact arg2 harg2 x1 PR B h1 1 1 6 (by omega) (by omega) (by omega) Gen.inb_S2x2x12x10x64_S1x1x1x10x64_1_1_6_0_0 p d) (fun p d => pref_fact arg2 harg2 x1 PR B h1 1 0 7 (by omega) (by omega) (by omega) Gen.inb_S2x2x12x10x64_S1x1x1x10x64_1_0_7_0_0 p d) (fun p d => pref_fact arg2 harg2 x1 PR B h1 1 1 7 (by omega) (by omega) (by omega) Gen.inb_S2x2x12x10x64_S1x1x1x10x64_1_1_7_0_0 p d) Gen.inb_S197x768_S197x128_0_384)
  · exact (pair_agrees X PR W (B 1) (kernelRun0_A.sl.r_32 c arg1 harg1 arg3 harg3 x0 x2) (kernelRun0_A.sl.r_33 c arg1 harg1 arg3 harg3 x0 x2) (kernelRun0_A.sl.r_34 c arg1 harg1 arg3 harg3 x0 x2) (proj1_0 c arg1 harg1 arg2 harg2 arg3 harg3 x0 x1 x2 X PR W B h0 h1 h2) (proj1_1 c arg1 harg1 arg2 harg2 arg3 harg3 x0 x1 x2 X PR W B h0 h1 h2) (proj1_2 c arg1 harg1 arg2 harg2 arg3 harg3 x0 x1 x2 X PR W B h0 h1 h2)
      _ _ _ _ (⟨2, by omega⟩ : Fin 6) 256 320 rfl rfl Gen.slices_S197x768_o0_256_S197x64 Gen.slices_S197x768_o0_320_S197x64
      (fun p d => pref_fact arg2 harg2 x1 PR B h1 1 0 4 (by omega) (by omega) (by omega) Gen.inb_S2x2x12x10x64_S1x1x1x10x64_1_0_4_0_0 p d) (fun p d => pref_fact arg2 harg2 x1 PR B h1 1 1 4 (by omega) (by omega) (by omega) Gen.inb_S2x2x12x10x64_S1x1x1x10x64_1_1_4_0_0 p d) (fun p d => pref_fact arg2 harg2 x1 PR B h1 1 0 5 (by omega) (by omega) (by omega) Gen.inb_S2x2x12x10x64_S1x1x1x10x64_1_0_5_0_0 p d) (fun p d => pref_fact arg2 harg2 x1 PR B h1 1 1 5 (by omega) (by omega) (by omega) Gen.inb_S2x2x12x10x64_S1x1x1x10x64_1_1_5_0_0 p d) Gen.inb_S197x768_S197x128_0_256)
  · exact (pair_agrees X PR W (B 1) (kernelRun0_A.sl.r_32 c arg1 harg1 arg3 harg3 x0 x2) (kernelRun0_A.sl.r_33 c arg1 harg1 arg3 harg3 x0 x2) (kernelRun0_A.sl.r_34 c arg1 harg1 arg3 harg3 x0 x2) (proj1_0 c arg1 harg1 arg2 harg2 arg3 harg3 x0 x1 x2 X PR W B h0 h1 h2) (proj1_1 c arg1 harg1 arg2 harg2 arg3 harg3 x0 x1 x2 X PR W B h0 h1 h2) (proj1_2 c arg1 harg1 arg2 harg2 arg3 harg3 x0 x1 x2 X PR W B h0 h1 h2)
      _ _ _ _ (⟨1, by omega⟩ : Fin 6) 128 192 rfl rfl Gen.slices_S197x768_o0_128_S197x64 Gen.slices_S197x768_o0_192_S197x64
      (fun p d => pref_fact arg2 harg2 x1 PR B h1 1 0 2 (by omega) (by omega) (by omega) Gen.inb_S2x2x12x10x64_S1x1x1x10x64_1_0_2_0_0 p d) (fun p d => pref_fact arg2 harg2 x1 PR B h1 1 1 2 (by omega) (by omega) (by omega) Gen.inb_S2x2x12x10x64_S1x1x1x10x64_1_1_2_0_0 p d) (fun p d => pref_fact arg2 harg2 x1 PR B h1 1 0 3 (by omega) (by omega) (by omega) Gen.inb_S2x2x12x10x64_S1x1x1x10x64_1_0_3_0_0 p d) (fun p d => pref_fact arg2 harg2 x1 PR B h1 1 1 3 (by omega) (by omega) (by omega) Gen.inb_S2x2x12x10x64_S1x1x1x10x64_1_1_3_0_0 p d) Gen.inb_S197x768_S197x128_0_128)
  · exact (pair_agrees X PR W (B 1) (kernelRun0_A.sl.r_32 c arg1 harg1 arg3 harg3 x0 x2) (kernelRun0_A.sl.r_33 c arg1 harg1 arg3 harg3 x0 x2) (kernelRun0_A.sl.r_34 c arg1 harg1 arg3 harg3 x0 x2) (proj1_0 c arg1 harg1 arg2 harg2 arg3 harg3 x0 x1 x2 X PR W B h0 h1 h2) (proj1_1 c arg1 harg1 arg2 harg2 arg3 harg3 x0 x1 x2 X PR W B h0 h1 h2) (proj1_2 c arg1 harg1 arg2 harg2 arg3 harg3 x0 x1 x2 X PR W B h0 h1 h2)
      _ _ _ _ (⟨0, by omega⟩ : Fin 6) 0 64 rfl rfl Gen.slices_S197x768_o0_0_S197x64 Gen.slices_S197x768_o0_64_S197x64
      (fun p d => pref_fact arg2 harg2 x1 PR B h1 1 0 0 (by omega) (by omega) (by omega) Gen.inb_S2x2x12x10x64_S1x1x1x10x64_1_0_0_0_0 p d) (fun p d => pref_fact arg2 harg2 x1 PR B h1 1 1 0 (by omega) (by omega) (by omega) Gen.inb_S2x2x12x10x64_S1x1x1x10x64_1_1_0_0_0 p d) (fun p d => pref_fact arg2 harg2 x1 PR B h1 1 0 1 (by omega) (by omega) (by omega) Gen.inb_S2x2x12x10x64_S1x1x1x10x64_1_0_1_0_0 p d) (fun p d => pref_fact arg2 harg2 x1 PR B h1 1 1 1 (by omega) (by omega) (by omega) Gen.inb_S2x2x12x10x64_S1x1x1x10x64_1_1_1_0_0 p d) Gen.inb_S197x768_S197x128_0_0)

/-- What the output projection of batch row 1 reads back from the scratch: the row's attention output. -/
theorem scratch1 (c : Dev nD) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (arg7 : Memref sig .tc .vmem S197x768 .f32) (x0 : Vec Ideal S2x197x768 .f32) (x1 : Vec Ideal S2x2x12x10x64 .f32) (x2 : Vec Ideal S2304x768 .bf16) (X : AttnSpec.SX.Idx → EReal) (PR : AttnSpec.SP.Idx → EReal) (W : AttnSpec.SW.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) :
    kernelRun0_A.sl.v748 c arg1 harg1 arg2 harg2 arg3 harg3 arg7 x0 x1 x2 = attnRow X PR W (B 1) := by
  unfold kernelRun0_A.sl.v748
  rw [pieces1]
  have hcov' : ∀ y : S197x768.Idx, ∃ p ∈ rowPieces1 c arg1 harg1 arg2 harg2 arg3 harg3 x0 x1 x2 ++ kernelRun0_A.sl.HS0_6 c arg1 harg1 arg2 harg2 arg3 harg3 x0 x1 x2, y ∈ p.1.set := fun y => by
    obtain ⟨p, hp, hy⟩ := cover1 c arg1 harg1 arg2 harg2 arg3 harg3 x0 x1 x2 y
    exact ⟨p, List.mem_append_left _ hp, hy⟩
  rw [View.readCov_eq_canon_ld _ _ _ hcov', View.ld_unit_zero (S := S197x768) hz2]
  funext y
  exact canon_prefix _ _ _ (agree1 c arg1 harg1 arg2 harg2 arg3 harg3 x0 x1 x2 X PR W B h0 h1 h2) y (cover1 c arg1 harg1 arg2 harg2 arg3 harg3 x0 x1 x2 y)

end Cert.KernelIdeal.Attn

end
-- ==== Proof.BlockValue.lean ====
/-
  What one grid point's body leaves in its output block.

  The block has two batch rows. For each the body multiplies the row's attention output (read back from the scratch)
  by the output projection matrix, adds the bias and stores the [197, 768] result as that row of the block. The two
  stores tile the block, so row bi of the block reads the bi-th store: at (token n, column o) the sum over c of the
  attention output (n, c) times the projection matrix (o, c), plus the bias at o — the specification's output for the
  batch row that block row stands for.
-/
import proofs.«177170_j52106543235483_2_alg».proof.Proof.ScratchRows

set_option maxRecDepth 16384

noncomputable section

namespace Cert.KernelIdeal.Attn

open Cert.KernelIdeal Cert.KernelIdeal.Gen Idealize.ShloMosaic Idealize.ShloMosaic.ValueIdx Idealize.ShloMosaic.TcCoe Idealize.SL.Sem

/-- The output projection of one batch row: the row's attention output against the projection matrix, plus the bias. -/
theorem row_final (w3 : FVec Ideal S768x768 .bf16) (scr : Vec Ideal S197x768 .f32) (bias : Vec Ideal S768 .f32)
    (X : AttnSpec.SX.Idx → EReal) (PR : AttnSpec.SP.Idx → EReal) (W : AttnSpec.SW.Idx → EReal) (PW : AttnSpec.SPW.Idx → EReal) (PB : AttnSpec.SB.Idx → EReal) (b : Fin 64)
    (hscr : scr = attnRow X PR W b) (hw : w3 = PW) (hb : bias = PB) (n : Fin 197) (o : Fin 768) :
    k0_pay41 w3 scr bias (ix3 0 n o) = AttnSpec.outK X PR W PW PB (Ideal.ofBits .f32 0x3E000000#32) (Ideal.ofBits .f32 0xFF800000#32) b n o := by
  rw [rowOut_apply, hscr, hw, hb]
  rfl

/-- The projection matrix as the body reads it: the staged block itself. -/
theorem projw_eq (c : Dev nD) (arg4 : Memref sig .tc .vmem S768x768 .bf16) (harg4 : arg4.IsWhole) (x3 : Vec Ideal S768x768 .bf16) :
    kernelRun0_A.sl.r_1 c arg4 harg4 x3 = x3 := by
  show shapeCast S768x768 (View.ld (Val := Elt Ideal) (arg4.view.read (Elt Ideal) (harg4.unread x3)) (Rect.unit (s := S768x768) ![0, 0] S768x768.size Gen.inb_S768x768_S768x768_0_0)) Gen.shapeCasts_S768x768_S768x768 = x3
  refine (shapeCast_self (s := S768x768) _ _).trans ?_
  rw [harg4.read_unread, View.ld_unit_zero (S := S768x768) hz2]

/-- The bias as the body reads it: the staged block itself. -/
theorem bias_eq (arg5 : Memref sig .tc .vmem S768 .f32) (harg5 : arg5.IsWhole) (x4 : Vec Ideal S768 .f32) (y : S768.Idx) :
    View.readAt (Elt Ideal) arg5.view (Rect.unit (s := S768) ![0] S768.size Gen.inb_S768_S768_0).toLoadRect (harg5.unread x4) y = x4 y := by
  show View.ld (Val := Elt Ideal) (arg5.view.read (Elt Ideal) (harg5.unread x4)) (Rect.unit (s := S768) ![0] S768.size Gen.inb_S768_S768_0) y = x4 y
  rw [harg5.read_unread, View.ld_unit_zero (S := S768) hz1]

theorem emb_row (bi : Nat) (inb : ∀ a, (![bi, 0, 0] : Fin 3 → Nat) a + S1x197x768.size a ≤ S2x197x768.size a) (hbi : bi < 2) (n : Fin 197) (o : Fin 768) :
    (Rect.unit (s := S2x197x768) ![bi, 0, 0] S1x197x768.size inb).emb (ix3 0 n o) = (ix3 ⟨bi, hbi⟩ n o : S2x197x768.Idx) := by
  funext a; apply Fin.ext
  match a with
  | ⟨0, _⟩ => show bi + 1 * 0 = bi; omega
  | ⟨1, _⟩ => show 0 + 1 * n.val = n.val; omega
  | ⟨2, _⟩ => show 0 + 1 * o.val = o.val; omega

/-- The output block after the body's two stores, one per batch row: at row `bi` it reads that row's store. -/
theorem canon_rows (w1 : S1x197x768.Idx → EReal) (w0 : S1x197x768.Idx → EReal) (bi : Fin 2) (n : Fin 197) (o : Fin 768) (R : EReal)
    (h1 : bi.val = 1 → w1 (ix3 0 n o) = R) (h0 : bi.val = 0 → w0 (ix3 0 n o) = R) :
    View.canon (Val := Elt Ideal) (s := S2x197x768) (e := .f32)
      [⟨Rect.unit (s := S2x197x768) ![1, 0, 0] S1x197x768.size Gen.inb_S2x197x768_S1x197x768_1_0_0, w1⟩,
       ⟨Rect.unit (s := S2x197x768) ![0, 0, 0] S1x197x768.size Gen.inb_S2x197x768_S1x197x768_0_0_0, w0⟩] (ix3 bi n o) = R := by
  let G : S2x197x768.Idx → EReal := fun y => if (y 0).val = 1 then w1 (ix3 0 (y 1) (y 2)) else w0 (ix3 0 (y 1) (y 2))
  have hG : ∀ p ∈ ([⟨Rect.unit (s := S2x197x768) ![1, 0, 0] S1x197x768.size Gen.inb_S2x197x768_S1x197x768_1_0_0, w1⟩,
       ⟨Rect.unit (s := S2x197x768) ![0, 0, 0] S1x197x768.size Gen.inb_S2x197x768_S1x197x768_0_0_0, w0⟩] : List (View.Piece (Elt Ideal) S2x197x768 .f32)),
      ∀ x : p.1.shape.Idx, p.2 x = G (p.1.emb x) := by
    intro p hp
    simp only [List.mem_cons, List.not_mem_nil, or_false] at hp
    rcases hp with rfl | rfl
    · intro x
      obtain ⟨a, n', o', rfl⟩ : ∃ (a : Fin 1) (n' : Fin 197) (o' : Fin 768), x = ix3 a n' o' := ⟨x 0, x 1, x 2, eq_ix3 x⟩
      obtain rfl : a = 0 := Subsingleton.elim _ _
      rw [emb_row 1 Gen.inb_S2x197x768_S1x197x768_1_0_0 (by omega) n' o']
      exact (if_pos rfl).symm
    · intro x
      obtain ⟨a, n', o', rfl⟩ : ∃ (a : Fin 1) (n' : Fin 197) (o' : Fin 768), x = ix3 a n' o' := ⟨x 0, x 1, x 2, eq_ix3 x⟩
      obtain rfl : a = 0 := Subsingleton.elim _ _
      rw [emb_row 0 Gen.inb_S2x197x768_S1x197x768_0_0_0 (by omega) n' o']
      exact (if_neg (by show ¬ (0 : ℕ) = 1; omega)).symm
  have hmem : ∃ p ∈ ([⟨Rect.unit (s := S2x197x768) ![1, 0, 0] S1x197x768.size Gen.inb_S2x197x768_S1x197x768_1_0_0, w1⟩,
       ⟨Rect.unit (s := S2x197x768) ![0, 0, 0] S1x197x768.size Gen.inb_S2x197x768_S1x197x768_0_0_0, w0⟩] : List (View.Piece (Elt Ideal) S2x197x768 .f32)),
      (ix3 bi n o : S2x197x768.Idx) ∈ p.1.set := by
    rcases bi with ⟨_ | _ | bv, hbv⟩
    · refine ⟨_, List.mem_cons_of_mem _ List.mem_cons_self, ?_⟩
      rw [← emb_row 0 Gen.inb_S2x197x768_S1x197x768_0_0_0 hbv n o]
      exact LoadRect.idx_mem _ _
    · refine ⟨_, List.mem_cons_self, ?_⟩
      rw [← emb_row 1 Gen.inb_S2x197x768_S1x197x768_1_0_0 hbv n o]
      exact LoadRect.idx_mem _ _
    · omega
  rw [View.canon_apply_of_pieces G _ hG _ hmem]
  show (if bi.val = 1 then w1 (ix3 0 n o) else w0 (ix3 0 n o)) = R
  rcases bi with ⟨_ | _ | bv, hbv⟩
  · rw [if_neg (by show ¬ (0 : ℕ) = 1; omega)]; exact h0 rfl
  · rw [if_pos rfl]; exact h1 rfl
  · omega

/-- What one grid point's body leaves in its output block: at (row, token, column) the specification's output of the
    batch row the block's row stands for. -/
theorem block_value (c : Dev nD) (i : grid0.Coords) (arg1 : Memref sig .tc .vmem S2x197x768 .f32) (harg1 : arg1.IsWhole) (arg2 : Memref sig .tc .vmem S2x2x12x10x64 .f32) (harg2 : arg2.IsWhole) (arg3 : Memref sig .tc .vmem S2304x768 .bf16) (harg3 : arg3.IsWhole) (arg4 : Memref sig .tc .vmem S768x768 .bf16) (harg4 : arg4.IsWhole) (arg5 : Memref sig .tc .vmem S768 .f32) (harg5 : arg5.IsWhole) (arg6 : Memref sig .tc .vmem S2x197x768 .f32) (harg6 : arg6.IsWhole) (arg7 : Memref sig .tc .vmem S197x768 .f32) (harg7 : arg7.IsWhole)
    (x0 : Vec Ideal S2x197x768 .f32) (x1 : Vec Ideal S2x2x12x10x64 .f32) (x2 : Vec Ideal S2304x768 .bf16) (x3 : Vec Ideal S768x768 .bf16) (x4 : Vec Ideal S768 .f32)
    (X : AttnSpec.SX.Idx → EReal) (PR : AttnSpec.SP.Idx → EReal) (W : AttnSpec.SW.Idx → EReal) (PW : AttnSpec.SPW.Idx → EReal) (PB : AttnSpec.SB.Idx → EReal) (B : Fin 2 → Fin 64)
    (h0 : ∀ (bi : Fin 2) (n : Fin 197) (e : Fin 768), x0 (ix3 bi n e) = X (ix3 (B bi) n e))
    (h1 : ∀ (bi s : Fin 2) (h : Fin 12) (p : Fin 10) (d : Fin 64), x1 (ix5 bi s h p d) = PR (ix5 (B bi) s p h d))
    (h2 : x2 = W) (h3 : x3 = PW) (h4 : x4 = PB) (bi : Fin 2) (n : Fin 197) (o : Fin 768) :
    out0_A_5 (F := Ideal) c i arg1 harg1 arg2 harg2 arg3 harg3 arg4 harg4 arg5 harg5 arg6 harg6 arg7 harg7 x0 x1 x2 x3 x4 (ix3 bi n o)
      = AttnSpec.outK X PR W PW PB (Ideal.ofBits .f32 0x3E000000#32) (Ideal.ofBits .f32 0xFF800000#32) (B bi) n o := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  have hrow1 : k0_pay1 (kernelRun0_A.sl.r_68 c arg1 harg1 arg2 harg2 arg3 harg3 arg4 harg4 arg5 harg5 arg7 x0 x1 x2 x3 x4) (ix3 0 n o)
      = AttnSpec.outK X PR W PW PB (Ideal.ofBits .f32 0x3E000000#32) (Ideal.ofBits .f32 0xFF800000#32) (B 1) n o := by
    show k0_pay1 (k0_pay85 (kernelRun0_A.sl.r_1 c arg4 harg4 x3) (kernelRun0_A.sl.v748 c arg1 harg1 arg2 harg2 arg3 harg3 arg7 x0 x1 x2)
      (View.readAt (Elt Ideal) arg5.view (Rect.unit (s := S768) ![0] S768.size Gen.inb_S768_S768_0).toLoadRect (harg5.unread x4))) (ix3 0 n o) = _
    rw [row1_out]
    exact row_final _ _ _ X PR W PW PB (B 1) (scratch1 c arg1 harg1 arg2 harg2 arg3 harg3 arg7 x0 x1 x2 X PR W B h0 h1 h2)
      ((projw_eq c arg4 harg4 x3).trans h3) (funext fun y => (bias_eq arg5 harg5 x4 y).trans (congrFun h4 y)) n o
  have hrow0 : k0_pay41 (kernelRun0_A.sl.r_1 c arg4 harg4 x3) (kernelRun0_A.sl.v371 c arg1 harg1 arg2 harg2 arg3 harg3 arg7 x0 x1 x2)
      (View.readAt (Elt Ideal) arg5.view (Rect.unit (s := S768) ![0] S768.size Gen.inb_S768_S768_0).toLoadRect (harg5.unread x4)) (ix3 0 n o)
      = AttnSpec.outK X PR W PW PB (Ideal.ofBits .f32 0x3E000000#32) (Ideal.ofBits .f32 0xFF800000#32) (B 0) n o :=
    row_final _ _ _ X PR W PW PB (B 0) (scratch0 c arg1 harg1 arg2 harg2 arg3 harg3 arg7 x0 x1 x2 X PR W B h0 h1 h2)
      ((projw_eq c arg4 harg4 x3).trans h3) (funext fun y => (bias_eq arg5 harg5 x4 y).trans (congrFun h4 y)) n o
  refine canon_rows _ _ bi n o _ (fun hb => ?_) (fun hb => ?_)
  · obtain rfl : bi = 1 := Fin.ext hb
    exact hrow1
  · obtain rfl : bi = 0 := Fin.ext hb
    exact hrow0

end Cert.KernelIdeal.Attn

end
-- ==== Proof.lean ====
/-
  The certificate's five claims, assembled.

  The three frame claims are the programs' frame runs: each program terminates without fault and leaves its five
  argument arrays as they were. The idealization rewrote no operation, so what it must preserve is nothing.

  The algebraic claim. On the extended reals both idealized programs compute, index by index, multi-head attention
  with a learned prefix followed by the output projection and its bias. They differ in one place: the kernel divides
  the weighted sum of values by the softmax denominator, the reference divides each weight by it before the sum. When
  every input entry is a real number the scores and the row maximum are real, every weight is the exponential of a
  real and so a positive real, and the denominator, a sum of 207 of them, is a positive real: dividing by it
  distributes over the sum, and the two outputs are equal.
-/
import proofs.«177170_j52106543235483_2_alg».proof.Defs
import proofs.«177170_j52106543235483_2_alg».proof.Proof.Gen.Kernel
import proofs.«177170_j52106543235483_2_alg».proof.Proof.Gen.Kernel.Skeleton
import proofs.«177170_j52106543235483_2_alg».proof.Proof.Gen.Kernel.Launch
import proofs.«177170_j52106543235483_2_alg».proof.Proof.Gen.Kernel.Points
import proofs.«177170_j52106543235483_2_alg».proof.Proof.Gen.Kernel.Frame
import proofs.«177170_j52106543235483_2_alg».proof.Proof.Gen.KernelIdeal
import proofs.«177170_j52106543235483_2_alg».proof.Proof.Gen.KernelIdeal.Skeleton
import proofs.«177170_j52106543235483_2_alg».proof.Proof.Gen.KernelIdeal.Launch
import proofs.«177170_j52106543235483_2_alg».proof.Proof.Gen.KernelIdeal.Points
import proofs.«177170_j52106543235483_2_alg».proof.Proof.Gen.KernelIdeal.Frame
import proofs.«177170_j52106543235483_2_alg».proof.Proof.Gen.ReferenceIdeal
import proofs.«177170_j52106543235483_2_alg».proof.Proof.Gen.Pre_finite_inputs
import proofs.«177170_j52106543235483_2_alg».proof.Proof.Gen.KernelIdeal.Value
import proofs.«177170_j52106543235483_2_alg».proof.Proof.Gen.ReferenceIdeal.Run
import proofs.«177170_j52106543235483_2_alg».proof.Proof.Gen.ReferenceIdeal.Read
import proofs.«177170_j52106543235483_2_alg».proof.Proof.AttnLaw
import proofs.«177170_j52106543235483_2_alg».proof.Proof.Finite
import proofs.«177170_j52106543235483_2_alg».proof.Proof.RefValue
import proofs.«177170_j52106543235483_2_alg».proof.Proof.KernelRun
import proofs.«177170_j52106543235483_2_alg».proof.Proof.BlockValue
import Idealize.ShloMosaic.Adequacy
import Idealize.ShloMosaic.Init

noncomputable section

namespace Cert.Proof

open Idealize.ShloMosaic Idealize.ShloMosaic.TcCoe Idealize.SL.Sem

theorem frame_Kernel : Cert.frame_Kernel := fun m ρ _ => Cert.Kernel.Gen.frame m ρ

theorem frame_KernelIdeal : Cert.frame_KernelIdeal := fun m ρ _ => Cert.KernelIdeal.Gen.frame m ρ

theorem frame_ReferenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, all of whose entries are real, the kernel's output array is the
    attention output with the normalization after the weighted sum, the reference's the one with the normalization
    before it, and the two are equal index by index. -/
theorem algebraic : Cert.algebraic_KernelIdeal_ReferenceIdeal := by
  intro m ρ m' ρ' hpre hagree
  refine ⟨fun c => Cert.KernelIdeal.RunValue.outArr m c, Cert.KernelIdeal.RunValue.run m ρ Cert.KernelIdeal.Attn.block_value, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq]
  funext i
  rw [Cert.ReferenceIdeal.RefValue.ref_eq_outR, (hagree c).1, (hagree c).2.1, (hagree c).2.2.1, (hagree c).2.2.2.1,
    (hagree c).2.2.2.2]
  obtain ⟨h0, h1, h2, -, -⟩ := Cert.Finite.finite_of_Pre_KernelIdeal m hpre c
  exact (Cert.AttnSpec.outK_eq_outR _ _ _ _ _ _ _ h0 h1 h2 Cert.AttnSpec.scale_real Cert.AttnSpec.ninf_bot
    (i 0) (i 1) (i 2)).symm

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
